-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S100000x64 : Shape := ⟨2, ![100000, 64]⟩

abbrev nBuf : Space → Nat
  | .hbm => 91
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000, .f32⟩
  | .hbm, ⟨48, _⟩ => ⟨S1600000x1, .f32⟩
  | .hbm, ⟨49, _⟩ => ⟨S100000, .f32⟩
  | .hbm, ⟨50, _⟩ => ⟨S100000x1, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S1600000x128, .f32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S100000x128, .f32⟩
  | .hbm, ⟨85, _⟩ => ⟨S128x128, .f32⟩
  | .hbm, ⟨86, _⟩ => ⟨S128, .f32⟩
  | .hbm, ⟨87, _⟩ => ⟨S1x128, .f32⟩
  | .hbm, ⟨88, _⟩ => ⟨S100000x128, .f32⟩
  | .hbm, ⟨89, _⟩ => ⟨S100000x64, .f32⟩
  | .hbm, ⟨90, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S1600000_S1600000x1 : S1600000.ShapeCasts S1600000x1
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S128x64_S128x64_S128x128_d1 : Shape.Concatenates [S128x64, S128x64] S128x128 1
  concatenates_S64_S64_S128_d0 : Shape.Concatenates [S64, S64] S128 0
  shapeCasts_S128x128_S128x128 : S128x128.ShapeCasts S128x128
  slices_S100000x128_S100000x64_0_0 : S100000x128.Slices ![0, 0] S100000x64
  slices_S100000x128_S100000x64_0_64 : S100000x128.Slices ![0, 64] S100000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v59) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 198
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S128x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S1600000x1, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000, .f32⟩
  | 66 => ⟨S100000x1, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x64, .f32⟩
  | 77 => ⟨S_, .f32⟩
  | 78 => ⟨S1600000, .f32⟩
  | 79 => ⟨S_, .f32⟩
  | 80 => ⟨S100000, .f32⟩
  | 81 => ⟨S1600000x1, .i32⟩
  | 82 => ⟨S100000, .f32⟩
  | 83 => ⟨S_, .f32⟩
  | 84 => ⟨S100000, .f32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x64, .f32⟩
  | 122 => ⟨S1600000x1, .f32⟩
  | 123 => ⟨S1600000x64, .f32⟩
  | 124 => ⟨S1600000x64, .f32⟩
  | 125 => ⟨S_, .f32⟩
  | 126 => ⟨S100000x64, .f32⟩
  | 127 => ⟨S1600000x1, .i32⟩
  | _ => ⟨S100000x128, .f32⟩

abbrev hbmTy0_1 (i : Nat) : BufTy := match i % 128 with
  | 0 => ⟨S100000x64, .f32⟩
  | 1 => ⟨S100000, .f32⟩
  | 2 => ⟨S100000x1, .f32⟩
  | 3 => ⟨S100000x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S100000x64, .f32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S1600000x1, .f32⟩
  | 56 => ⟨S1600000x64, .f32⟩
  | 57 => ⟨S1600000x64, .f32⟩
  | 58 => ⟨S_, .f32⟩
  | 59 => ⟨S100000x64, .f32⟩
  | 60 => ⟨S1600000x1, .i32⟩
  | 61 => ⟨S100000x64, .f32⟩
  | 62 => ⟨S100000, .f32⟩
  | 63 => ⟨S100000x1, .f32⟩
  | 64 => ⟨S100000x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_call2_v0 : Ref sig .tc := ⟨.hbm, 91, rfl⟩
abbrev main_call2_v1 : Ref sig .tc := ⟨.hbm, 92, rfl⟩
abbrev main_v62 : Ref sig .tc := ⟨.hbm, 93, rfl⟩
abbrev main_c_15 : Ref sig .tc := ⟨.hbm, 94, rfl⟩
abbrev main_v63 : Ref sig .tc := ⟨.hbm, 95, rfl⟩
abbrev main_v64 : Ref sig .tc := ⟨.hbm, 96, rfl⟩
abbrev main_c_16 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_17 : Ref sig .tc := ⟨.hbm, 103, rfl⟩
abbrev main_v70 : Ref sig .tc := ⟨.hbm, 104, rfl⟩
abbrev main_v71 : Ref sig .tc := ⟨.hbm, 105, rfl⟩
abbrev main_c_18 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_19 : Ref sig .tc := ⟨.hbm, 113, rfl⟩
abbrev main_v78 : Ref sig .tc := ⟨.hbm, 114, rfl⟩
abbrev main_v79 : Ref sig .tc := ⟨.hbm, 115, rfl⟩
abbrev main_c_20 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_21 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_22 : Ref sig .tc := ⟨.hbm, 138, rfl⟩
abbrev main_v100 : Ref sig .tc := ⟨.hbm, 139, rfl⟩
abbrev main_cst_23 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_24 : Ref sig .tc := ⟨.hbm, 144, rfl⟩
abbrev main_v104 : Ref sig .tc := ⟨.hbm, 145, rfl⟩
abbrev main_v105 : Ref sig .tc := ⟨.hbm, 146, rfl⟩
abbrev main_cst_25 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_26 : Ref sig .tc := ⟨.hbm, 151, rfl⟩
abbrev main_call3_v0 : Ref sig .tc := ⟨.hbm, 152, rfl⟩
abbrev main_call3_v1 : Ref sig .tc := ⟨.hbm, 153, rfl⟩
abbrev main_v109 : Ref sig .tc := ⟨.hbm, 154, rfl⟩
abbrev main_c_27 : Ref sig .tc := ⟨.hbm, 155, rfl⟩
abbrev main_v110 : Ref sig .tc := ⟨.hbm, 156, rfl⟩
abbrev main_v111 : Ref sig .tc := ⟨.hbm, 157, rfl⟩
abbrev main_c_28 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_c_29 : Ref sig .tc := ⟨.hbm, 164, rfl⟩
abbrev main_v117 : Ref sig .tc := ⟨.hbm, 165, rfl⟩
abbrev main_v118 : Ref sig .tc := ⟨.hbm, 166, rfl⟩
abbrev main_c_30 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_c_31 : Ref sig .tc := ⟨.hbm, 174, rfl⟩
abbrev main_v125 : Ref sig .tc := ⟨.hbm, 175, rfl⟩
abbrev main_v126 : Ref sig .tc := ⟨.hbm, 176, rfl⟩
abbrev main_c_32 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_33 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibOutlined.lean ====
/-
  Two facts about a line of host operations, for any program.

  * The buffer contents after two lines run one after the other are the second line's contents from the first's:
    `after (l₁ ++ l₂) V = after l₂ (after l₁ V)`. A long line can therefore be read back one stretch at a time, each
    stretch from an arbitrary valuation, and the readings composed.
  * An operation of an outlined function carries each value to its buffer's own type and, at the next operation, back
    (`TRef.toBuf`, `TRef.ofBuf`: transport along the equation "the buffer's type is the value's"). A value carried there
    and back is unchanged, whatever the buffer: `x.ofBuf (x.toBuf v) = v`. Rewriting with it (it matches syntactically,
    no buffer type is evaluated) clears every intermediate of an outlined function from the contents after its
    operations; what is left are the transports at the function's inputs and results, one small equation each.
-/
import Idealize.ShloMosaic.Lib.StableHlo.Run

noncomputable section

namespace Cert.Lib.Outlined

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih _

/-- Contents carried to a buffer's own type and back are unchanged. -/
theorem ofBuf_toBuf {T : BufTy} (x : TRef sig T) (v : T.Contents Val) : x.ofBuf (x.toBuf v) = v := by
  obtain ⟨r, h, _, _⟩ := x
  subst h
  rfl

/-- The other way round. -/
theorem toBuf_ofBuf {T : BufTy} (x : TRef sig T) (u : x.ref.ty.Contents Val) : x.toBuf (x.ofBuf u) = u := by
  obtain ⟨r, h, _, _⟩ := x
  subst h
  rfl

end Cert.Lib.Outlined

end
-- ==== Proof.Spec.lean ====
/-
  A two-hop graph convolution, entry by entry, on the extended reals.

  The graph is a list of E edges, each a pair of 32-bit words: a source word, read signed and clamped
  into [0, N-1], names the row an edge reads; a destination word, read signed, names the row it adds to
  (an edge whose destination word is no row number adds to nothing). Each edge carries a weight
  `nrm e`, each node a self-loop weight `d2 n`.

  `aggAt` is the weighted sum of the rows the in-edges of node n read. One hop is
  `aggAt H + H·d2 (+ b)`. A hop can be taken AFTER a dense map (`denseThenConvAt`: hop (H·W) + b)
  or BEFORE it (`mixThenDenseAt`: (hop H)·W + b); the two agree when every number is real, because
  then the hop is linear in H (module Linear).
-/
import Idealize.ShloMosaic.PureOps.Ideal
import Idealize.ShloMosaic.Lib.ValueIdx

noncomputable section

open scoped BigOperators
open Idealize.ShloMosaic Idealize.ShloMosaic.ValueIdx

namespace Cert.Gcn

/-- A matrix of extended reals, as an array indexed by its two coordinates. -/
abbrev Mat (a b : ℕ) : Type := (⟨2, ![a, b]⟩ : Shape).Idx → EReal
/-- A column of 32-bit words, one per edge. -/
abbrev Words (E : ℕ) : Type := IVec ⟨2, ![E, 1]⟩ 32

variable {N E K C Q : ℕ}

/-- The array whose entry (p, q) is `f p q`. -/
def ofAt {a b : ℕ} (f : Fin a → Fin b → EReal) : Mat a b := fun i => f (i 0) (i 1)

theorem ofAt_apply {a b : ℕ} (f : Fin a → Fin b → EReal) (p : Fin a) (q : Fin b) : ofAt f (ix2 p q) = f p q := rfl

/-- Entry (p, q) of the matrix product X·W. -/
def prodAt (X : Mat N K) (W : Mat K Q) (p : Fin N) (q : Fin Q) : EReal :=
  ∑ k : Fin K, X (ix2 p k) * W (ix2 k q)

/-- The row an edge reads: its source word read signed, clamped into [0, N-1]. -/
def rowOf (hN : 0 < N) (src : Words E) (e : Fin E) : Fin N :=
  ⟨min (src (ix2 e (0 : Fin 1))).toInt.toNat (N - 1), by omega⟩

/-- The weighted sum, from zero, over the edges whose destination word reads n, of the row each edge
    reads, at column k. -/
def aggAt (hN : 0 < N) (H : Mat N C) (src dst : Words E) (nrm : Fin E → EReal) (n : Fin N) (k : Fin C) : EReal :=
  0 + ∑ e : Fin E, if (dst (ix2 e (0 : Fin 1))).toInt = (n.val : ℤ) then H (ix2 (rowOf hN src e) k) * nrm e else 0

/-- One hop without bias: the in-edges' weighted sum plus the node's own row times its self-loop weight. -/
def mixAt (hN : 0 < N) (H : Mat N C) (src dst : Words E) (nrm : Fin E → EReal) (d2 : Fin N → EReal)
    (n : Fin N) (k : Fin C) : EReal :=
  aggAt hN H src dst nrm n k + H (ix2 n k) * d2 n

/-- One hop with bias. -/
def convAt (hN : 0 < N) (H : Mat N C) (src dst : Words E) (nrm : Fin E → EReal) (d2 : Fin N → EReal)
    (b : Fin C → EReal) (n : Fin N) (k : Fin C) : EReal :=
  mixAt hN H src dst nrm d2 n k + b k

/-- The first layer: a dense map, one hop with bias, then the positive part. -/
def layer1At (hN : 0 < N) (X : Mat N K) (W : Mat K C) (src dst : Words E) (nrm : Fin E → EReal)
    (d2 : Fin N → EReal) (b : Fin C → EReal) (n : Fin N) (k : Fin C) : EReal :=
  max (convAt hN (ofAt (prodAt X W)) src dst nrm d2 b n k) 0

/-- A hop taken BEFORE the dense map: (hop H)·W + b. -/
def mixThenDenseAt (hN : 0 < N) (H : Mat N C) (src dst : Words E) (nrm : Fin E → EReal) (d2 : Fin N → EReal)
    (W : Mat C Q) (b : Fin Q → EReal) (n : Fin N) (q : Fin Q) : EReal :=
  prodAt (ofAt (mixAt hN H src dst nrm d2)) W n q + b q

/-- A hop taken AFTER the dense map: hop (H·W) + b. -/
def denseThenConvAt (hN : 0 < N) (H : Mat N C) (src dst : Words E) (nrm : Fin E → EReal) (d2 : Fin N → EReal)
    (W : Mat C Q) (b : Fin Q → EReal) (n : Fin N) (q : Fin Q) : EReal :=
  convAt hN (ofAt (prodAt H W)) src dst nrm d2 b n q

end Cert.Gcn

end
-- ==== Proof.LibRealSums.lean ====
/-
  Finite sums of real numbers inside the extended reals, and a quotient moved across such a sum.

  General facts, with no program in sight: `Fin' x` says that the extended real `x` is a real; a finite sum and a sum of two such are
  again real (`fin'_sum`, `fin'_add`), the coercion of a finite real sum is the sum of the coercions (`coe_sum`), the inverse of any
  extended real is a real (`fin'_inv`), and `div_sum_mul`: for real `a c`, `h c` and any `D ≠ 0`,
  `(∑ c, a c · h c) / D = ∑ c, (a c / D) · h c` for the extended reals' own division.  The use: a row normalised before a
  matrix product against the same row normalised after it.

  One program divides every entry of a row of `a` by the row's total `D` and then takes the row's inner product with a
  column of `h`; the other takes the inner product first and divides once.  On the extended reals a quotient by a nonzero
  `D` is the product with the inverse of `D`, which is always a real, and a real factor moves across a finite sum of REAL
  terms — but not across a sum that may hold both infinities, which is why every entry of `a` and `h` is asked to be a real here.
  (Division by zero is not a product at all on the extended reals, hence `D ≠ 0`.)
-/
import Idealize.ShloMosaic.PureOps.Ideal

noncomputable section

open scoped BigOperators

namespace Cert.Lib.RealSums

open Idealize.ShloMosaic

/-- "Neither infinity": the extended real is a real number. -/
def Fin' (x : EReal) : Prop := x ≠ ⊤ ∧ x ≠ ⊥

theorem Fin'.exists_real {x : EReal} (h : Fin' x) : ∃ r : ℝ, x = (r : EReal) :=
  ⟨x.toReal, (EReal.coe_toReal h.1 h.2).symm⟩

theorem fin'_coe (r : ℝ) : Fin' (r : EReal) := ⟨EReal.coe_ne_top r, EReal.coe_ne_bot r⟩

/-- The coercion of a finite sum of reals is the sum of the coercions. -/
theorem coe_sum {ι : Type*} (s : Finset ι) (f : ι → ℝ) : ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- A finite sum of reals is a real. -/
theorem fin'_sum {ι : Type*} (s : Finset ι) (a : ι → EReal) (ha : ∀ c, Fin' (a c)) : Fin' (∑ c ∈ s, a c) := by
  choose a' ha' using fun c => (ha c).exists_real
  have : (∑ c ∈ s, a c) = ((∑ c ∈ s, a' c : ℝ) : EReal) := by
    rw [coe_sum]; exact Finset.sum_congr rfl fun c _ => ha' c
  rw [this]; exact fin'_coe _

theorem fin'_add {x y : EReal} (hx : Fin' x) (hy : Fin' y) : Fin' (x + y) := by
  obtain ⟨a, rfl⟩ := hx.exists_real
  obtain ⟨b, rfl⟩ := hy.exists_real
  rw [← EReal.coe_add]; exact fin'_coe _

theorem fin'_zero : Fin' (0 : EReal) := by
  rw [← EReal.coe_zero]; exact fin'_coe _

/-- The inverse of an extended real is never an infinity (the inverses of both infinities, and of zero, are zero). -/
theorem fin'_inv (D : EReal) : Fin' D⁻¹ := by
  induction D using EReal.rec
  · rw [EReal.inv_bot]; exact fin'_zero
  · rw [← EReal.coe_inv]; exact fin'_coe _
  · rw [EReal.inv_top]; exact fin'_zero

/-- THE LAW. For real entries and a nonzero divisor, dividing the inner product is the inner product of the divided entries:
    off zero a quotient is the product with the divisor's inverse, which is a real, and a real factor moves across a sum of reals. -/
theorem div_sum_mul {ι : Type*} (s : Finset ι) (a h : ι → EReal) (D : EReal)
    (ha : ∀ c, Fin' (a c)) (hh : ∀ c, Fin' (h c)) (hD0 : D ≠ 0) :
    Ideal.div (∑ c ∈ s, a c * h c) D = ∑ c ∈ s, Ideal.div (a c) D * h c := by
  obtain ⟨e, he⟩ := (fin'_inv D).exists_real
  choose a' ha' using fun c => (ha c).exists_real
  choose h' hh' using fun c => (hh c).exists_real
  have e1 : (∑ c ∈ s, a c * h c) = ((∑ c ∈ s, a' c * h' c : ℝ) : EReal) := by
    rw [coe_sum]; exact Finset.sum_congr rfl fun c _ => by rw [ha' c, hh' c, EReal.coe_mul]
  have e2 : (∑ c ∈ s, Ideal.div (a c) D * h c) = ((∑ c ∈ s, a' c * e * h' c : ℝ) : EReal) := by
    rw [coe_sum]
    exact Finset.sum_congr rfl fun c _ => by rw [Ideal.div, if_neg hD0, he, ha' c, hh' c, EReal.coe_mul, EReal.coe_mul]
  rw [e1, e2, Ideal.div, if_neg hD0, he, ← EReal.coe_mul, Finset.sum_mul]
  exact congrArg _ (Finset.sum_congr rfl fun c _ => by ring)

end Cert.Lib.RealSums

end
-- ==== Proof.Linear.lean ====
/-
  One graph-convolution hop is linear on the reals inside the extended reals.

  When every entry of the feature matrix, of the dense weights, of the edge weights and of the
  self-loop weights is a real number, every sum and product of the hop is a real, and a hop taken
  before a dense map equals the hop taken after it:
    Σ_k ((0 + Σ_e [dst e = n] H[row e, k]·nrm e) + H[n,k]·d2 n)·W[k,q] + b q
      = ((0 + Σ_e [dst e = n] (Σ_k H[row e,k]·W[k,q])·nrm e) + (Σ_k H[n,k]·W[k,q])·d2 n) + b q.
  The identity is first shown for real-valued functions, where multiplication distributes over finite
  sums and double sums commute; it is then carried to the extended reals by choosing a real witness for
  each entry and moving the coercion outward.  (On the extended reals themselves distributivity fails
  at the infinities, hence the hypotheses.)  The bias b may be any extended real.

  Also: a count of ones, started from zero, is a nonnegative real, and the reciprocal square root of
  one more than a nonnegative real is a real.
-/
import proofs.«159517_j46093589021377_2_alg».proof.Proof.Spec
import proofs.«159517_j46093589021377_2_alg».proof.Proof.LibRealSums

noncomputable section

open scoped BigOperators
open Idealize.ShloMosaic Idealize.ShloMosaic.ValueIdx
open Cert.Lib.RealSums

namespace Cert.Gcn

variable {N E C K Q : ℕ}

/-- every entry real -/
def RealMat {a b : ℕ} (M : Mat a b) : Prop := ∀ (p : Fin a) (q : Fin b), ∃ r : ℝ, M (ix2 p q) = (r : EReal)

/-- every value real -/
def RealFn {ι : Type} (f : ι → EReal) : Prop := ∀ i, ∃ r : ℝ, f i = (r : EReal)

/-! ### Reals are closed under the operations of a hop -/

theorem real_zero : ∃ r : ℝ, (0 : EReal) = (r : EReal) := ⟨0, EReal.coe_zero.symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_sum {ι : Type} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl fun i _ => hg i⟩

theorem real_ite {p : Prop} [Decidable p] {x y : EReal} (hx : ∃ r : ℝ, x = (r : EReal))
    (hy : ∃ r : ℝ, y = (r : EReal)) : ∃ r : ℝ, (if p then x else y) = (r : EReal) := by
  split_ifs
  · exact hx
  · exact hy

theorem real_max_zero {x : EReal} (hx : ∃ r : ℝ, x = (r : EReal)) : ∃ r : ℝ, max x 0 = (r : EReal) := by
  obtain ⟨a, rfl⟩ := hx
  refine ⟨max a 0, ?_⟩
  rw [← EReal.coe_zero]
  exact (EReal.coe_strictMono.monotone.map_max).symm

/-- the coercion of a real chosen by cases is the coercion chosen by cases -/
theorem coe_ite (p : Prop) [Decidable p] (a b : ℝ) :
    (((if p then a else b : ℝ)) : EReal) = if p then (a : EReal) else (b : EReal) := by
  split_ifs <;> rfl

theorem prodAt_real (X : Mat N K) (W : Mat K Q) (hX : RealMat X) (hW : RealMat W) (p : Fin N) (q : Fin Q) :
    ∃ r : ℝ, prodAt X W p q = (r : EReal) :=
  real_sum _ _ fun k => real_mul (hX p k) (hW k q)

theorem realMat_ofAt {a b : ℕ} (f : Fin a → Fin b → EReal) (h : ∀ p q, ∃ r : ℝ, f p q = (r : EReal)) :
    RealMat (ofAt f) := fun p q => by
  rw [ofAt_apply]; exact h p q

theorem aggAt_real (hN : 0 < N) (H : Mat N C) (src dst : Words E) (nrm : Fin E → EReal) (hH : RealMat H)
    (hn : RealFn nrm) (n : Fin N) (k : Fin C) : ∃ r : ℝ, aggAt hN H src dst nrm n k = (r : EReal) :=
  real_add real_zero (real_sum _ _ fun e => real_ite (real_mul (hH _ k) (hn e)) real_zero)

theorem layer1At_real (hN : 0 < N) (X : Mat N K) (W : Mat K C) (src dst : Words E) (nrm : Fin E → EReal)
    (d2 : Fin N → EReal) (b : Fin C → EReal) (hX : RealMat X) (hW : RealMat W) (hn : RealFn nrm)
    (hd : RealFn d2) (hb : RealFn b) (n : Fin N) (k : Fin C) :
    ∃ r : ℝ, layer1At hN X W src dst nrm d2 b n k = (r : EReal) := by
  have hP : RealMat (ofAt (prodAt X W)) := realMat_ofAt _ (prodAt_real X W hX hW)
  exact real_max_zero (real_add (real_add (aggAt_real hN _ src dst nrm hP hn n k) (real_mul (hP n k) (hd n))) (hb k))

/-! ### The law on the reals -/

/-- Over the reals: the weighted sum over the chosen edges plus the own row, then a dense map, is the
    dense map first and the weighted sum after. -/
theorem hop_dense_real {N E C Q : ℕ} (h : Fin N → Fin C → ℝ) (w : Fin C → Fin Q → ℝ) (nr : Fin E → ℝ) (dd : ℝ)
    (row : Fin E → Fin N) (p : Fin E → Prop) [DecidablePred p] (n : Fin N) (q : Fin Q) :
    ∑ k : Fin C, ((0 + ∑ e : Fin E, if p e then h (row e) k * nr e else 0) + h n k * dd) * w k q
      = (0 + ∑ e : Fin E, if p e then (∑ k : Fin C, h (row e) k * w k q) * nr e else 0)
        + (∑ k : Fin C, h n k * w k q) * dd := by
  simp only [zero_add, add_mul, Finset.sum_add_distrib]
  congr 1
  · simp only [Finset.sum_mul]
    rw [Finset.sum_comm]
    refine Finset.sum_congr rfl fun e _ => ?_
    split_ifs
    · exact Finset.sum_congr rfl fun k _ => by ring
    · simp
  · rw [Finset.sum_mul]
    exact Finset.sum_congr rfl fun k _ => by ring

/-! ### The law on the extended reals -/

/-- THE LAW: a hop before a dense map is the hop after it, when every number is real (b may be any
    extended real). -/
theorem mixThenDense_eq_denseThenConv (hN : 0 < N) (H : Mat N C) (src dst : Words E) (nrm : Fin E → EReal)
    (d2 : Fin N → EReal) (W : Mat C Q) (b : Fin Q → EReal) (hH : RealMat H) (hn : RealFn nrm) (hd : RealFn d2)
    (hW : RealMat W) (n : Fin N) (q : Fin Q) :
    mixThenDenseAt hN H src dst nrm d2 W b n q = denseThenConvAt hN H src dst nrm d2 W b n q := by
  choose h hh using hH
  choose w hw using hW
  choose nr hnr using hn
  choose dd hdd using hd
  have key := hop_dense_real h w nr (dd n) (rowOf hN src)
    (fun e => (dst (ix2 e (0 : Fin 1))).toInt = (n.val : ℤ)) n q
  have key' := congrArg (fun x : ℝ => (x : EReal)) key
  simp only [coe_sum, EReal.coe_add, EReal.coe_mul, EReal.coe_zero, coe_ite, ← hh, ← hw, ← hnr, ← hdd] at key'
  simp only [mixThenDenseAt, denseThenConvAt, convAt, mixAt, aggAt, ofAt_apply, prodAt]
  rw [key']

/-! ### The node weights -/

/-- A count of ones, started from zero, is a nonnegative real. -/
theorem count_real {ι : Type} [Fintype ι] (p : ι → Prop) [DecidablePred p] :
    ∃ r : ℝ, 0 ≤ r ∧ (0 : EReal) + ∑ e : ι, (if p e then (1 : EReal) else 0) = (r : EReal) := by
  refine ⟨∑ e : ι, (if p e then (1 : ℝ) else 0), Finset.sum_nonneg fun e _ => by split_ifs <;> norm_num, ?_⟩
  rw [zero_add, coe_sum]
  exact Finset.sum_congr rfl fun e _ => by rw [coe_ite, EReal.coe_one, EReal.coe_zero]

/-- The reciprocal square root of one more than a nonnegative real is a real. -/
theorem rsqrt_succ_real (r : ℝ) (hr : 0 ≤ r) : ∃ s : ℝ, Ideal.rsqrt (((r : ℝ) : EReal) + 1) = (s : EReal) := by
  have h1 : ((r : ℝ) : EReal) + 1 = ((r + 1 : ℝ) : EReal) := by rw [EReal.coe_add, EReal.coe_one]
  have hpos : 0 < r + 1 := by linarith
  refine ⟨(Real.sqrt (r + 1))⁻¹, ?_⟩
  rw [h1, Ideal.rsqrt_coe, if_neg (not_lt.mpr hpos.le), if_neg hpos.ne']

end Cert.Gcn

end
-- ==== Proof.PreReal.lean ====
/-
  From "every entry is below +∞ in absolute value" to "every entry is a real number".

  The printed precondition compares, for each of the seven float arrays, the absolute value of every
  entry with the word 0x7F800000 (which denotes +∞), takes the conjunction over all entries, and then
  the conjunction of the seven results.  On the extended reals |x| = max x (-x), and max x (-x) < ⊤
  fails for x = ⊤ (the maximum is ⊤) and for x = ⊥ (then -x = ⊤), so it holds exactly when x is the
  image of a real.  Hence, if the precondition is all ones, every entry of every float array is real.
-/
import proofs.«159517_j46093589021377_2_alg».proof.Pre_finite_inputs
import proofs.«159517_j46093589021377_2_alg».proof.Proof.Spec
import proofs.«159517_j46093589021377_2_alg».proof.Proof.Linear
import Idealize.ShloMosaic.Lib.ReduceAll

noncomputable section

open Idealize.ShloMosaic Idealize.ShloMosaic.ValueIdx
open Cert.Gcn Cert.Pre_finite_inputs

namespace Cert.PreReal

/-- The scalar shape has one index. -/
instance subsingleton_scalar_idx : Subsingleton S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value is below +∞ is a real. -/
theorem real_of_abs_lt_top (y : EReal) (h : max y (-y) < ⊤) : ∃ r : ℝ, y = (r : EReal) := by
  induction y using EReal.rec with
  | bot => exact absurd h (by simp)
  | coe r => exact ⟨r, rfl⟩
  | top => exact absurd h (by simp)

/-- One array: if the conjunction over all entries of "|x| < +∞" is one, every entry is a real. -/
theorem real_of_all_lt_inf {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1)
    (i : s.Idx) : ∃ r : ℝ, x i = (r : EReal) := by
  have h1 := Host.reduce_andi_all _ _ hr hu ix0 e i
  change Ideal.cmp .olt (max (x i) (-(x i))) (Ideal.ofBits .f32 0x7F800000#32) = 1#1 at h1
  rw [ofBits_inf] at h1
  refine real_of_abs_lt_top (x i) ?_
  by_contra hn
  simp [Ideal.cmp, hn] at h1

/-- The precondition all ones: every entry of every float array is a real. -/
theorem real_of_pre [Cert.Pre_finite_inputs.Facts] (a0 : FVec Ideal S100000x128 .f32) (a1 : IVec S2x1600000 32)
    (a2 : FVec Ideal S128x128 .f32) (a3 : FVec Ideal S128 .f32) (a4 : FVec Ideal S128x64 .f32)
    (a5 : FVec Ideal S64 .f32) (a6 : FVec Ideal S128x64 .f32) (a7 : FVec Ideal S64 .f32)
    (h : Cert.Pre_finite_inputs.fn (F := Ideal) a0 a1 a2 a3 a4 a5 a6 a7 = fun _ => 1#1) :
    RealMat a0 ∧ RealMat a2 ∧ RealFn (fun k : Fin 128 => a3 (ix1 k)) ∧ RealMat a4 ∧
      RealFn (fun q : Fin 64 => a5 (ix1 q)) ∧ RealMat a6 ∧ RealFn (fun q : Fin 64 => a7 (ix1 q)) := by
  have h0 := congrFun h ix0
  dsimp only [Cert.Pre_finite_inputs.fn, Cert.Pre_finite_inputs.fn_part1] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨fun p q => real_of_all_lt_inf a0 _ _ _ e0 (ix2 p q),
    fun p q => real_of_all_lt_inf a2 _ _ _ e2 (ix2 p q),
    fun k => real_of_all_lt_inf a3 _ _ _ e3 (ix1 k),
    fun p q => real_of_all_lt_inf a4 _ _ _ e4 (ix2 p q),
    fun q => real_of_all_lt_inf a5 _ _ _ e5 (ix1 q),
    fun p q => real_of_all_lt_inf a6 _ _ _ e6 (ix2 p q),
    fun q => real_of_all_lt_inf a7 _ _ _ e7 (ix1 q)⟩

end Cert.PreReal

end
-- ==== Proof.KernelRun.lean ====
/-
  The idealized kernel program's run with its two results named.

  The program is eleven segments: stretches of host operations and four grid regions. The buffer contents at
  each segment boundary are a fold from the launch memory (the frame module's `W0 … W11`); after the last
  segment every unscoped buffer holds `W11`'s contents. The frame statement keeps of this only that the
  arguments are unchanged; here the same run is stated with the two result buffers kept as well:
  they end at `W11` read at their references.
-/
import proofs.«159517_j46093589021377_2_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault; the two results end at the
    last boundary's contents, and the arguments as launched. -/
theorem run_results : θ_run defs (onTc (τ := τ) (main (F := F))) ⟨m, fun _ => 0, ρ⟩ (fun r => ∀ c : Dev nD,
      r.2.mem ((c.tc : Thread nD τ).loc main_v64) = W11 m ρ c (Proc.devRef .tc main_v64)
      ∧ r.2.mem ((c.tc : Thread nD τ).loc main_v65) = W11 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v64 (by decide)),
       h c _ (mem_uc main_v65 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Results

end
-- ==== Proof.KernelGraph.lean ====
/-
  The graph data of the idealized kernel program, named.

  Before its first grid region the program computes, from the edge list, the source words and the destination
  words (one 32-bit word per edge), the edge weights (the product of the two end nodes' inverse square-root
  degrees) as a column, and the self-loop weights (the square of a node's inverse square-root degree) as a
  column. No later operation and no region writes these buffers. They are named here as the contents of their
  buffers at the first region's entry; `col` and `wrapCol` are the two ways a word vector is turned into a
  column of row numbers: as it is (for the scatter by destination) and after the negative-index wrap (for a
  gather).
-/
import proofs.«159517_j46093589021377_2_alg».proof.Proof.Gen.KernelIdeal.Frame
import Idealize.ShloMosaic.PureOps.Ideal

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The source words. -/
def gSrc : IVec S1600000 32 := W3 m ρ c (Proc.devRef .tc main_v1)
/-- The destination words. -/
def gDst : IVec S1600000 32 := W3 m ρ c (Proc.devRef .tc main_v3)
/-- The edge weights, a column. -/
def gNrm : FVec Ideal S1600000x1 .f32 := W3 m ρ c (Proc.devRef .tc main_v29)
/-- The self-loop weights, a column. -/
def gD2 : FVec Ideal S100000x1 .f32 := W3 m ρ c (Proc.devRef .tc main_v31)

/-- A word vector as a column. -/
def col (x : IVec S1600000 32) : IVec S1600000x1 32 := broadcastInDim S1600000x1 ![0] bcast_S1600000_S1600000x1_0 x

/-- A word vector after the negative-index wrap (a negative word has the row count added), as a column. -/
def wrapCol (x : IVec S1600000 32) : IVec S1600000x1 32 :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 100000#32))) x)

end Cert.KernelIdeal.HostRead

end
-- ==== Proof.LibConcatPair.lean ====
/-
  A concatenation of two arrays as a function of the two arrays alone.

  `concatenate t a xs h` takes its operands as a list of (shape, array) pairs, and the evidence `h` that the shapes fit is
  stated about that list. So the type of `h` mentions the arrays, and a rewrite of an operand inside the list has to carry
  `h` along: rewriting under a concatenation stops there. For two operands `pair` is the same array with the evidence
  stated about the two shapes only; `concatenate_pair` turns the one into the other (the two are the same term up to
  unfolding), after which both operands are ordinary arguments and can be rewritten.
-/
import Idealize.ShloMosaic.PureOps.ShapeOps

noncomputable section

namespace Cert.Lib.ConcatPair

open Idealize.ShloMosaic

variable {α : Type}

/-- Two arrays joined along axis `a` of the result shape `t`. -/
def pair (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

/-- A two-operand concatenation is `pair` of its operands. -/
theorem concatenate_pair (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = pair t a s₁ s₂ x₁ x₂ h := rfl

end Cert.Lib.ConcatPair

end
-- ==== Proof.LibReadLine.lean ====
/-
  One tactic for reading a buffer's contents after a line of host operations.

  The contents after a line are a fold of the operations' results over the contents before it. Reading the fold at one
  buffer is a computation: each operation's result at its own result buffer is its function of its operands' contents, and
  at any other buffer what was there (the references differ: decided). `read_line` does this in one simplifier pass — so
  that a value with several consumers is visited once — with two additions:
    * a two-operand concatenation is opened into a function of its two operands (`Cert.Lib.ConcatPair`), so that the pass
      goes on inside them;
    * a value carried to an outlined function's buffer and back is left as it was (`Cert.Lib.Outlined.ofBuf_toBuf`).
  It leaves an equation between a pure term over the contents at the line's inputs and the goal's right-hand side (closed
  by `rfl` against the same term, or by the lemma that names the term), or closes the goal when the buffer is not written.
-/
import Idealize.ShloMosaic.Lib.StableHlo.Run
import proofs.«159517_j46093589021377_2_alg».proof.Proof.LibOutlined
import proofs.«159517_j46093589021377_2_alg».proof.Proof.LibConcatPair

namespace Cert.Lib.ReadLine

/-- Reads `after ops V (Proc.devRef .tc r)` for a literal list `ops` (possibly several nested `after`s): see the
    module's header. -/
macro "read_line" : tactic =>
  `(tactic| simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne', Idealize.ShloMosaic.StableHlo.unaryIndexed_result_ne',
      Idealize.ShloMosaic.StableHlo.binaryIndexed_result_ne',
      Cert.Lib.ConcatPair.concatenate_pair, Cert.Lib.Outlined.ofBuf_toBuf])

end Cert.Lib.ReadLine
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.RegionDense.lean ====
/-
  Two dense layers of a graph convolution, from row blocks to whole arrays.

  Each layer multiplies a 100000 × 128 matrix by a 128 × 128 weight matrix, 5000 rows at a time over 20 grid points; the
  second adds a bias row to every row of the product. At a point t the body reads rows 5000 t … 5000 t + 4999 of the left
  matrix, the whole weight matrix (and the whole bias row), and leaves in the output block, at entry (p, q), the sum over
  k of left[p, k] · weight[k, q] (plus bias[q]); on the extended reals the rounding of the operands to the narrow format is
  the identity. Point t writes that block back to rows 5000 t … 5000 t + 4999 of the output array. So what point t writes
  is block t of ONE whole-array function of the input arrays, the product X·W (resp. H·W + b) entry by entry, and since
  row r lies in the block of point r / 5000 the 20 blocks cover the output array: after the 20 write-backs the output
  array IS that function. Proved here for any contents of the input arrays at the start of the layer.
-/
import proofs.«159517_j46093589021377_2_alg».proof.Proof.Gen.KernelIdeal.Frame
import proofs.«159517_j46093589021377_2_alg».proof.Proof.Spec
import proofs.«159517_j46093589021377_2_alg».proof.Proof.LibDotCols
import Idealize.ShloMosaic.Lib.Pipeline.Value
import Idealize.ShloMosaic.Lib.ValueLayout

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionDense

open Cert.KernelIdeal Cert.KernelIdeal.Gen Cert.Gcn

variable (V : (c : Dev nD) → (b : Ref sig .tc) → Buf (Elt Ideal) ((c : Thread nD τ).loc b)) (c : Dev nD)

/-- Both offsets of a whole-block access are zero. -/
theorem zero_offsets : (![0, 0] : Fin 2 → Nat) = fun _ => 0 := funext fun a => by fin_cases a <;> rfl

/-! ## The first dense layer (rows of X times W) -/

/-- The body's payload at an entry: the sum over the contracted axis (the rounding to the narrow format is the identity
    on the extended reals). -/
theorem k0_pay1_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact Cert.Lib.DotCols.matmul_cols_apply (M := 5000) (K := 128) (N := 128) dot_S5000x128_S128x128_S5000x128_1_0_0_1_n_n rfl none
    (truncf .bf16 x0 bitsLt_bf16_f32) (truncf .bf16 x1 bitsLt_bf16_f32) p q

/-- What the body leaves in the output block, at an entry. -/
theorem out0_2_apply (x0 : Vec Ideal S5000x128 .f32) (x1 : Vec Ideal S128x128 .f32) (p : Fin 5000) (q : Fin 128) :
    out0_2 x0 x1 (ix2 p q) = ∑ k : Fin 128, x0 (ix2 p k) * x1 (ix2 k q) := by
  unfold out0_2
  rw [View.canon_unit_zero zero_offsets]
  simp only [View.ld_unit_zero (S := S5000x128) zero_offsets, View.ld_unit_zero (S := S128x128) zero_offsets]
  exact k0_pay1_apply x0 x1 p q

/-- The index maps over the 20 points: the row windows sit at block (t, 0), the weight window at block (0, 0). -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row window's block at point t is rows 5000 t … 5000 t + 4999 of X. -/
theorem rows0_apply (t : Fin cfg0.N) (x : S5000x128.Idx) (i : S100000x128.Idx)
    (h0 : (i 0).val = 5000 * t.val + (x 0).val) (h1 : (i 1).val = (x 1).val) :
    (iblk0 V c 0 t : Vec Ideal S5000x128 .f32) x = (V c main_arg0 : S100000x128.Idx → EReal) i := by
  obtain ⟨e0, e1, -, -, -, -⟩ := index_facts0 t
  unfold iblk0
  rw [View.read_apply]
  show V c main_arg0 _ = V c main_arg0 _
  congr 1
  funext a
  apply Fin.ext
  match a with
  | ⟨0, _⟩ => show win0_0.index t (0 : Fin 2) * 5000 + 1 * (x 0).val = (i 0).val; rw [e0, h0]; omega
  | ⟨1, _⟩ => show win0_0.index t (1 : Fin 2) * 128 + 1 * (x 1).val = (i 1).val; rw [e1, h1]; omega

/-- The weight window's block at every point is W. -/
theorem weights0_apply (t : Fin cfg0.N) (x : S128x128.Idx) :
    (iblk0 V c 1 t : Vec Ideal S128x128 .f32) x = (V c main_arg2 : S128x128.Idx → EReal) x := by
  obtain ⟨-, -, e2, e3, -, -⟩ := index_facts0 t
  unfold iblk0
  rw [View.read_apply]
  show V c main_arg2 _ = V c main_arg2 _
  congr 1
  funext a
  apply Fin.ext
  match a with
  | ⟨0, _⟩ => show win0_1.index t (0 : Fin 2) * 128 + 1 * (x 0).val = (x 0).val; rw [e2]; omega
  | ⟨1, _⟩ => show win0_1.index t (1 : Fin 2) * 128 + 1 * (x 1).val = (x 1).val; rw [e3]; omega

/-- The product array read at an index. -/
theorem prod_at_index (A : Mat 100000 128) (B : Mat 128 128) (i : S100000x128.Idx) :
    ofAt (prodAt A B) i = ∑ k : Fin 128, A (ix2 (i 0) k) * B (ix2 k (i 1)) := rfl

/-- What point t writes back is block t of X·W. -/
theorem flushed0 (t : Fin cfg0.N) :
    (dat0 (F := Ideal) V c).flushed 2 t
      = ((cfg0.win 2).blk t).view.read (Elt Ideal) (ofAt (prodAt (V c main_arg0 : Mat 100000 128) (V c main_arg2 : Mat 128 128))) := by
  show (cfg0.win 2).cut (grid0.coords t) ((dat0 V c).after 2 t) = _
  rw [after0_2]
  obtain ⟨-, -, -, -, e4, e5⟩ := index_facts0 t
  funext j
  obtain ⟨p, q, rfl⟩ : ∃ (p : Fin 5000) (q : Fin 128), j = ix2 p q := ⟨j 0, j 1, eq_ix2 j⟩
  show out0_2 (iblk0 V c 0 t) (iblk0 V c 1 t) (ix2 p q)
    = ofAt (prodAt (V c main_arg0 : Mat 100000 128) (V c main_arg2 : Mat 128 128)) (((cfg0.win 2).blk t).view.emb (ix2 p q))
  rw [out0_2_apply]
  rw [prod_at_index]
  refine Finset.sum_congr rfl fun k _ => ?_
  congr 1
  · refine rows0_apply V c t (ix2 p k) _ ?_ rfl
    show win0_2.index t (0 : Fin 2) * 5000 + 1 * p.val = 5000 * t.val + p.val
    rw [e4]; omega
  · refine (weights0_apply V c t (ix2 k q)).trans ?_
    congr 1
    funext a
    apply Fin.ext
    match a with
    | ⟨0, _⟩ => rfl
    | ⟨1, _⟩ => show q.val = win0_2.index t (1 : Fin 2) * 128 + 1 * q.val; rw [e5]; omega

/-- An index of the output array is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row r of the output is in the block of point r / 5000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, e4, e5⟩ := index_facts0 t
  have ht : t.val = (i 0).val / 5000 := rfl
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- THE FIRST DENSE LAYER: after the 20 write-backs the output array is X·W. -/
theorem dense0_array : (Gen.dat0 (F := Ideal) V c).arrAt 2 cfg0.N = ofAt (prodAt (V c main_arg0) (V c main_arg2)) :=
  (dat0 (F := Ideal) V c).arrAt_eq_of_cover 2 _ (fun t _ => flushed0 V c t) cover0

/-! ## The second dense layer (rows of H times W, plus the bias row) -/

/-- The body's payload at an entry: the sum over the contracted axis plus the bias at that column. -/
theorem k3_pay1_apply (x0 : Vec Ideal S5000x128 .f32) (x1 : Vec Ideal S128x128 .f32) (x2 : Vec Ideal S1x128 .f32)
    (p : Fin 5000) (q : Fin 128) :
    k3_pay1 x0 x1 x2 (ix2 p q) = (∑ k : Fin 128, x0 (ix2 p k) * x1 (ix2 k q)) + x2 (ix2 (0 : Fin 1) q) := by
  unfold k3_pay1
  simp only [shapeCast_self]
  refine (addf_apply (s := S5000x128) (φ := .f32) _ _ (ix2 p q)).trans ?_
  rw [broadcastTo_1b_ab_apply (a := 5000) (b := 128) x2 broadcasts_S1x128_S5000x128 p q]
  congr 1
  exact Cert.Lib.DotCols.matmul_cols_apply (M := 5000) (K := 128) (N := 128) dot_S5000x128_S128x128_S5000x128_1_0_0_1_n_n rfl none
    (truncf .bf16 x0 bitsLt_bf16_f32) (truncf .bf16 x1 bitsLt_bf16_f32) p q

/-- What the body leaves in the output block, at an entry. -/
theorem out3_3_apply (x0 : Vec Ideal S5000x128 .f32) (x1 : Vec Ideal S128x128 .f32) (x2 : Vec Ideal S1x128 .f32)
    (p : Fin 5000) (q : Fin 128) :
    out3_3 x0 x1 x2 (ix2 p q) = (∑ k : Fin 128, x0 (ix2 p k) * x1 (ix2 k q)) + x2 (ix2 (0 : Fin 1) q) := by
  unfold out3_3
  rw [View.canon_unit_zero zero_offsets]
  simp only [View.ld_unit_zero (S := S5000x128) zero_offsets, View.ld_unit_zero (S := S128x128) zero_offsets,
    View.ld_unit_zero (S := S1x128) zero_offsets]
  exact k3_pay1_apply x0 x1 x2 p q

/-- The index maps over the 20 points: the row windows sit at block (t, 0), the weight and bias windows at block (0, 0). -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The row window's block at point t is rows 5000 t … 5000 t + 4999 of H. -/
theorem rows3_apply (t : Fin cfg3.N) (x : S5000x128.Idx) (i : S100000x128.Idx)
    (h0 : (i 0).val = 5000 * t.val + (x 0).val) (h1 : (i 1).val = (x 1).val) :
    (iblk3 V c 0 t : Vec Ideal S5000x128 .f32) x = (V c main_v59 : S100000x128.Idx → EReal) i := by
  obtain ⟨e0, e1, -, -, -, -, -, -⟩ := index_facts3 t
  unfold iblk3
  rw [View.read_apply]
  show V c main_v59 _ = V c main_v59 _
  congr 1
  funext a
  apply Fin.ext
  match a with
  | ⟨0, _⟩ => show win3_0.index t (0 : Fin 2) * 5000 + 1 * (x 0).val = (i 0).val; rw [e0, h0]; omega
  | ⟨1, _⟩ => show win3_0.index t (1 : Fin 2) * 128 + 1 * (x 1).val = (i 1).val; rw [e1, h1]; omega

/-- The weight window's block at every point is W. -/
theorem weights3_apply (t : Fin cfg3.N) (x : S128x128.Idx) :
    (iblk3 V c 1 t : Vec Ideal S128x128 .f32) x = (V c main_v60 : S128x128.Idx → EReal) x := by
  obtain ⟨-, -, e2, e3, -, -, -, -⟩ := index_facts3 t
  unfold iblk3
  rw [View.read_apply]
  show V c main_v60 _ = V c main_v60 _
  congr 1
  funext a
  apply Fin.ext
  match a with
  | ⟨0, _⟩ => show win3_1.index t (0 : Fin 2) * 128 + 1 * (x 0).val = (x 0).val; rw [e2]; omega
  | ⟨1, _⟩ => show win3_1.index t (1 : Fin 2) * 128 + 1 * (x 1).val = (x 1).val; rw [e3]; omega

/-- The bias window's block at every point is the bias row. -/
theorem bias3_apply (t : Fin cfg3.N) (x : S1x128.Idx) :
    (iblk3 V c 2 t : Vec Ideal S1x128 .f32) x = (V c main_v62 : S1x128.Idx → EReal) x := by
  obtain ⟨-, -, -, -, e4, e5, -, -⟩ := index_facts3 t
  unfold iblk3
  rw [View.read_apply]
  show V c main_v62 _ = V c main_v62 _
  congr 1
  funext a
  apply Fin.ext
  match a with
  | ⟨0, _⟩ => show win3_2.index t (0 : Fin 2) * 1 + 1 * (x 0).val = (x 0).val; rw [e4]; omega
  | ⟨1, _⟩ => show win3_2.index t (1 : Fin 2) * 128 + 1 * (x 1).val = (x 1).val; rw [e5]; omega

/-- The product-plus-bias array read at an index. -/
theorem prod_bias_at_index (A : Mat 100000 128) (B : Mat 128 128) (b : Mat 1 128) (i : S100000x128.Idx) :
    ofAt (fun n q => prodAt A B n q + b (ix2 (0 : Fin 1) q)) i
      = (∑ k : Fin 128, A (ix2 (i 0) k) * B (ix2 k (i 1))) + b (ix2 (0 : Fin 1) (i 1)) := rfl

/-- What point t writes back is block t of H·W + b. -/
theorem flushed3 (t : Fin cfg3.N) :
    (dat3 (F := Ideal) V c).flushed 3 t
      = ((cfg3.win 3).blk t).view.read (Elt Ideal) (ofAt (fun n q =>
          prodAt (V c main_v59 : Mat 100000 128) (V c main_v60 : Mat 128 128) n q + (V c main_v62 : Mat 1 128) (ix2 (0 : Fin 1) q))) := by
  show (cfg3.win 3).cut (grid3.coords t) ((dat3 V c).after 3 t) = _
  rw [after3_3]
  obtain ⟨-, -, -, -, -, -, e6, e7⟩ := index_facts3 t
  funext j
  obtain ⟨p, q, rfl⟩ : ∃ (p : Fin 5000) (q : Fin 128), j = ix2 p q := ⟨j 0, j 1, eq_ix2 j⟩
  show out3_3 (iblk3 V c 0 t) (iblk3 V c 1 t) (iblk3 V c 2 t) (ix2 p q)
    = ofAt (fun n q => prodAt (V c main_v59 : Mat 100000 128) (V c main_v60 : Mat 128 128) n q + (V c main_v62 : Mat 1 128) (ix2 (0 : Fin 1) q))
        (((cfg3.win 3).blk t).view.emb (ix2 p q))
  rw [out3_3_apply]
  rw [prod_bias_at_index]
  have hq : ∀ (n : Nat) (r : Fin n), (ix2 r ((((cfg3.win 3).blk t).view.emb (ix2 p q)) 1) : (⟨2, ![n, 128]⟩ : Shape).Idx) = ix2 r q := fun n r => by
    funext a
    apply Fin.ext
    match a with
    | ⟨0, _⟩ => rfl
    | ⟨1, _⟩ => show win3_3.index t (1 : Fin 2) * 128 + 1 * q.val = q.val; rw [e7]; omega
  congr 1
  · refine Finset.sum_congr rfl fun k _ => ?_
    congr 1
    · refine rows3_apply V c t (ix2 p k) _ ?_ rfl
      show win3_3.index t (0 : Fin 2) * 5000 + 1 * p.val = 5000 * t.val + p.val
      rw [e6]; omega
    · exact (weights3_apply V c t (ix2 k q)).trans (congrArg _ (hq 128 k).symm)
  · exact (bias3_apply V c t (ix2 (0 : Fin 1) q)).trans (congrArg _ (hq 1 0).symm)

/-- An index of the output array is in point t's block iff each coordinate is in the block's range on its axis. -/
theorem mem_block3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v63).slice (win3_3.rect t)).set ↔ _
  rw [View.set_slice_whole, Rect.mem_set_unit]
  exact Iff.rfl

/-- Row r of the output is in the block of point r / 5000. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  obtain ⟨-, -, -, -, -, -, e6, e7⟩ := index_facts3 t
  have ht : t.val = (i 0).val / 5000 := rfl
  refine ⟨t, flush3_3 t, ?_⟩
  rw [mem_block3]
  intro a
  match a with
  | ⟨0, _⟩ => show win3_3.index t (0 : Fin 2) * 5000 ≤ (i 0).val ∧ (i 0).val < win3_3.index t (0 : Fin 2) * 5000 + 5000; rw [e6, ht]; omega
  | ⟨1, _⟩ => show win3_3.index t (1 : Fin 2) * 128 ≤ (i 1).val ∧ (i 1).val < win3_3.index t (1 : Fin 2) * 128 + 128; rw [e7]; omega

/-- THE SECOND DENSE LAYER: after the 20 write-backs the output array is H·W + b. -/
theorem dense3_array : (Gen.dat3 (F := Ideal) V c).arrAt 3 cfg3.N
    = ofAt (fun n q => prodAt (V c main_v59) (V c main_v60) n q + V c main_v62 (ix2 (0 : Fin 1) q)) :=
  (dat3 (F := Ideal) V c).arrAt_eq_of_cover 3 _ (fun t _ => flushed3 V c t) cover3

end Cert.KernelIdeal.RegionDense

end
-- ==== Proof.RegionPointwise.lean ====
/-
  Two of the kernel's blockwise regions, each read as ONE function of whole arrays.

  Each region walks 20 grid points; point t reads rows 5000·t … 5000·t + 4999 of its input arrays (and, in the
  first region, the one bias row), and writes the same rows of its output array. Entry by entry the first region
  writes the positive part of  A + H·d + b  (row n of H scaled by d n, the bias row b added to every row) and the
  second writes  A + H·d . Proved here: after a region's 20 write-backs its output array IS that function of the
  input arrays as the region found them, whatever those contents are.

  The steps, per region: where each window's block sits at a point (decided over the 20 points); a block's entry
  (p, k) at point t is the array's entry (5000·t + p, k); the body's stored value at (p, k) from the pointwise
  operations; so what point t writes back is block t of the whole-array function; every row n lies in the block of
  point n / 5000; hence the array ends holding the function.
-/
import proofs.«159517_j46093589021377_2_alg».proof.Proof.Gen.KernelIdeal.Frame
import proofs.«159517_j46093589021377_2_alg».proof.Proof.Spec
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.RegionPointwise

open Cert.KernelIdeal Cert.KernelIdeal.Gen Cert.Gcn

variable (V : (c : Dev nD) → (b : Ref sig .tc) → Buf (Elt Ideal) ((c : Thread nD τ).loc b))

/-! ## Shared: zero offsets, the column broadcast -/

/-- The offsets `(0, 0)` are zero on each axis. -/
theorem zeros2 : (![0, 0] : Fin 2 → Nat) = fun _ => 0 := funext fun a => by fin_cases a <;> rfl

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The first region: the positive part of `A + H·d + b` -/

/-- Entrywise: the positive part of `A + H·d + b`, where row `n` of `H` is scaled by `d n` and the row `b` is
    added to every row. -/
def reluMix (A H : Mat 100000 128) (d : Mat 100000 1) (b : Mat 1 128) : Mat 100000 128 :=
  ofAt fun n k => max ((A (ix2 n k) + H (ix2 n k) * d (ix2 n (0 : Fin 1))) + b (ix2 (0 : Fin 1) k)) 0

theorem reluMix_apply (A H : Mat 100000 128) (d : Mat 100000 1) (b : Mat 1 128) (n : Fin 100000) (k : Fin 128) :
    reluMix A H d b (ix2 n k) = max ((A (ix2 n k) + H (ix2 n k) * d (ix2 n (0 : Fin 1))) + b (ix2 (0 : Fin 1) k)) 0 := rfl

/-- The value the body stores at `(p, k)`, from the blocks it loaded: the pointwise operations read at that index. -/
theorem relu_payload_apply (x0 x1 : Vec Ideal S5000x128 .f32) (x2 : Vec Ideal S5000x1 .f32) (x3 : Vec Ideal S1x128 .f32)
    (p : Fin 5000) (k : Fin 128) :
    k1_pay1 x0 x1 x2 x3 (ix2 p k)
      = max ((x0 (ix2 p k) + x1 (ix2 p k) * x2 (ix2 p (0 : Fin 1))) + x3 (ix2 (0 : Fin 1) k)) 0 := by
  unfold k1_pay1
  simp only [shapeCast_self]
  rw [maximumf_apply, addf_apply, addf_apply, mulf_apply, broadcast_apply, broadcastTo_a1_ab_apply, broadcastTo_1b_ab_apply,
    Ideal.ofBits_def, Ideal.ofBits_zero_f32]

/-- Where each window's block sits at point `t`: the row-block windows at block row `t`, block column 0; the bias
    row's window at block (0, 0). Decided over the 20 points. -/
theorem relu_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry `(p, k)` of window 0's block at point `t` is entry `(5000·t + p, k)` of its array. -/
theorem relu_in0_apply (c : Dev nD) (t : Fin cfg1.N) (p : Fin 5000) (k : Fin 128) (n : Fin 100000)
    (hn : n.val = t.val * 5000 + p.val) (A : Mat 100000 128) (hA : V c main_v44 = A) :
    (iblk1 V c 0 t : Vec Ideal S5000x128 .f32) (ix2 p k) = A (ix2 n k) := by
  obtain ⟨e0, e1, -⟩ := relu_index_facts t
  unfold iblk1
  rw [View.read_apply]
  show V c main_v44 _ = _
  rw [hA]
  congr 1
  funext a
  apply Fin.ext
  match a with
  | ⟨0, _⟩ => show win1_0.index t (0 : Fin 2) * 5000 + 1 * p.val = n.val; rw [e0, hn]; omega
  | ⟨1, _⟩ => show win1_0.index t (1 : Fin 2) * 128 + 1 * k.val = k.val; rw [e1]; omega

/-- The same for window 1. -/
theorem relu_in1_apply (c : Dev nD) (t : Fin cfg1.N) (p : Fin 5000) (k : Fin 128) (n : Fin 100000)
    (hn : n.val = t.val * 5000 + p.val) (H : Mat 100000 128) (hH : V c main_v32 = H) :
    (iblk1 V c 1 t : Vec Ideal S5000x128 .f32) (ix2 p k) = H (ix2 n k) := by
  obtain ⟨-, -, e0, e1, -⟩ := relu_index_facts t
  unfold iblk1
  rw [View.read_apply]
  show V c main_v32 _ = _
  rw [hH]
  congr 1
  funext a
  apply Fin.ext
  match a with
  | ⟨0, _⟩ => show win1_1.index t (0 : Fin 2) * 5000 + 1 * p.val = n.val; rw [e0, hn]; omega
  | ⟨1, _⟩ => show win1_1.index t (1 : Fin 2) * 128 + 1 * k.val = k.val; rw [e1]; omega

/-- Entry `(p, 0)` of the column window's block at point `t` is entry `(5000·t + p, 0)` of the column. -/
theorem relu_in2_apply (c : Dev nD) (t : Fin cfg1.N) (p : Fin 5000) (n : Fin 100000)
    (hn : n.val = t.val * 5000 + p.val) (d : Mat 100000 1) (hd : V c main_v31 = d) :
    (iblk1 V c 2 t : Vec Ideal S5000x1 .f32) (ix2 p (0 : Fin 1)) = d (ix2 n (0 : Fin 1)) := by
  obtain ⟨-, -, -, -, e0, e1, -⟩ := relu_index_facts t
  unfold iblk1
  rw [View.read_apply]
  show V c main_v31 _ = _
  rw [hd]
  congr 1
  funext a
  apply Fin.ext
  match a with
  | ⟨0, _⟩ => show win1_2.index t (0 : Fin 2) * 5000 + 1 * p.val = n.val; rw [e0, hn]; omega
  | ⟨1, _⟩ => show win1_2.index t (1 : Fin 2) * 1 + 1 * 0 = 0; rw [e1]

/-- The bias row's window holds the whole row at every point. -/
theorem relu_in3_apply (c : Dev nD) (t : Fin cfg1.N) (k : Fin 128) (b : Mat 1 128) (hb : V c main_v45 = b) :
    (iblk1 V c 3 t : Vec Ideal S1x128 .f32) (ix2 (0 : Fin 1) k) = b (ix2 (0 : Fin 1) k) := by
  obtain ⟨-, -, -, -, -, -, e0, e1, -⟩ := relu_index_facts t
  unfold iblk1
  rw [View.read_apply]
  show V c main_v45 _ = _
  rw [hb]
  congr 1
  funext a
  apply Fin.ext
  match a with
  | ⟨0, _⟩ => show win1_3.index t (0 : Fin 2) * 1 + 1 * 0 = 0; rw [e0]
  | ⟨1, _⟩ => show win1_3.index t (1 : Fin 2) * 128 + 1 * k.val = k.val; rw [e1]; omega

/-- Entry `(p, k)` of the output's block at point `t` sits at `(5000·t + p, k)` of the output array. -/
theorem relu_out_emb (t : Fin cfg1.N) (p : Fin 5000) (k : Fin 128) (n : Fin 100000) (hn : n.val = t.val * 5000 + p.val) :
    ((cfg1.win 4).blk t).view.emb (ix2 p k) = (ix2 n k : S100000x128.Idx) := by
  obtain ⟨-, -, -, -, -, -, -, -, e0, e1⟩ := relu_index_facts t
  funext a
  apply Fin.ext
  match a with
  | ⟨0, _⟩ => show win1_4.index t (0 : Fin 2) * 5000 + 1 * p.val = n.val; rw [e0, hn]; omega
  | ⟨1, _⟩ => show win1_4.index t (1 : Fin 2) * 128 + 1 * k.val = k.val; rw [e1]; omega

/-- An index of the output array is in point `t`'s block iff each coordinate is in the block's range on its axis. -/
theorem relu_mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v46).slice (win1_4.rect t)).set ↔ _
  rw [View.set_slice_whole, Rect.mem_set_unit]
  exact Iff.rfl

/-- Every index of the output array is in the block of the point `row / 5000`, which writes back. -/
theorem relu_cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have ht : (i 0).val / 5000 < cfg1.N := lt_of_lt_of_eq (by omega : (i 0).val / 5000 < 20) N_1.symm
  refine ⟨⟨(i 0).val / 5000, ht⟩, flush1_4 _, ?_⟩
  rw [relu_mem_blk]
  obtain ⟨-, -, -, -, -, -, -, -, e0, e1⟩ := relu_index_facts ⟨(i 0).val / 5000, ht⟩
  intro a
  match a with
  | ⟨0, _⟩ => show win1_4.index _ (0 : Fin 2) * 5000 ≤ (i 0).val ∧ (i 0).val < win1_4.index _ (0 : Fin 2) * 5000 + 5000; rw [e0]; show (i 0).val / 5000 * 5000 ≤ (i 0).val ∧ (i 0).val < (i 0).val / 5000 * 5000 + 5000; omega
  | ⟨1, _⟩ => show win1_4.index _ (1 : Fin 2) * 128 ≤ (i 1).val ∧ (i 1).val < win1_4.index _ (1 : Fin 2) * 128 + 128; rw [e1]; omega

/-- What point `t` writes back is block `t` of `reluMix` of the input arrays. -/
theorem relu_flushed (c : Dev nD) (t : Fin cfg1.N) (A H : Mat 100000 128) (d : Mat 100000 1) (b : Mat 1 128)
    (hA : V c main_v44 = A) (hH : V c main_v32 = H) (hd : V c main_v31 = d) (hb : V c main_v45 = b) :
    (dat1 (F := Ideal) V c).flushed 4 t = ((cfg1.win 4).blk t).view.read (Elt Ideal) (reluMix A H d b) := by
  show (cfg1.win 4).cut (grid1.coords t) ((dat1 V c).after 4 t) = _
  rw [after1_4]
  unfold out1_4
  rw [View.canon_unit_zero zeros2]
  simp only [View.ld_unit_zero (S := S5000x128) zeros2, View.ld_unit_zero (S := S5000x1) zeros2, View.ld_unit_zero (S := S1x128) zeros2]
  funext j
  obtain ⟨p, k, rfl⟩ : ∃ (p : Fin 5000) (k : Fin 128), j = ix2 p k := ⟨j 0, j 1, eq_ix2 j⟩
  have ht : t.val < 20 := lt_of_lt_of_eq t.isLt N_1
  have hp : p.val < 5000 := p.isLt
  show k1_pay1 (iblk1 V c 0 t) (iblk1 V c 1 t) (iblk1 V c 2 t) (iblk1 V c 3 t) (ix2 p k)
    = reluMix A H d b (((cfg1.win 4).blk t).view.emb (ix2 p k))
  rw [relu_out_emb t p k ⟨t.val * 5000 + p.val, by omega⟩ rfl]
  refine (relu_payload_apply _ _ _ _ p k).trans ?_
  rw [relu_in0_apply V c t p k ⟨t.val * 5000 + p.val, by omega⟩ rfl A hA,
    relu_in1_apply V c t p k ⟨t.val * 5000 + p.val, by omega⟩ rfl H hH,
    relu_in2_apply V c t p ⟨t.val * 5000 + p.val, by omega⟩ rfl d hd,
    relu_in3_apply V c t k b hb]
  rfl

/-- The output array after the region's 20 write-backs is `reluMix` of the input arrays (named by equations). -/
theorem relu1_array_of (c : Dev nD) (A H : Mat 100000 128) (d : Mat 100000 1) (b : Mat 1 128)
    (hA : V c main_v44 = A) (hH : V c main_v32 = H) (hd : V c main_v31 = d) (hb : V c main_v45 = b) :
    (dat1 (F := Ideal) V c).arrAt 4 cfg1.N = reluMix A H d b :=
  (dat1 V c).arrAt_eq_of_cover 4 (reluMix A H d b) (fun t _ => relu_flushed V c t A H d b hA hH hd hb) relu_cover

/-- The same, at the arrays themselves. -/
theorem relu1_array (c : Dev nD) :
    (dat1 (F := Ideal) V c).arrAt 4 cfg1.N = reluMix (V c main_v44) (V c main_v32) (V c main_v31) (V c main_v45) :=
  relu1_array_of V c _ _ _ _ rfl rfl rfl rfl

/-! ## The second region: `A + H·d` -/

/-- Entrywise: `A + H·d`, where row `n` of `H` is scaled by `d n`. -/
def mix (A H : Mat 100000 128) (d : Mat 100000 1) : Mat 100000 128 :=
  ofAt fun n k => A (ix2 n k) + H (ix2 n k) * d (ix2 n (0 : Fin 1))

theorem mix_apply (A H : Mat 100000 128) (d : Mat 100000 1) (n : Fin 100000) (k : Fin 128) :
    mix A H d (ix2 n k) = A (ix2 n k) + H (ix2 n k) * d (ix2 n (0 : Fin 1)) := rfl

/-- The value the body stores at `(p, k)`, from the blocks it loaded: the pointwise operations read at that index. -/
theorem mix_payload_apply (x0 x1 : Vec Ideal S5000x128 .f32) (x2 : Vec Ideal S5000x1 .f32) (p : Fin 5000) (k : Fin 128) :
    k2_pay1 x0 x1 x2 (ix2 p k) = x0 (ix2 p k) + x1 (ix2 p k) * x2 (ix2 p (0 : Fin 1)) := by
  unfold k2_pay1
  simp only [shapeCast_self]
  rw [addf_apply, mulf_apply, broadcastTo_a1_ab_apply]

/-- Where each window's block sits at point `t`: block row `t`, block column 0. Decided over the 20 points. -/
theorem mix_index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Entry `(p, k)` of window 0's block at point `t` is entry `(5000·t + p, k)` of its array. -/
theorem mix_in0_apply (c : Dev nD) (t : Fin cfg2.N) (p : Fin 5000) (k : Fin 128) (n : Fin 100000)
    (hn : n.val = t.val * 5000 + p.val) (A : Mat 100000 128) (hA : V c main_v58 = A) :
    (iblk2 V c 0 t : Vec Ideal S5000x128 .f32) (ix2 p k) = A (ix2 n k) := by
  obtain ⟨e0, e1, -⟩ := mix_index_facts t
  unfold iblk2
  rw [View.read_apply]
  show V c main_v58 _ = _
  rw [hA]
  congr 1
  funext a
  apply Fin.ext
  match a with
  | ⟨0, _⟩ => show win2_0.index t (0 : Fin 2) * 5000 + 1 * p.val = n.val; rw [e0, hn]; omega
  | ⟨1, _⟩ => show win2_0.index t (1 : Fin 2) * 128 + 1 * k.val = k.val; rw [e1]; omega

/-- The same for window 1. -/
theorem mix_in1_apply (c : Dev nD) (t : Fin cfg2.N) (p : Fin 5000) (k : Fin 128) (n : Fin 100000)
    (hn : n.val = t.val * 5000 + p.val) (H : Mat 100000 128) (hH : V c main_v46 = H) :
    (iblk2 V c 1 t : Vec Ideal S5000x128 .f32) (ix2 p k) = H (ix2 n k) := by
  obtain ⟨-, -, e0, e1, -⟩ := mix_index_facts t
  unfold iblk2
  rw [View.read_apply]
  show V c main_v46 _ = _
  rw [hH]
  congr 1
  funext a
  apply Fin.ext
  match a with
  | ⟨0, _⟩ => show win2_1.index t (0 : Fin 2) * 5000 + 1 * p.val = n.val; rw [e0, hn]; omega
  | ⟨1, _⟩ => show win2_1.index t (1 : Fin 2) * 128 + 1 * k.val = k.val; rw [e1]; omega

/-- Entry `(p, 0)` of the column window's block at point `t` is entry `(5000·t + p, 0)` of the column. -/
theorem mix_in2_apply (c : Dev nD) (t : Fin cfg2.N) (p : Fin 5000) (n : Fin 100000)
    (hn : n.val = t.val * 5000 + p.val) (d : Mat 100000 1) (hd : V c main_v31 = d) :
    (iblk2 V c 2 t : Vec Ideal S5000x1 .f32) (ix2 p (0 : Fin 1)) = d (ix2 n (0 : Fin 1)) := by
  obtain ⟨-, -, -, -, e0, e1, -⟩ := mix_index_facts t
  unfold iblk2
  rw [View.read_apply]
  show V c main_v31 _ = _
  rw [hd]
  congr 1
  funext a
  apply Fin.ext
  match a with
  | ⟨0, _⟩ => show win2_2.index t (0 : Fin 2) * 5000 + 1 * p.val = n.val; rw [e0, hn]; omega
  | ⟨1, _⟩ => show win2_2.index t (1 : Fin 2) * 1 + 1 * 0 = 0; rw [e1]

/-- Entry `(p, k)` of the output's block at point `t` sits at `(5000·t + p, k)` of the output array. -/
theorem mix_out_emb (t : Fin cfg2.N) (p : Fin 5000) (k : Fin 128) (n : Fin 100000) (hn : n.val = t.val * 5000 + p.val) :
    ((cfg2.win 3).blk t).view.emb (ix2 p k) = (ix2 n k : S100000x128.Idx) := by
  obtain ⟨-, -, -, -, -, -, e0, e1⟩ := mix_index_facts t
  funext a
  apply Fin.ext
  match a with
  | ⟨0, _⟩ => show win2_3.index t (0 : Fin 2) * 5000 + 1 * p.val = n.val; rw [e0, hn]; omega
  | ⟨1, _⟩ => show win2_3.index t (1 : Fin 2) * 128 + 1 * k.val = k.val; rw [e1]; omega

/-- An index of the output array is in point `t`'s block iff each coordinate is in the block's range on its axis. -/
theorem mix_mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v59).slice (win2_3.rect t)).set ↔ _
  rw [View.set_slice_whole, Rect.mem_set_unit]
  exact Iff.rfl

/-- Every index of the output array is in the block of the point `row / 5000`, which writes back. -/
theorem mix_cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have ht : (i 0).val / 5000 < cfg2.N := lt_of_lt_of_eq (by omega : (i 0).val / 5000 < 20) N_2.symm
  refine ⟨⟨(i 0).val / 5000, ht⟩, flush2_3 _, ?_⟩
  rw [mix_mem_blk]
  obtain ⟨-, -, -, -, -, -, e0, e1⟩ := mix_index_facts ⟨(i 0).val / 5000, ht⟩
  intro a
  match a with
  | ⟨0, _⟩ => show win2_3.index _ (0 : Fin 2) * 5000 ≤ (i 0).val ∧ (i 0).val < win2_3.index _ (0 : Fin 2) * 5000 + 5000; rw [e0]; show (i 0).val / 5000 * 5000 ≤ (i 0).val ∧ (i 0).val < (i 0).val / 5000 * 5000 + 5000; omega
  | ⟨1, _⟩ => show win2_3.index _ (1 : Fin 2) * 128 ≤ (i 1).val ∧ (i 1).val < win2_3.index _ (1 : Fin 2) * 128 + 128; rw [e1]; omega

/-- What point `t` writes back is block `t` of `mix` of the input arrays. -/
theorem mix_flushed (c : Dev nD) (t : Fin cfg2.N) (A H : Mat 100000 128) (d : Mat 100000 1)
    (hA : V c main_v58 = A) (hH : V c main_v46 = H) (hd : V c main_v31 = d) :
    (dat2 (F := Ideal) V c).flushed 3 t = ((cfg2.win 3).blk t).view.read (Elt Ideal) (mix A H d) := by
  show (cfg2.win 3).cut (grid2.coords t) ((dat2 V c).after 3 t) = _
  rw [after2_3]
  unfold out2_3
  rw [View.canon_unit_zero zeros2]
  simp only [View.ld_unit_zero (S := S5000x128) zeros2, View.ld_unit_zero (S := S5000x1) zeros2]
  funext j
  obtain ⟨p, k, rfl⟩ : ∃ (p : Fin 5000) (k : Fin 128), j = ix2 p k := ⟨j 0, j 1, eq_ix2 j⟩
  have ht : t.val < 20 := lt_of_lt_of_eq t.isLt N_2
  have hp : p.val < 5000 := p.isLt
  show k2_pay1 (iblk2 V c 0 t) (iblk2 V c 1 t) (iblk2 V c 2 t) (ix2 p k)
    = mix A H d (((cfg2.win 3).blk t).view.emb (ix2 p k))
  rw [mix_out_emb t p k ⟨t.val * 5000 + p.val, by omega⟩ rfl]
  refine (mix_payload_apply _ _ _ p k).trans ?_
  rw [mix_in0_apply V c t p k ⟨t.val * 5000 + p.val, by omega⟩ rfl A hA,
    mix_in1_apply V c t p k ⟨t.val * 5000 + p.val, by omega⟩ rfl H hH,
    mix_in2_apply V c t p ⟨t.val * 5000 + p.val, by omega⟩ rfl d hd]
  rfl

/-- The output array after the region's 20 write-backs is `mix` of the input arrays (named by equations). -/
theorem mix2_array_of (c : Dev nD) (A H : Mat 100000 128) (d : Mat 100000 1)
    (hA : V c main_v58 = A) (hH : V c main_v46 = H) (hd : V c main_v31 = d) :
    (dat2 (F := Ideal) V c).arrAt 3 cfg2.N = mix A H d :=
  (dat2 V c).arrAt_eq_of_cover 3 (mix A H d) (fun t _ => mix_flushed V c t A H d hA hH hd) mix_cover

/-- The same, at the arrays themselves. -/
theorem mix2_array (c : Dev nD) :
    (dat2 (F := Ideal) V c).arrAt 3 cfg2.N = mix (V c main_v58) (V c main_v46) (V c main_v31) :=
  mix2_array_of V c _ _ _ rfl rfl rfl

end Cert.KernelIdeal.RegionPointwise

end
-- ==== Proof.LibSegments.lean ====
/-
  Segment sums, row gathers and appended self-loops, read at an element.

  (1) A rank-1 scatter-add — operand [N], one signed position per update (scatter indices [E, 1]),
      updates [E] — read at position n is the operand's element plus the sum of the updates whose
      position is n.
  (2) A row gather — operand [N, C], one signed row number per result row (start indices [E, 1]),
      result [E, C] — read at (e, o) is the operand at (the row number clamped into [0, N - 1], o).
  (3) A vector of E0 positions followed by 0, 1, …, N - 1 reads n at place E0 + n.
  (4) A count of the updates landing on a position that at least one update lands on is a real
      number at least one, and the inverse square root of such a number is real.
  All sizes and the index width are arbitrary.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

open scoped BigOperators
open Idealize.ShloMosaic Idealize.ShloMosaic.ValueIdx

namespace Segments

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-- A rank-1 index set is its one coordinate range … -/
def idxEquiv1 {n0 : Nat} : (⟨1, ![n0]⟩ : Shape).Idx ≃ Fin n0 where
  toFun i := i 0
  invFun p := ix1 p
  left_inv i := (eq_ix1 i).symm
  right_inv _ := rfl

/-- … so a sum over it is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-! ## Rank 1: operand [N], positions [E, 1], updates [E] -/

/-- The dimension numbers of a scatter of scalars into a rank-1 operand: the updates have no window
    axis; the operand's axis 0 is inserted and is the one the position addresses; the position is
    the length-1 vector on the scatter indices' axis 1. -/
abbrev rows1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

section Rows1
variable {N E w : Nat} (wf : ScatterDims.WF ⟨1, ![N]⟩ ⟨2, ![E, 1]⟩ ⟨1, ![E]⟩ [] [0] [0] 1)

/-- On operand axis 0 the window of update e starts at the position idx[e, 0], read signed. -/
theorem rows1_start0 (idx : IVec ⟨2, ![E, 1]⟩ w) (e : Fin E) :
    (rows1Dims N E wf).start (ix1 e) idx 0 = (idx (ix2 e (0 : Fin 1))).toInt := by
  unfold ScatterDims.start
  rw [dif_pos (show (0 : Fin 1) ∈ (rows1Dims N E wf).scatterDimsToOperandDims from List.mem_singleton.mpr rfl)]
  have hsi : (rows1Dims N E wf).siIdx (ix1 e) ⟨List.idxOf (0 : Fin 1) (rows1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the inserted operand axis 0 the window coordinate is 0. -/
theorem rows1_window0 (e : Fin E) : (rows1Dims N E wf).window (ix1 e) 0 = 0 := by
  unfold ScatterDims.window
  have h : ¬ (0 : Fin 1) ∈ (rows1Dims N E wf).sKept := (show (0 : Fin 1) ∉ ([] : List (Fin 1)) by decide)
  rw [dif_neg h]

/-- Update e lands on operand element n exactly when its position idx[e, 0], read signed, is n. -/
theorem rows1_resultIdx?_iff (idx : IVec ⟨2, ![E, 1]⟩ w) (e : Fin E) (n : Fin N) :
    (rows1Dims N E wf).resultIdx? (ix1 e) idx = some (ix1 n) ↔
      (idx (ix2 e (0 : Fin 1))).toInt = (n.val : ℤ) := by
  rw [resultIdx?_eq_some_iff, Fin.forall_fin_one, rows1_start0, rows1_window0]
  show ((idx (ix2 e (0 : Fin 1))).toInt + ((0 : ℕ) : ℤ) = (n.val : ℤ)) ↔ _
  omega

/-- THE RANK-1 SCATTER-ADD READ AT n: the operand's element plus the sum of the updates e whose
    position idx[e, 0], read signed, is n. A position outside [0, N) equals no n, so that update is
    dropped. -/
theorem scatterAdd_rows1_apply (x : (⟨1, ![N]⟩ : Shape).Idx → EReal) (idx : IVec ⟨2, ![E, 1]⟩ w)
    (u : (⟨1, ![E]⟩ : Shape).Idx → EReal) (n : Fin N) :
    Host.scatterAdd (F := Ideal) (φ := .f32) (rows1Dims N E wf) x idx u (ix1 n) =
      x (ix1 n) + ∑ e : Fin E, if (idx (ix2 e (0 : Fin 1))).toInt = (n.val : ℤ) then u (ix1 e) else 0 := by
  show Ideal.hostScatterAdd (rows1Dims N E wf) x idx u (ix1 n) = _
  unfold Ideal.hostScatterAdd
  congr 1
  rw [Finset.sum_filter, sum_idx1]
  refine Finset.sum_congr rfl fun e _ => ?_
  simp only [rows1_resultIdx?_iff]

/-- The same reading for ANY record of dimension numbers whose four lists are those of a rank-1
    scatter of scalars (each hypothesis is closed by reflexivity on a record written out field by
    field). -/
theorem scatterAdd_rows1_apply_of_dims (D : ScatterDims ⟨1, ![N]⟩ ⟨2, ![E, 1]⟩ ⟨1, ![E]⟩)
    (h1 : D.updateWindowDims = []) (h2 : D.insertedWindowDims = [0]) (h3 : D.scatterDimsToOperandDims = [0])
    (h4 : D.indexVectorDim = 1) (x : (⟨1, ![N]⟩ : Shape).Idx → EReal) (idx : IVec ⟨2, ![E, 1]⟩ w)
    (u : (⟨1, ![E]⟩ : Shape).Idx → EReal) (n : Fin N) :
    Host.scatterAdd (F := Ideal) (φ := .f32) D x idx u (ix1 n) =
      x (ix1 n) + ∑ e : Fin E, if (idx (ix2 e (0 : Fin 1))).toInt = (n.val : ℤ) then u (ix1 e) else 0 := by
  obtain ⟨uw, iw, sd, iv, wf'⟩ := D
  simp only at h1 h2 h3 h4
  subst h1 h2 h3 h4
  exact scatterAdd_rows1_apply wf' x idx u n

end Rows1

/-! ## Row gather: operand [N, C], row numbers [E, 1], result [E, C] -/

section GatherRows
variable {α : Type}

/-- The dimension numbers of a row gather from a rank-2 operand: the result's axis 1 is the offset
    axis and reads the operand's axis 1 in full (slice sizes [1, C]); the operand's axis 0 is
    collapsed and is the one the row number addresses; the row number is the length-1 vector on the
    start indices' axis 1. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the operand at row idx[e, 0], read signed and clamped into
    [0, N - 1], and column o. The row read depends neither on o nor on the row length C. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowsGatherDims N E C wf) x idx (ix2 e o) =
      x (ix2 (⟨min (idx (ix2 e (0 : Fin 1))).toInt.toNat (N - 1), by omega⟩ : Fin N) o) := by
  unfold Host.gather
  congr 1
  funext a
  refine Fin.ext ?_
  match a with
  | ⟨0, _⟩ =>
    -- axis 0: the clamped row number; no batching coordinate; collapsed, so no offset coordinate
    show (rowsGatherDims N E C wf).start (ix2 e o) idx 0 + (rowsGatherDims N E C wf).batchCoord (ix2 e o) 0 +
      (rowsGatherDims N E C wf).offCoord (ix2 e o) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims N E C wf).startIndexMap from List.mem_singleton.mpr rfl)]
    have hsi : (rowsGatherDims N E C wf).siIdx (ix2 e o) ⟨List.idxOf (0 : Fin 2) (rowsGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: not addressed by the row number, so the slice starts at 0; the offset coordinate is o
    show (rowsGatherDims N E C wf).start (ix2 e o) idx 1 + (rowsGatherDims N E C wf).batchCoord (ix2 e o) 1 +
      (rowsGatherDims N E C wf).offCoord (ix2 e o) 1 = o.val
    rw [GatherDims.batchCoord_eq_zero _ _ _ List.not_mem_nil]
    have hs : (rowsGatherDims N E C wf).start (ix2 e o) idx 1 = 0 := by
      unfold GatherDims.start
      have h : ¬ (1 : Fin 2) ∈ (rowsGatherDims N E C wf).startIndexMap := (show (1 : Fin 2) ∉ ([0] : List (Fin 2)) by decide)
      rw [dif_neg h]
    have ho : (rowsGatherDims N E C wf).offCoord (ix2 e o) 1 = o.val := by
      unfold GatherDims.offCoord
      have h : (1 : Fin 2) ∈ (rowsGatherDims N E C wf).sKept := (show (1 : Fin 2) ∈ ([1] : List (Fin 2)) by decide)
      rw [dif_pos h]
      rfl
    rw [hs, ho]
    omega

/-- The same reading for ANY record of dimension numbers whose seven fields are those of a row
    gather (each hypothesis is closed by reflexivity on a record written out field by field). -/
theorem gather_rows_apply_of_dims {N E C w : Nat} (hN : 0 < N)
    (D : GatherDims ⟨2, ![N, C]⟩ ⟨2, ![E, 1]⟩ ⟨2, ![E, C]⟩)
    (h1 : D.offsetDims = [1]) (h2 : D.collapsedSliceDims = [0]) (h3 : D.operandBatchingDims = [])
    (h4 : D.startIndicesBatchingDims = []) (h5 : D.startIndexMap = [0]) (h6 : D.indexVectorDim = 1)
    (h7 : D.sliceSizes = ![1, C])
    (x : (⟨2, ![N, C]⟩ : Shape).Idx → α) (idx : IVec ⟨2, ![E, 1]⟩ w) (e : Fin E) (o : Fin C) :
    Host.gather D x idx (ix2 e o) =
      x (ix2 (⟨min (idx (ix2 e (0 : Fin 1))).toInt.toNat (N - 1), by omega⟩ : Fin N) o) := by
  obtain ⟨od, cd, ob, sb, sm, iv, ss, wf'⟩ := D
  simp only at h1 h2 h3 h4 h5 h6 h7
  subst h1 h2 h3 h4 h5 h6 h7
  exact gather_rows_apply hN wf' x idx e o

end GatherRows

/-! ## Positions followed by 0, 1, …, N - 1 -/

/-- A 32-bit word holding a natural number below 2 ^ 31 reads that number when read signed. -/
theorem toInt_ofNat32 (k : Nat) (hk : k < 2 ^ 31) : (BitVec.ofNat 32 k).toInt = (k : ℤ) := by
  rw [BitVec.toInt_eq_toNat_cond, BitVec.toNat_ofNat]
  have h : k % 2 ^ 32 = k := Nat.mod_eq_of_lt (by omega)
  rw [h, if_pos (by omega)]

/-- A vector of E0 positions with 0, 1, …, N - 1 appended, laid out as a column [E0 + N, 1], reads
    n at place E0 + n, as a signed integer: the appended part is every position once. -/
theorem selfloop_toInt (E0 N Et : Nat) (hEt : E0 + N = Et) (hN31 : N < 2 ^ 31) (a : IVec ⟨1, ![E0]⟩ 32)
    (hc : Shape.Concatenates [(⟨1, ![E0]⟩ : Shape), ⟨1, ![N]⟩] ⟨1, ![Et]⟩ 0)
    (hb : (⟨1, ![Et]⟩ : Shape).BroadcastsInDim ⟨2, ![Et, 1]⟩ ![0]) (n : Fin N) :
    (broadcastInDim ⟨2, ![Et, 1]⟩ ![0] hb
      (concatenate ⟨1, ![Et]⟩ 0 [⟨⟨1, ![E0]⟩, a⟩, ⟨⟨1, ![N]⟩, iotaInDim ⟨1, ![N]⟩ 32 0⟩] hc)
      (ix2 (⟨E0 + n.val, by omega⟩ : Fin Et) (0 : Fin 1))).toInt = (n.val : ℤ) := by
  have hn := n.isLt
  have e1 := broadcastInDim_apply (s := ⟨1, ![Et]⟩) (t := ⟨2, ![Et, 1]⟩) ![0] hb
    (concatenate ⟨1, ![Et]⟩ 0 [⟨⟨1, ![E0]⟩, a⟩, ⟨⟨1, ![N]⟩, iotaInDim ⟨1, ![N]⟩ 32 0⟩] hc)
    (ix2 (⟨E0 + n.val, by omega⟩ : Fin Et) (0 : Fin 1)) (ix1 (⟨E0 + n.val, by omega⟩ : Fin Et)) (fun b => by
      obtain rfl : b = 0 := Subsingleton.elim _ _
      show E0 + n.val = if Et = 1 then 0 else E0 + n.val
      split_ifs with h1
      · omega
      · rfl)
  have e2 := concatenate_pair_apply_right (t := ⟨1, ![Et]⟩) (s₁ := ⟨1, ![E0]⟩) (s₂ := ⟨1, ![N]⟩) (0 : Fin 1)
    a (iotaInDim ⟨1, ![N]⟩ 32 0) hc (ix1 (⟨E0 + n.val, by omega⟩ : Fin Et)) rfl rfl (ix1 n)
    (fun b hb' => absurd (Subsingleton.elim _ _) hb')
    (by show n.val + E0 = E0 + n.val; omega)
  rw [e1, e2, iotaInDim_apply]
  exact toInt_ofNat32 n.val (by omega)

/-! ## Counting the updates that land on a position -/

/-- The coercion from the reals to the extended reals goes through a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The number of updates whose position is n — the scatter-add of ones into zeros read at n —
    is a real number, and at least one as soon as some update's position is n. -/
theorem degree_real_pos {N E w : Nat} (idx : IVec ⟨2, ![E, 1]⟩ w) (n : Fin N)
    (hself : ∃ e : Fin E, (idx (ix2 e (0 : Fin 1))).toInt = (n.val : ℤ)) :
    ∃ r : ℝ, 1 ≤ r ∧
      (0 : EReal) + ∑ e : Fin E, (if (idx (ix2 e (0 : Fin 1))).toInt = (n.val : ℤ) then (1 : EReal) else 0) = (r : EReal) := by
  obtain ⟨e0, he0⟩ := hself
  refine ⟨∑ e : Fin E, (if (idx (ix2 e (0 : Fin 1))).toInt = (n.val : ℤ) then (1 : ℝ) else 0), ?_, ?_⟩
  · have hnn : ∀ e ∈ (Finset.univ : Finset (Fin E)),
        (0 : ℝ) ≤ (if (idx (ix2 e (0 : Fin 1))).toInt = (n.val : ℤ) then (1 : ℝ) else 0) := by
      intro e _
      split_ifs
      · exact zero_le_one
      · exact le_refl _
    have h := Finset.single_le_sum hnn (Finset.mem_univ e0)
    rw [if_pos he0] at h
    exact h
  · rw [zero_add, coe_finset_sum]
    refine Finset.sum_congr rfl fun e _ => ?_
    split_ifs
    · exact EReal.coe_one.symm
    · exact EReal.coe_zero.symm

/-- The inverse square root of a real number at least one is a real number. -/
theorem rsqrt_real_of_pos (r : ℝ) (hr : 1 ≤ r) : ∃ s : ℝ, Ideal.rsqrt (r : EReal) = (s : EReal) := by
  refine ⟨(Real.sqrt r)⁻¹, ?_⟩
  rw [Ideal.rsqrt_coe, if_neg (by linarith), if_neg (by linarith)]

end Segments

end
-- ==== Proof.LibScatterRows.lean ====
/-
  Row scatter-add read at an element.

  A segment sum over rows — operand [N, C] (or [N, B, C]), one signed row number per update row
  (scatter indices [E, 1]), updates [E, C] (or [E, B, C]) — adds update row e into operand row
  idx[e, 0] and drops it when that row number is outside [0, N). Read at element (n, o) of the
  result this is the operand's element plus the sum, over the update rows e whose row number is n,
  of the update's element (e, o). All sizes and the index width are arbitrary.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace ScatterRows

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-! ## Rank 2: operand [N, C], row numbers [E, 1], updates [E, C] -/

/-- The dimension numbers of a row scatter over a rank-2 operand: the updates' axis 1 is the window
    axis and goes to the operand's axis 1; the operand's axis 0 is inserted and is the one the row
    number addresses; the row number is the length-1 vector on the scatter indices' axis 1. -/
abbrev rows2Dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

section Rows2
variable {N E C w : Nat} (wf : ScatterDims.WF ⟨2, ![N, C]⟩ ⟨2, ![E, 1]⟩ ⟨2, ![E, C]⟩ [1] [0] [0] 1)

/-- On operand axis 0 the window of update (e, o) starts at the row number idx[e, 0], read signed. -/
theorem rows2_start0 (idx : IVec ⟨2, ![E, 1]⟩ w) (e : Fin E) (o : Fin C) :
    (rows2Dims N E C wf).start (ix2 e o) idx 0 = (idx (ix2 e (0 : Fin 1))).toInt := by
  unfold ScatterDims.start
  rw [dif_pos (show (0 : Fin 2) ∈ (rows2Dims N E C wf).scatterDimsToOperandDims from List.mem_singleton.mpr rfl)]
  have hsi : (rows2Dims N E C wf).siIdx (ix2 e o) ⟨List.idxOf (0 : Fin 2) (rows2Dims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the row number does not address, the window starts at 0. -/
theorem rows2_start1 (idx : IVec ⟨2, ![E, 1]⟩ w) (e : Fin E) (o : Fin C) :
    (rows2Dims N E C wf).start (ix2 e o) idx 1 = 0 := by
  unfold ScatterDims.start
  have h : ¬ (1 : Fin 2) ∈ (rows2Dims N E C wf).scatterDimsToOperandDims := (show (1 : Fin 2) ∉ ([0] : List (Fin 2)) by decide)
  rw [dif_neg h]

/-- On the inserted operand axis 0 the window coordinate is 0. -/
theorem rows2_window0 (e : Fin E) (o : Fin C) : (rows2Dims N E C wf).window (ix2 e o) 0 = 0 := by
  unfold ScatterDims.window
  have h : ¬ (0 : Fin 2) ∈ (rows2Dims N E C wf).sKept := (show (0 : Fin 2) ∉ ([1] : List (Fin 2)) by decide)
  rw [dif_neg h]

/-- On operand axis 1 the window coordinate of update (e, o) is the column o. -/
theorem rows2_window1 (e : Fin E) (o : Fin C) : (rows2Dims N E C wf).window (ix2 e o) 1 = o.val := by
  unfold ScatterDims.window
  have h : (1 : Fin 2) ∈ (rows2Dims N E C wf).sKept := (show (1 : Fin 2) ∈ ([1] : List (Fin 2)) by decide)
  rw [dif_pos h]
  rfl

/-- Update (e, o') lands on operand element (n, o) exactly when its row number idx[e, 0], read
    signed, is n and its column o' is o. -/
theorem rows2_resultIdx?_iff (idx : IVec ⟨2, ![E, 1]⟩ w) (e : Fin E) (o' : Fin C) (n : Fin N) (o : Fin C) :
    (rows2Dims N E C wf).resultIdx? (ix2 e o') idx = some (ix2 n o) ↔
      (idx (ix2 e (0 : Fin 1))).toInt = (n.val : ℤ) ∧ o' = o := by
  rw [resultIdx?_eq_some_iff, Fin.forall_fin_two, rows2_start0, rows2_window0, rows2_start1, rows2_window1]
  show ((idx (ix2 e (0 : Fin 1))).toInt + ((0 : ℕ) : ℤ) = (n.val : ℤ) ∧ (0 : ℤ) + ((o'.val : ℕ) : ℤ) = (o.val : ℤ)) ↔ _
  rw [Fin.ext_iff]
  omega

/-- THE ROW SCATTER-ADD READ AT (n, o): the operand's element plus the sum of the updates' elements
    (e, o) over the update rows e whose row number idx[e, 0], read signed, is n. A row number outside
    [0, N) equals no n, so that update row is dropped. -/
theorem scatterAdd_rows2_apply (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) (rows2Dims N E C wf) x idx u (ix2 n o) =
      x (ix2 n o) + ∑ e : Fin E, if (idx (ix2 e (0 : Fin 1))).toInt = (n.val : ℤ) then u (ix2 e o) else 0 := by
  show Ideal.hostScatterAdd (rows2Dims N E C wf) x idx u (ix2 n o) = _
  unfold Ideal.hostScatterAdd
  congr 1
  rw [Finset.sum_filter, sum_idx2]
  refine Finset.sum_congr rfl fun e _ => ?_
  simp only [rows2_resultIdx?_iff]
  by_cases ht : (idx (ix2 e (0 : Fin 1))).toInt = (n.val : ℤ)
  · simp only [ht, true_and, if_true]
    exact Finset.sum_ite_eq' Finset.univ o _ |>.trans (if_pos (Finset.mem_univ o))
  · simp only [ht, false_and, if_false, Finset.sum_const_zero]

/-- The same reading for ANY record of dimension numbers whose four lists are those of a row scatter
    (each hypothesis is closed by reflexivity on a record written out field by field). -/
theorem scatterAdd_rows2_apply_of_dims (D : ScatterDims ⟨2, ![N, C]⟩ ⟨2, ![E, 1]⟩ ⟨2, ![E, C]⟩)
    (h1 : D.updateWindowDims = [1]) (h2 : D.insertedWindowDims = [0]) (h3 : D.scatterDimsToOperandDims = [0])
    (h4 : D.indexVectorDim = 1) (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) D x idx u (ix2 n o) =
      x (ix2 n o) + ∑ e : Fin E, if (idx (ix2 e (0 : Fin 1))).toInt = (n.val : ℤ) then u (ix2 e o) else 0 := by
  obtain ⟨uw, iw, sd, iv, wf'⟩ := D
  simp only at h1 h2 h3 h4
  subst h1 h2 h3 h4
  exact scatterAdd_rows2_apply wf' x idx u n o

end Rows2

/-! ## Rank 3: operand [N, B, C], row numbers [E, 1], updates [E, B, C] -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A statement about every one of three axes is the statement about axis 0, axis 1 and axis 2. -/
theorem forall_fin3 {P : Fin 3 → Prop} : (∀ a, P a) ↔ P 0 ∧ P 1 ∧ P 2 := by
  constructor
  · intro h; exact ⟨h 0, h 1, h 2⟩
  · rintro ⟨h0, h1, h2⟩ a
    match a with
    | ⟨0, _⟩ => exact h0
    | ⟨1, _⟩ => exact h1
    | ⟨2, _⟩ => exact h2

/-- The dimension numbers of a row scatter over a rank-3 operand: the updates' axes 1 and 2 are the
    window axes and go to the operand's axes 1 and 2; the operand's axis 0 is inserted and is the
    one the row number addresses; the row number is the length-1 vector on the scatter indices'
    axis 1. -/
abbrev rows3Dims (N E B C : Nat)
    (wf : ScatterDims.WF ⟨3, ![N, B, C]⟩ ⟨2, ![E, 1]⟩ ⟨3, ![E, B, C]⟩ [1, 2] [0] [0] 1) :
    ScatterDims ⟨3, ![N, B, C]⟩ ⟨2, ![E, 1]⟩ ⟨3, ![E, B, C]⟩ :=
  { updateWindowDims := [1, 2], insertedWindowDims := [0], scatterDimsToOperandDims := [0], indexVectorDim := 1, wf := wf }

section Rows3
variable {N E B C w : Nat} (wf : ScatterDims.WF ⟨3, ![N, B, C]⟩ ⟨2, ![E, 1]⟩ ⟨3, ![E, B, C]⟩ [1, 2] [0] [0] 1)

/-- On operand axis 0 the window of update (e, b, d) starts at the row number idx[e, 0], read signed. -/
theorem rows3_start0 (idx : IVec ⟨2, ![E, 1]⟩ w) (e : Fin E) (b : Fin B) (d : Fin C) :
    (rows3Dims N E B C wf).start (ix3 e b d) idx 0 = (idx (ix2 e (0 : Fin 1))).toInt := by
  unfold ScatterDims.start
  rw [dif_pos (show (0 : Fin 3) ∈ (rows3Dims N E B C wf).scatterDimsToOperandDims from List.mem_singleton.mpr rfl)]
  have hsi : (rows3Dims N E B C wf).siIdx (ix3 e b d) ⟨List.idxOf (0 : Fin 3) (rows3Dims N E B C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On operand axis 1, which the row number does not address, the window starts at 0. -/
theorem rows3_start1 (idx : IVec ⟨2, ![E, 1]⟩ w) (e : Fin E) (b : Fin B) (d : Fin C) :
    (rows3Dims N E B C wf).start (ix3 e b d) idx 1 = 0 := by
  unfold ScatterDims.start
  have h : ¬ (1 : Fin 3) ∈ (rows3Dims N E B C wf).scatterDimsToOperandDims := (show (1 : Fin 3) ∉ ([0] : List (Fin 3)) by decide)
  rw [dif_neg h]

/-- On operand axis 2, which the row number does not address, the window starts at 0. -/
theorem rows3_start2 (idx : IVec ⟨2, ![E, 1]⟩ w) (e : Fin E) (b : Fin B) (d : Fin C) :
    (rows3Dims N E B C wf).start (ix3 e b d) idx 2 = 0 := by
  unfold ScatterDims.start
  have h : ¬ (2 : Fin 3) ∈ (rows3Dims N E B C wf).scatterDimsToOperandDims := (show (2 : Fin 3) ∉ ([0] : List (Fin 3)) by decide)
  rw [dif_neg h]

/-- On the inserted operand axis 0 the window coordinate is 0. -/
theorem rows3_window0 (e : Fin E) (b : Fin B) (d : Fin C) : (rows3Dims N E B C wf).window (ix3 e b d) 0 = 0 := by
  unfold ScatterDims.window
  have h : ¬ (0 : Fin 3) ∈ (rows3Dims N E B C wf).sKept := (show (0 : Fin 3) ∉ ([1, 2] : List (Fin 3)) by decide)
  rw [dif_neg h]

/-- On operand axis 1 the window coordinate of update (e, b, d) is b. -/
theorem rows3_window1 (e : Fin E) (b : Fin B) (d : Fin C) : (rows3Dims N E B C wf).window (ix3 e b d) 1 = b.val := by
  unfold ScatterDims.window
  have h : (1 : Fin 3) ∈ (rows3Dims N E B C wf).sKept := (show (1 : Fin 3) ∈ ([1, 2] : List (Fin 3)) by decide)
  rw [dif_pos h]
  rfl

/-- On operand axis 2 the window coordinate of update (e, b, d) is d. -/
theorem rows3_window2 (e : Fin E) (b : Fin B) (d : Fin C) : (rows3Dims N E B C wf).window (ix3 e b d) 2 = d.val := by
  unfold ScatterDims.window
  have h : (2 : Fin 3) ∈ (rows3Dims N E B C wf).sKept := (show (2 : Fin 3) ∈ ([1, 2] : List (Fin 3)) by decide)
  rw [dif_pos h]
  rfl

/-- Update (e, b', d') lands on operand element (n, b, d) exactly when its row number idx[e, 0], read
    signed, is n and its two window coordinates are (b, d). -/
theorem rows3_resultIdx?_iff (idx : IVec ⟨2, ![E, 1]⟩ w) (e : Fin E) (b' : Fin B) (d' : Fin C) (n : Fin N)
    (b : Fin B) (d : Fin C) :
    (rows3Dims N E B C wf).resultIdx? (ix3 e b' d') idx = some (ix3 n b d) ↔
      (idx (ix2 e (0 : Fin 1))).toInt = (n.val : ℤ) ∧ b' = b ∧ d' = d := by
  rw [resultIdx?_eq_some_iff, forall_fin3, rows3_start0, rows3_window0, rows3_start1, rows3_window1,
    rows3_start2, rows3_window2]
  show ((idx (ix2 e (0 : Fin 1))).toInt + ((0 : ℕ) : ℤ) = (n.val : ℤ) ∧ (0 : ℤ) + ((b'.val : ℕ) : ℤ) = (b.val : ℤ) ∧
    (0 : ℤ) + ((d'.val : ℕ) : ℤ) = (d.val : ℤ)) ↔ _
  rw [Fin.ext_iff, Fin.ext_iff]
  omega

/-- THE ROW SCATTER-ADD READ AT (n, b, d): the operand's element plus the sum of the updates' elements
    (e, b, d) over the update rows e whose row number idx[e, 0], read signed, is n. A row number
    outside [0, N) equals no n, so that update row is dropped. -/
theorem scatterAdd_rows3_apply (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) (rows3Dims N E B C wf) x idx u (ix3 n b d) =
      x (ix3 n b d) + ∑ e : Fin E, if (idx (ix2 e (0 : Fin 1))).toInt = (n.val : ℤ) then u (ix3 e b d) else 0 := by
  show Ideal.hostScatterAdd (rows3Dims N E B C wf) x idx u (ix3 n b d) = _
  unfold Ideal.hostScatterAdd
  congr 1
  rw [Finset.sum_filter, sum_idx3]
  refine Finset.sum_congr rfl fun e _ => ?_
  simp only [rows3_resultIdx?_iff]
  by_cases ht : (idx (ix2 e (0 : Fin 1))).toInt = (n.val : ℤ)
  · simp only [ht, true_and, if_true]
    have hin : ∀ b' : Fin B, (∑ d' : Fin C, if b' = b ∧ d' = d then u (ix3 e b' d') else 0) =
        if b' = b then u (ix3 e b' d) else 0 := by
      intro b'
      by_cases hb : b' = b
      · simp only [hb, true_and, if_true]
        exact (Finset.sum_ite_eq' Finset.univ d _).trans (if_pos (Finset.mem_univ d))
      · simp only [hb, false_and, if_false, Finset.sum_const_zero]
    simp only [hin]
    exact (Finset.sum_ite_eq' Finset.univ b _).trans (if_pos (Finset.mem_univ b))
  · simp only [ht, false_and, if_false, Finset.sum_const_zero]

/-- The same reading for ANY record of dimension numbers whose four lists are those of a row scatter
    (each hypothesis is closed by reflexivity on a record written out field by field). -/
theorem scatterAdd_rows3_apply_of_dims (D : ScatterDims ⟨3, ![N, B, C]⟩ ⟨2, ![E, 1]⟩ ⟨3, ![E, B, C]⟩)
    (h1 : D.updateWindowDims = [1, 2]) (h2 : D.insertedWindowDims = [0]) (h3 : D.scatterDimsToOperandDims = [0])
    (h4 : D.indexVectorDim = 1) (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) D x idx u (ix3 n b d) =
      x (ix3 n b d) + ∑ e : Fin E, if (idx (ix2 e (0 : Fin 1))).toInt = (n.val : ℤ) then u (ix3 e b d) else 0 := by
  obtain ⟨uw, iw, sd, iv, wf'⟩ := D
  simp only at h1 h2 h3 h4
  subst h1 h2 h3 h4
  exact scatterAdd_rows3_apply wf' x idx u n b d

end Rows3

end ScatterRows

end
-- ==== Proof.LibSlots.lean ====
/-
  Layout operations of a "cells by slots" arrangement, read at an index given by coordinates.

  A flat list of E = n · m entries (m consecutive slots per cell) is reshaped to [n, m] (or, with c columns,
  [E, c] to [n, m, c]) and summed along the slot axis; a per-row vector [a] is made a column [a, 1] and the
  column is spread over b columns, both by a broadcast that names the axes it keeps.  Each lemma reads one
  of these at literal coordinates: entry (p, j) of the reshaped list is entry m p + j of the list; the sum
  along the slot axis at (p, q) is the initial value plus the sum over the slots j of the entries (p, j, q).
-/
import Idealize.ShloMosaic.Lib.ValueLayout
import Idealize.ShloMosaic.Lib.Pipeline.Value
import Idealize.ShloMosaic.Lib.ValueIdx
import Idealize.ShloMosaic.Lib.IdealHost
import Idealize.ShloMosaic.PureOps.Reduce
import Idealize.ShloMosaic.PureOps.Ideal.Laws

open scoped BigOperators

namespace Cert.Lib.Slots

open Idealize.ShloMosaic Idealize.ShloMosaic.ValueIdx

variable {α : Type}

/-! ## A vector as a column, a column over the columns -/

/-- An [a] vector broadcast to an [a, 1] column along axis 0 reads, at (i, u), the vector at i. -/
theorem bcastCol_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An [a, 1] column broadcast to [a, b] along both axes reads, at (p, c), the column's entry in row p. -/
theorem bcastRow_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## The flat list as cells by slots -/

/-- [E] reshaped to [n, m] reads, at (p, j), entry m p + j of the list. -/
theorem slots2_apply {n m E : ℕ} (x : (⟨1, ![E]⟩ : Shape).Idx → α)
    (h : (⟨1, ![E]⟩ : Shape).ShapeCasts ⟨2, ![n, m]⟩) (p : Fin n) (j : Fin m) (e : Fin E)
    (he : e.val = m * p.val + j.val) : shapeCast ⟨2, ![n, m]⟩ x h (ix2 p j) = x (ix1 e) :=
  shapeCast_apply x h _ _ (by
    rw [Shape.rowMajor_val_two, Shape.rowMajor_val_one]
    show e.val = p.val * m + j.val
    rw [he, Nat.mul_comm])

/-- [E, c] reshaped to [n, m, c] reads, at (p, j, q), row m p + j of the list, column q. -/
theorem slots3_apply {n m c E : ℕ} (x : (⟨2, ![E, c]⟩ : Shape).Idx → α)
    (h : (⟨2, ![E, c]⟩ : Shape).ShapeCasts ⟨3, ![n, m, c]⟩) (p : Fin n) (j : Fin m) (q : Fin c) (e : Fin E)
    (he : e.val = m * p.val + j.val) : shapeCast ⟨3, ![n, m, c]⟩ x h (ix3 p j q) = x (ix2 e q) :=
  shapeCast_apply x h _ _ (by
    rw [Shape.rowMajor_val_two, Shape.rowMajor_val_three]
    show e.val * c + q.val = (p.val * m + j.val) * c + q.val
    rw [he, Nat.mul_comm m])

/-! ## Sums along the slot axis -/

/-- The indices of [a, b] that a reduction along axis 1 runs over at p are (p, j). -/
theorem lift2 {a b : ℕ} (h : (⟨2, ![a, b]⟩ : Shape).Reduces [1] ⟨1, ![a]⟩) (p : Fin a) (j : Fin b) :
    h.lift (ix1 p) j = ix2 p j := by
  funext d
  apply Fin.ext
  match d with
  | ⟨0, _⟩ => rfl
  | ⟨1, _⟩ => rfl

/-- The indices of [a, b, c] that a reduction along axis 1 runs over at (p, q) are (p, j, q). -/
theorem lift3 {a b c : ℕ} (h : (⟨3, ![a, b, c]⟩ : Shape).Reduces [1] ⟨2, ![a, c]⟩) (p : Fin a) (q : Fin c) (j : Fin b) :
    h.lift (ix2 p q) j = ix3 p j q := by
  funext d
  apply Fin.ext
  match d with
  | ⟨0, _⟩ => rfl
  | ⟨1, _⟩ => rfl
  | ⟨2, _⟩ => rfl

/-- The host's sum of an [a, b] array along axis 1, at p: the initial value plus the sum over j of (p, j). -/
theorem hostSum2_apply {a b : ℕ} {φ : FTy} {u : Shape} (x : FVec Ideal ⟨2, ![a, b]⟩ φ) (init : u.Idx → Ideal φ)
    (h' : (⟨2, ![a, b]⟩ : Shape).ReducesTo [1] ⟨1, ![a]⟩) (hu : 0 < u.numel) (p : Fin a) :
    Host.reduceAdd x init h' hu (ix1 p) = init (Shape.Idx.first hu) + ∑ j : Fin b, x (ix2 p j) := by
  have h : (⟨2, ![a, b]⟩ : Shape).Reduces [1] ⟨1, ![a]⟩ := by
    obtain ⟨hr, hs⟩ := h'
    exact ⟨hr, Nat.one_pos, hs⟩
  refine (Ideal.hostReduceAdd_single h' h x _ (ix1 p)).trans ?_
  refine congrArg (init (Shape.Idx.first hu) + ·) ?_
  show ∑ j : Fin b, x (h.lift (ix1 p) j) = _
  exact Finset.sum_congr rfl fun j _ => by rw [lift2]

/-- The host's sum of an [a, b, c] array along axis 1, at (p, q): the initial value plus the sum over j of (p, j, q). -/
theorem hostSum3_apply {a b c : ℕ} {φ : FTy} {u : Shape} (x : FVec Ideal ⟨3, ![a, b, c]⟩ φ) (init : u.Idx → Ideal φ)
    (h' : (⟨3, ![a, b, c]⟩ : Shape).ReducesTo [1] ⟨2, ![a, c]⟩) (hu : 0 < u.numel) (p : Fin a) (q : Fin c) :
    Host.reduceAdd x init h' hu (ix2 p q) = init (Shape.Idx.first hu) + ∑ j : Fin b, x (ix3 p j q) := by
  have h : (⟨3, ![a, b, c]⟩ : Shape).Reduces [1] ⟨2, ![a, c]⟩ := by
    obtain ⟨hr, hs⟩ := h'
    exact ⟨hr, Nat.succ_pos _, hs⟩
  refine (Ideal.hostReduceAdd_single h' h x _ (ix2 p q)).trans ?_
  refine congrArg (init (Shape.Idx.first hu) + ·) ?_
  show ∑ j : Fin b, x (h.lift (ix2 p q) j) = _
  exact Finset.sum_congr rfl fun j _ => by rw [lift3]

end Cert.Lib.Slots
-- ==== Proof.HostAgg.lean ====
/-
  The weighted in-edge sum of a graph convolution, as one entry of its result.

  Every edge e reads the row of H that its source word names (read signed and clamped into [0, N - 1]), multiplies that row by
  the edge's weight (a column of weights spread over the 128 columns), and adds the product into the row of an all-zero array
  that its destination word names (an edge whose destination word is no row number adds to nothing). Read at entry (n, k) the
  result is zero plus the sum, over the edges whose destination word reads n, of H at (the source row, k) times the edge's
  weight: the specification's weighted in-edge sum. Proved for arbitrary H, source words, destination words and weights.
-/
import proofs.«159517_j46093589021377_2_alg».proof.KernelIdeal
import proofs.«159517_j46093589021377_2_alg».proof.Proof.Spec
import proofs.«159517_j46093589021377_2_alg».proof.Proof.LibSegments
import proofs.«159517_j46093589021377_2_alg».proof.Proof.LibScatterRows
import proofs.«159517_j46093589021377_2_alg».proof.Proof.LibSlots

noncomputable section

open scoped BigOperators
open Idealize.ShloMosaic Idealize.ShloMosaic.ValueIdx

namespace Cert.KernelIdeal.HostAgg

open Cert.KernelIdeal Cert.KernelIdeal.Facts₀ Cert.Gcn

/-- The node count is positive. -/
theorem hN : (0 : ℕ) < 100000 := by decide

/-- The all-zero array read at an entry is zero. -/
theorem zeros_apply [Cert.KernelIdeal.Facts] (n : Fin 100000) (k : Fin 128) :
    broadcastInDim S100000x128 ![] bcast_S_S100000x128 (constant (F := Ideal) S_ .f32 0x00000000#32) (ix2 n k) = (0 : EReal) := by
  refine (broadcastInDim_apply (s := S_) (t := S100000x128) ![] bcast_S_S100000x128 _ (ix2 n k) ix0 (fun a => a.elim0)).trans ?_
  exact Ideal.ofBits_zero_f32

/-- One edge's contribution at column k: the source row of H at k times the edge's weight. -/
theorem edge_term_apply [Cert.KernelIdeal.Facts] (H : FVec Ideal S100000x128 .f32) (srcw : IVec S1600000x1 32)
    (nrmcol : FVec Ideal S1600000x1 .f32) (e : Fin 1600000) (k : Fin 128) :
    mulf (Host.gather gather_S100000x128_S1600000x1_S1600000x128_1_0_n_n_0_1_1128 H srcw)
        (broadcastInDim S1600000x128 ![0, 1] bcast_S1600000x1_S1600000x128_0_1 nrmcol) (ix2 e k)
      = H (ix2 (rowOf hN srcw e) k) * nrmcol (ix2 e (0 : Fin 1)) := by
  refine (mulf_apply (s := S1600000x128) (φ := .f32) _ _ (ix2 e k)).trans ?_
  rw [Segments.gather_rows_apply_of_dims (N := 100000) (E := 1600000) (C := 128) hN
      gather_S100000x128_S1600000x1_S1600000x128_1_0_n_n_0_1_1128 rfl rfl rfl rfl rfl rfl rfl H srcw e k,
    Cert.Lib.Slots.bcastRow_apply (a := 1600000) (b := 128) nrmcol bcast_S1600000x1_S1600000x128_0_1 e k]
  rfl

/-- THE WEIGHTED IN-EDGE SUM AT AN ENTRY: the gather of source rows, times the weights, scatter-added by destination word into
    zeros, read at (n, k), is the specification's weighted in-edge sum. -/
theorem agg_entry [Cert.KernelIdeal.Facts] (H : FVec Ideal S100000x128 .f32) (srcw dstc : IVec S1600000x1 32)
    (nrmcol : FVec Ideal S1600000x1 .f32) (n : Fin 100000) (k : Fin 128) :
    Host.scatterAdd (F := Ideal) scatter_S100000x128_S1600000x1_S1600000x128_1_0_0_1
        (broadcastInDim S100000x128 ![] bcast_S_S100000x128 (constant (F := Ideal) S_ .f32 0x00000000#32)) dstc
        (mulf (Host.gather gather_S100000x128_S1600000x1_S1600000x128_1_0_n_n_0_1_1128 H srcw)
          (broadcastInDim S1600000x128 ![0, 1] bcast_S1600000x1_S1600000x128_0_1 nrmcol)) (ix2 n k)
      = Cert.Gcn.aggAt hN H srcw dstc (fun e => nrmcol (ix2 e (0 : Fin 1))) n k := by
  refine (ScatterRows.scatterAdd_rows2_apply_of_dims (N := 100000) (E := 1600000) (C := 128) (w := 32)
    scatter_S100000x128_S1600000x1_S1600000x128_1_0_0_1 rfl rfl rfl rfl _ dstc _ n k).trans ?_
  unfold aggAt
  rw [zeros_apply]
  refine congrArg (fun s : EReal => 0 + s) (Finset.sum_congr rfl fun e _ => ?_)
  rw [edge_term_apply]

end Cert.KernelIdeal.HostAgg

end
-- ==== Proof.HostLayout.lean ====
/-
  Small layout operations of the host program, read at an index.

  Two arrays joined along an axis read, at an index, the first array where the coordinate on that axis is below the
  first array's extent and the second array (the extent less) from there on: two [128, 64] matrices joined along
  columns, two vectors of 64 joined into one of 128. A vector viewed as a one-row matrix or as a one-column matrix
  reads the vector at the remaining coordinate. The left and right column halves of a [100000, 128] matrix read the
  matrix at the same row and at column q, respectively 64 + q.

  Every lemma is over arbitrary arrays of an arbitrary element type, and over ANY evidence that the shapes fit.
-/
import proofs.«159517_j46093589021377_2_alg».proof.Proof.Gen.KernelIdeal
import proofs.«159517_j46093589021377_2_alg».proof.Proof.LibConcatPair
import Idealize.ShloMosaic.Lib.Pipeline.Value
import Idealize.ShloMosaic.Lib.ValueLayout
import Idealize.ShloMosaic.Lib.ValueIdx

noncomputable section

open Idealize.ShloMosaic Idealize.ShloMosaic.ValueIdx

namespace Cert.KernelIdeal.HostLayout

open Cert.KernelIdeal Cert.KernelIdeal.Facts₀ Cert.Lib.ConcatPair

variable {α : Type}

/-! ## Two [128, 64] matrices joined along columns -/

/-- Left of column 64 the joined matrix reads the first matrix at the same row and column. -/
theorem pair_cols_of_lt (A B : S128x64.Idx → α) (h : Shape.Concatenates [S128x64, S128x64] S128x128 1)
    (k : Fin 128) (c : Fin 128) (hc : c.val < 64) :
    pair S128x128 1 S128x64 S128x64 A B h (ix2 k c) = A (ix2 k (⟨c.val, hc⟩ : Fin 64)) := by
  unfold pair
  refine concatenate_pair_apply_left (1 : Fin S128x128.rank) A B h (ix2 k c) rfl (ix2 k (⟨c.val, hc⟩ : Fin 64)) fun b => ?_
  match b with
  | ⟨0, _⟩ => rfl
  | ⟨1, _⟩ => rfl

/-- From column 64 on it reads the second matrix at the same row, 64 columns to the left. -/
theorem pair_cols_of_le (A B : S128x64.Idx → α) (h : Shape.Concatenates [S128x64, S128x64] S128x128 1)
    (k : Fin 128) (c : Fin 128) (hc : 64 ≤ c.val) :
    pair S128x128 1 S128x64 S128x64 A B h (ix2 k c)
      = B (ix2 k (⟨c.val - 64, by have := c.isLt; omega⟩ : Fin 64)) := by
  unfold pair
  refine concatenate_pair_apply_right (1 : Fin S128x128.rank) A B h (ix2 k c) rfl rfl
    (ix2 k (⟨c.val - 64, by have := c.isLt; omega⟩ : Fin 64)) (fun b hb => ?_) ?_
  · match b with
    | ⟨0, _⟩ => rfl
    | ⟨1, _⟩ => exact absurd rfl hb
  · show (c.val - 64) + 64 = c.val
    omega

/-- Column `q` of the joined matrix, `q` below 64, is column `q` of the first. -/
theorem pair_cols_left (A B : S128x64.Idx → α) (h : Shape.Concatenates [S128x64, S128x64] S128x128 1)
    (k : Fin 128) (q : Fin 64) :
    pair S128x128 1 S128x64 S128x64 A B h (ix2 k (⟨q.val, by have := q.isLt; omega⟩ : Fin 128)) = A (ix2 k q) :=
  pair_cols_of_lt A B h k ⟨q.val, by have := q.isLt; omega⟩ q.isLt

/-- Column `64 + q` of the joined matrix is column `q` of the second. -/
theorem pair_cols_right (A B : S128x64.Idx → α) (h : Shape.Concatenates [S128x64, S128x64] S128x128 1)
    (k : Fin 128) (q : Fin 64) :
    pair S128x128 1 S128x64 S128x64 A B h (ix2 k (⟨64 + q.val, by have := q.isLt; omega⟩ : Fin 128)) = B (ix2 k q) := by
  refine (pair_cols_of_le A B h k ⟨64 + q.val, by have := q.isLt; omega⟩ (Nat.le_add_right 64 q.val)).trans ?_
  congr 2
  apply Fin.ext
  show 64 + q.val - 64 = q.val
  omega

/-- The same two, at the evidence the program states. -/
theorem weights_left (A B : S128x64.Idx → α) (k : Fin 128) (q : Fin 64) :
    pair S128x128 1 S128x64 S128x64 A B concatenates_S128x64_S128x64_S128x128_d1
      (ix2 k (⟨q.val, by have := q.isLt; omega⟩ : Fin 128)) = A (ix2 k q) :=
  pair_cols_left A B _ k q

theorem weights_right (A B : S128x64.Idx → α) (k : Fin 128) (q : Fin 64) :
    pair S128x128 1 S128x64 S128x64 A B concatenates_S128x64_S128x64_S128x128_d1
      (ix2 k (⟨64 + q.val, by have := q.isLt; omega⟩ : Fin 128)) = B (ix2 k q) :=
  pair_cols_right A B _ k q

/-! ## Two vectors of 64 joined into one of 128 -/

/-- Below position 64 the joined vector reads the first vector at the same position. -/
theorem pair_vec_of_lt (a b : S64.Idx → α) (h : Shape.Concatenates [S64, S64] S128 0) (c : Fin 128) (hc : c.val < 64) :
    pair S128 0 S64 S64 a b h (ix1 c) = a (ix1 (⟨c.val, hc⟩ : Fin 64)) := by
  unfold pair
  refine concatenate_pair_apply_left (0 : Fin S128.rank) a b h (ix1 c) rfl (ix1 (⟨c.val, hc⟩ : Fin 64)) fun d => ?_
  match d with
  | ⟨0, _⟩ => rfl

/-- From position 64 on it reads the second vector, 64 positions earlier. -/
theorem pair_vec_of_le (a b : S64.Idx → α) (h : Shape.Concatenates [S64, S64] S128 0) (c : Fin 128) (hc : 64 ≤ c.val) :
    pair S128 0 S64 S64 a b h (ix1 c) = b (ix1 (⟨c.val - 64, by have := c.isLt; omega⟩ : Fin 64)) := by
  unfold pair
  refine concatenate_pair_apply_right (0 : Fin S128.rank) a b h (ix1 c) rfl rfl
    (ix1 (⟨c.val - 64, by have := c.isLt; omega⟩ : Fin 64)) (fun d hd => ?_) ?_
  · match d with
    | ⟨0, _⟩ => exact absurd rfl hd
  · show (c.val - 64) + 64 = c.val
    omega

/-- Position `q` of the joined vector, `q` below 64, is position `q` of the first. -/
theorem pair_vec_left (a b : S64.Idx → α) (h : Shape.Concatenates [S64, S64] S128 0) (q : Fin 64) :
    pair S128 0 S64 S64 a b h (ix1 (⟨q.val, by have := q.isLt; omega⟩ : Fin 128)) = a (ix1 q) :=
  pair_vec_of_lt a b h ⟨q.val, by have := q.isLt; omega⟩ q.isLt

/-- Position `64 + q` of the joined vector is position `q` of the second. -/
theorem pair_vec_right (a b : S64.Idx → α) (h : Shape.Concatenates [S64, S64] S128 0) (q : Fin 64) :
    pair S128 0 S64 S64 a b h (ix1 (⟨64 + q.val, by have := q.isLt; omega⟩ : Fin 128)) = b (ix1 q) := by
  refine (pair_vec_of_le a b h ⟨64 + q.val, by have := q.isLt; omega⟩ (Nat.le_add_right 64 q.val)).trans ?_
  congr 2
  apply Fin.ext
  show 64 + q.val - 64 = q.val
  omega

/-- The same two, at the evidence the program states. -/
theorem biases_left (a b : S64.Idx → α) (q : Fin 64) :
    pair S128 0 S64 S64 a b concatenates_S64_S64_S128_d0 (ix1 (⟨q.val, by have := q.isLt; omega⟩ : Fin 128)) = a (ix1 q) :=
  pair_vec_left a b _ q

theorem biases_right (a b : S64.Idx → α) (q : Fin 64) :
    pair S128 0 S64 S64 a b concatenates_S64_S64_S128_d0 (ix1 (⟨64 + q.val, by have := q.isLt; omega⟩ : Fin 128)) = b (ix1 q) :=
  pair_vec_right a b _ q

/-! ## A vector as a one-row matrix, and as a one-column matrix -/

/-- A vector of 128 viewed as a [1, 128] matrix reads, at `(0, j)`, the vector at `j`. -/
theorem row_of_vec_apply (v : S128.Idx → α) (h : S128.ShapeCasts S1x128) (j : Fin 128) :
    shapeCast S1x128 v h (ix2 (0 : Fin 1) j) = v (ix1 j) :=
  shapeCast_a_1a_apply v h (0 : Fin 1) j

/-- An `[a]` array viewed as `[a, 1]` reads, at `(i, u)`, the array at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector of 1600000 viewed as a [1600000, 1] matrix reads, at `(e, 0)`, the vector at `e`. -/
theorem col_of_vec_edges_apply (v : S1600000.Idx → α) (h : S1600000.ShapeCasts S1600000x1) (e : Fin 1600000) :
    shapeCast S1600000x1 v h (ix2 e (0 : Fin 1)) = v (ix1 e) :=
  shapeCast_a_a1_apply v h e (0 : Fin 1)

/-- A vector of 100000 viewed as a [100000, 1] matrix reads, at `(n, 0)`, the vector at `n`. -/
theorem col_of_vec_nodes_apply (v : S100000.Idx → α) (h : S100000.ShapeCasts S100000x1) (n : Fin 100000) :
    shapeCast S100000x1 v h (ix2 n (0 : Fin 1)) = v (ix1 n) :=
  shapeCast_a_a1_apply v h n (0 : Fin 1)

/-- The same three, at the evidence the program states. -/
theorem row_of_vec128 (v : S128.Idx → α) (j : Fin 128) :
    shapeCast S1x128 v shapeCasts_S128_S1x128 (ix2 (0 : Fin 1) j) = v (ix1 j) :=
  row_of_vec_apply v _ j

theorem col_of_vec1600000 (v : S1600000.Idx → α) (e : Fin 1600000) :
    shapeCast S1600000x1 v shapeCasts_S1600000_S1600000x1 (ix2 e (0 : Fin 1)) = v (ix1 e) :=
  col_of_vec_edges_apply v _ e

theorem col_of_vec100000 (v : S100000.Idx → α) (n : Fin 100000) :
    shapeCast S100000x1 v shapeCasts_S100000_S100000x1 (ix2 n (0 : Fin 1)) = v (ix1 n) :=
  col_of_vec_nodes_apply v _ n

/-! ## The two column halves of a [100000, 128] matrix -/

/-- The left half reads the matrix at the same row and column. -/
theorem cols_lo_apply (X : S100000x128.Idx → α) (h : S100000x128.Slices ![0, 0] S100000x64) (n : Fin 100000) (q : Fin 64) :
    extractStridedSlice S100000x64 ![0, 0] X h (ix2 n q) = X (ix2 n (⟨q.val, by have := q.isLt; omega⟩ : Fin 128)) :=
  extractStridedSlice_apply ![0, 0] X h (ix2 n q) (ix2 n (⟨q.val, by have := q.isLt; omega⟩ : Fin 128)) fun a =>
    match a with
    | ⟨0, _⟩ => by show n.val = 0 + n.val; omega
    | ⟨1, _⟩ => by show q.val = 0 + q.val; omega

/-- The right half reads the matrix at the same row, 64 columns to the right. -/
theorem cols_hi_apply (X : S100000x128.Idx → α) (h : S100000x128.Slices ![0, 64] S100000x64) (n : Fin 100000) (q : Fin 64) :
    extractStridedSlice S100000x64 ![0, 64] X h (ix2 n q) = X (ix2 n (⟨64 + q.val, by have := q.isLt; omega⟩ : Fin 128)) :=
  extractStridedSlice_apply ![0, 64] X h (ix2 n q) (ix2 n (⟨64 + q.val, by have := q.isLt; omega⟩ : Fin 128)) fun a =>
    match a with
    | ⟨0, _⟩ => by show n.val = 0 + n.val; omega
    | ⟨1, _⟩ => by show 64 + q.val = 64 + q.val; rfl

/-- The same two, at the evidence the program states. -/
theorem result_lo (X : S100000x128.Idx → α) (n : Fin 100000) (q : Fin 64) :
    extractStridedSlice S100000x64 ![0, 0] X slices_S100000x128_S100000x64_0_0 (ix2 n q)
      = X (ix2 n (⟨q.val, by have := q.isLt; omega⟩ : Fin 128)) :=
  cols_lo_apply X _ n q

theorem result_hi (X : S100000x128.Idx → α) (n : Fin 100000) (q : Fin 64) :
    extractStridedSlice S100000x64 ![0, 64] X slices_S100000x128_S100000x64_0_64 (ix2 n q)
      = X (ix2 n (⟨64 + q.val, by have := q.isLt; omega⟩ : Fin 128)) :=
  cols_hi_apply X _ n q

end Cert.KernelIdeal.HostLayout

end
-- ==== Proof.KernelValue.lean ====
/-
  What the idealized kernel program's two results hold, entry by entry.

  The program alternates host operations with four grid regions. Region 0 is the dense product X·W1. The host then
  gathers that product's rows along the edges, scales them by the edge weights and scatter-adds them by destination;
  region 1 adds the self-loop term and the bias and takes the positive part: the first layer H1 (`h1_entry`). The host
  aggregates H1 the same way; region 2 adds the self-loop term: one hop of H1 without bias. Region 3 multiplies that
  by the two second-layer weight matrices joined side by side and adds the two biases joined; the two results are
  the left and right halves of the columns. So each result is a hop taken BEFORE its dense map (`mu_entry`,
  `logstd_entry`), in the words of the specification.
-/
import proofs.«159517_j46093589021377_2_alg».proof.Proof.KernelGraph
import proofs.«159517_j46093589021377_2_alg».proof.Proof.LibReadLine
import proofs.«159517_j46093589021377_2_alg».proof.Proof.Spec
import proofs.«159517_j46093589021377_2_alg».proof.Proof.RegionDense
import proofs.«159517_j46093589021377_2_alg».proof.Proof.RegionPointwise
import proofs.«159517_j46093589021377_2_alg».proof.Proof.HostAgg
import proofs.«159517_j46093589021377_2_alg».proof.Proof.HostLayout

set_option maxRecDepth 16384

noncomputable section

namespace Cert.KernelIdeal.HostRead

open Idealize.ShloMosaic Idealize.ShloMosaic.TcCoe Idealize.SL.Sem Idealize.ShloMosaic.StableHlo Idealize.ShloMosaic.ValueIdx
open Cert.KernelIdeal Cert.KernelIdeal.Gen Cert.Lib.ReadLine Cert.Gcn
open Cert.KernelIdeal.RegionDense Cert.KernelIdeal.RegionPointwise Cert.KernelIdeal.HostAgg

variable (m : (ℓ : Loc nD τ sig) → Buf (Elt Ideal) ℓ) (ρ : Dev nD → PrngReg) (c : Dev nD)

/-! ## Buffers that are never overwritten -/

/-- The float arguments reach the first region as launched. -/
theorem w3_arg (b : Ref sig .tc) (hb : b = main_arg0 ∨ b = main_arg2 ∨ b = main_arg3 ∨ b = main_arg4 ∨ b = main_arg5 ∨ b = main_arg6 ∨ b = main_arg7) :
    W3 m ρ c (Proc.devRef .tc b) = m ((c : Thread nD τ).loc b) := by
  show StableHlo.after hostOps0_2 (StableHlo.after hostOps0_1 (StableHlo.after hostOps0 (W0 m ρ c))) (Proc.devRef .tc b) = _
  simp only [hostOps0_2, hostOps0_1, hostOps0]
  rcases hb with rfl | rfl | rfl | rfl | rfl | rfl | rfl <;> read_line

/-- The first region's result: the dense product of the node features and the first weight matrix. -/
theorem w4_v32 : (W4 m ρ c (Proc.devRef .tc main_v32) : FVec Ideal S100000x128 .f32)
    = ofAt (prodAt (m ((c : Thread nD τ).loc main_arg0)) (m ((c : Thread nD τ).loc main_arg2))) := by
  refine (W4_arr m ρ c 2).trans ?_
  rw [dense0_array (V3 m ρ) c]
  show ofAt (prodAt (W3 m ρ c (Proc.devRef .tc main_arg0)) (W3 m ρ c (Proc.devRef .tc main_arg2))) = _
  rw [w3_arg m ρ c main_arg0 (Or.inl rfl), w3_arg m ρ c main_arg2 (Or.inr (Or.inl rfl))]

/-- The weighted in-edge sum of an array's rows, as the host spells it. -/
def aggArr (H : FVec Ideal S100000x128 .f32) (srcw dstc : IVec S1600000x1 32) (nrmcol : FVec Ideal S1600000x1 .f32) :
    FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32)) dstc
    (mulf (Host.gather gather_S100000x128_S1600000x1_S1600000x128_1_0_n_n_0_1_1128 H srcw)
      (broadcastInDim S1600000x128 ![0, 1] bcast_S1600000x1_S1600000x128_0_1 nrmcol))

theorem aggArr_apply (H : FVec Ideal S100000x128 .f32) (srcw dstc : IVec S1600000x1 32) (nrmcol : FVec Ideal S1600000x1 .f32)
    (n : Fin 100000) (k : Fin 128) :
    aggArr H srcw dstc nrmcol (ix2 n k) = aggAt hN H srcw dstc (fun e => nrmcol (ix2 e (0 : Fin 1))) n k :=
  agg_entry H srcw dstc nrmcol n k

/-! ## Region 1's entry and exit -/

theorem w5_v44 : (W5 m ρ c (Proc.devRef .tc main_v44) : FVec Ideal S100000x128 .f32)
    = aggArr (W4 m ρ c (Proc.devRef .tc main_v32)) (wrapCol (gSrc m ρ c)) (col (gDst m ρ c)) (gNrm m ρ c) := by
  show StableHlo.after hostOps1 (W4 m ρ c) (Proc.devRef .tc main_v44) = _
  simp only [hostOps1]
  read_line
  rw [W4_of_ne m ρ c main_v1 (by decide), W4_of_ne m ρ c main_v3 (by decide), W4_of_ne m ρ c main_v29 (by decide)]
  rfl

theorem w5_v32 : W5 m ρ c (Proc.devRef .tc main_v32) = W4 m ρ c (Proc.devRef .tc main_v32) := by
  show StableHlo.after hostOps1 (W4 m ρ c) (Proc.devRef .tc main_v32) = _
  simp only [hostOps1]
  read_line

theorem w5_v31 : W5 m ρ c (Proc.devRef .tc main_v31) = gD2 m ρ c := by
  show StableHlo.after hostOps1 (W4 m ρ c) (Proc.devRef .tc main_v31) = _
  simp only [hostOps1]
  read_line
  exact W4_of_ne m ρ c main_v31 (by decide)

theorem w5_v45 : (W5 m ρ c (Proc.devRef .tc main_v45) : FVec Ideal S1x128 .f32)
    = shapeCast S1x128 (m ((c : Thread nD τ).loc main_arg3)) shapeCasts_S128_S1x128 := by
  show StableHlo.after hostOps1 (W4 m ρ c) (Proc.devRef .tc main_v45) = _
  simp only [hostOps1]
  read_line
  rw [W4_of_ne m ρ c main_arg3 (by decide), w3_arg m ρ c main_arg3 (Or.inr (Or.inr (Or.inl rfl)))]
  rfl

/-- The first layer's output, as region 1 leaves it. -/
def gH1 : FVec Ideal S100000x128 .f32 := W6 m ρ c (Proc.devRef .tc main_v46)

/-- The first layer, entry by entry. -/
theorem h1_entry (n : Fin 100000) (k : Fin 128) :
    gH1 m ρ c (ix2 n k) = layer1At hN (m ((c : Thread nD τ).loc main_arg0)) (m ((c : Thread nD τ).loc main_arg2))
      (wrapCol (gSrc m ρ c)) (col (gDst m ρ c)) (fun e => gNrm m ρ c (ix2 e (0 : Fin 1)))
      (fun n => gD2 m ρ c (ix2 n (0 : Fin 1))) (fun k => m ((c : Thread nD τ).loc main_arg3) (ix1 k)) n k := by
  have harr : gH1 m ρ c = reluMix
      (aggArr (ofAt (prodAt (m ((c : Thread nD τ).loc main_arg0)) (m ((c : Thread nD τ).loc main_arg2))))
        (wrapCol (gSrc m ρ c)) (col (gDst m ρ c)) (gNrm m ρ c))
      (ofAt (prodAt (m ((c : Thread nD τ).loc main_arg0)) (m ((c : Thread nD τ).loc main_arg2))))
      (gD2 m ρ c) (shapeCast S1x128 (m ((c : Thread nD τ).loc main_arg3)) shapeCasts_S128_S1x128) :=
    (W6_arr m ρ c 4).trans (relu1_array_of (V5 m ρ) c _ _ _ _
      ((w5_v44 m ρ c).trans (by rw [w4_v32]))
      ((w5_v32 m ρ c).trans (w4_v32 m ρ c))
      (w5_v31 m ρ c)
      (w5_v45 m ρ c))
  rw [harr, reluMix_apply, aggArr_apply]
  rw [Cert.KernelIdeal.HostLayout.row_of_vec128]
  rfl

/-! ## Region 2: one hop of the first layer without bias -/

theorem w5_keep_v1 : W5 m ρ c (Proc.devRef .tc main_v1) = W4 m ρ c (Proc.devRef .tc main_v1) := by
  show StableHlo.after hostOps1 (W4 m ρ c) (Proc.devRef .tc main_v1) = W4 m ρ c (Proc.devRef .tc main_v1)
  simp only [hostOps1]
  read_line

theorem w5_keep_v3 : W5 m ρ c (Proc.devRef .tc main_v3) = W4 m ρ c (Proc.devRef .tc main_v3) := by
  show StableHlo.after hostOps1 (W4 m ρ c) (Proc.devRef .tc main_v3) = W4 m ρ c (Proc.devRef .tc main_v3)
  simp only [hostOps1]
  read_line

theorem w5_keep_v29 : W5 m ρ c (Proc.devRef .tc main_v29) = W4 m ρ c (Proc.devRef .tc main_v29) := by
  show StableHlo.after hostOps1 (W4 m ρ c) (Proc.devRef .tc main_v29) = W4 m ρ c (Proc.devRef .tc main_v29)
  simp only [hostOps1]
  read_line

theorem w5_keep_v31 : W5 m ρ c (Proc.devRef .tc main_v31) = W4 m ρ c (Proc.devRef .tc main_v31) := by
  show StableHlo.after hostOps1 (W4 m ρ c) (Proc.devRef .tc main_v31) = W4 m ρ c (Proc.devRef .tc main_v31)
  simp only [hostOps1]
  read_line

theorem w5_keep_arg4 : W5 m ρ c (Proc.devRef .tc main_arg4) = W4 m ρ c (Proc.devRef .tc main_arg4) := by
  show StableHlo.after hostOps1 (W4 m ρ c) (Proc.devRef .tc main_arg4) = W4 m ρ c (Proc.devRef .tc main_arg4)
  simp only [hostOps1]
  read_line

theorem w5_keep_arg5 : W5 m ρ c (Proc.devRef .tc main_arg5) = W4 m ρ c (Proc.devRef .tc main_arg5) := by
  show StableHlo.after hostOps1 (W4 m ρ c) (Proc.devRef .tc main_arg5) = W4 m ρ c (Proc.devRef .tc main_arg5)
  simp only [hostOps1]
  read_line

theorem w5_keep_arg6 : W5 m ρ c (Proc.devRef .tc main_arg6) = W4 m ρ c (Proc.devRef .tc main_arg6) := by
  show StableHlo.after hostOps1 (W4 m ρ c) (Proc.devRef .tc main_arg6) = W4 m ρ c (Proc.devRef .tc main_arg6)
  simp only [hostOps1]
  read_line

theorem w5_keep_arg7 : W5 m ρ c (Proc.devRef .tc main_arg7) = W4 m ρ c (Proc.devRef .tc main_arg7) := by
  show StableHlo.after hostOps1 (W4 m ρ c) (Proc.devRef .tc main_arg7) = W4 m ρ c (Proc.devRef .tc main_arg7)
  simp only [hostOps1]
  read_line

theorem w6_v1 : W6 m ρ c (Proc.devRef .tc main_v1) = W3 m ρ c (Proc.devRef .tc main_v1) :=
  (W6_of_ne m ρ c main_v1 (by decide)).trans ((w5_keep_v1 m ρ c).trans (W4_of_ne m ρ c main_v1 (by decide)))

theorem w6_v3 : W6 m ρ c (Proc.devRef .tc main_v3) = W3 m ρ c (Proc.devRef .tc main_v3) :=
  (W6_of_ne m ρ c main_v3 (by decide)).trans ((w5_keep_v3 m ρ c).trans (W4_of_ne m ρ c main_v3 (by decide)))

theorem w6_v29 : W6 m ρ c (Proc.devRef .tc main_v29) = W3 m ρ c (Proc.devRef .tc main_v29) :=
  (W6_of_ne m ρ c main_v29 (by decide)).trans ((w5_keep_v29 m ρ c).trans (W4_of_ne m ρ c main_v29 (by decide)))

theorem w6_arg4 : W6 m ρ c (Proc.devRef .tc main_arg4) = W3 m ρ c (Proc.devRef .tc main_arg4) :=
  (W6_of_ne m ρ c main_arg4 (by decide)).trans ((w5_keep_arg4 m ρ c).trans (W4_of_ne m ρ c main_arg4 (by decide)))

theorem w6_arg5 : W6 m ρ c (Proc.devRef .tc main_arg5) = W3 m ρ c (Proc.devRef .tc main_arg5) :=
  (W6_of_ne m ρ c main_arg5 (by decide)).trans ((w5_keep_arg5 m ρ c).trans (W4_of_ne m ρ c main_arg5 (by decide)))

theorem w6_arg6 : W6 m ρ c (Proc.devRef .tc main_arg6) = W3 m ρ c (Proc.devRef .tc main_arg6) :=
  (W6_of_ne m ρ c main_arg6 (by decide)).trans ((w5_keep_arg6 m ρ c).trans (W4_of_ne m ρ c main_arg6 (by decide)))

theorem w6_arg7 : W6 m ρ c (Proc.devRef .tc main_arg7) = W3 m ρ c (Proc.devRef .tc main_arg7) :=
  (W6_of_ne m ρ c main_arg7 (by decide)).trans ((w5_keep_arg7 m ρ c).trans (W4_of_ne m ρ c main_arg7 (by decide)))

theorem w6_v31 : W6 m ρ c (Proc.devRef .tc main_v31) = W3 m ρ c (Proc.devRef .tc main_v31) :=
  (W6_arr m ρ c 2).trans ((((dat1 (V5 m ρ) c).arrAt_in 2 rfl _).trans (A_eq1 (V5 m ρ) c 2)).trans
    ((w5_keep_v31 m ρ c).trans (W4_of_ne m ρ c main_v31 (by decide))))

theorem w7_v58 : (W7 m ρ c (Proc.devRef .tc main_v58) : FVec Ideal S100000x128 .f32)
    = aggArr (gH1 m ρ c) (wrapCol (gSrc m ρ c)) (col (gDst m ρ c)) (gNrm m ρ c) := by
  show StableHlo.after hostOps2 (W6 m ρ c) (Proc.devRef .tc main_v58) = _
  simp only [hostOps2]
  read_line
  rw [w6_v1 m ρ c, w6_v3 m ρ c, w6_v29 m ρ c]
  rfl

theorem w7_v46 : W7 m ρ c (Proc.devRef .tc main_v46) = gH1 m ρ c := by
  show StableHlo.after hostOps2 (W6 m ρ c) (Proc.devRef .tc main_v46) = _
  simp only [hostOps2]
  read_line
  rfl

theorem w7_v31 : W7 m ρ c (Proc.devRef .tc main_v31) = gD2 m ρ c := by
  show StableHlo.after hostOps2 (W6 m ρ c) (Proc.devRef .tc main_v31) = _
  simp only [hostOps2]
  read_line
  exact w6_v31 m ρ c

/-- Region 2's result. -/
def gZ : FVec Ideal S100000x128 .f32 := W8 m ρ c (Proc.devRef .tc main_v59)

theorem z_entry (n : Fin 100000) (k : Fin 128) :
    gZ m ρ c (ix2 n k) = mixAt hN (gH1 m ρ c) (wrapCol (gSrc m ρ c)) (col (gDst m ρ c))
      (fun e => gNrm m ρ c (ix2 e (0 : Fin 1))) (fun n => gD2 m ρ c (ix2 n (0 : Fin 1))) n k := by
  have harr : gZ m ρ c = mix (aggArr (gH1 m ρ c) (wrapCol (gSrc m ρ c)) (col (gDst m ρ c)) (gNrm m ρ c))
      (gH1 m ρ c) (gD2 m ρ c) :=
    (W8_arr m ρ c 3).trans (mix2_array_of (V7 m ρ) c _ _ _ (w7_v58 m ρ c) (w7_v46 m ρ c) (w7_v31 m ρ c))
  rw [harr, mix_apply, aggArr_apply]
  rfl

theorem z_array : gZ m ρ c = ofAt (mixAt hN (gH1 m ρ c) (wrapCol (gSrc m ρ c)) (col (gDst m ρ c))
      (fun e => gNrm m ρ c (ix2 e (0 : Fin 1))) (fun n => gD2 m ρ c (ix2 n (0 : Fin 1)))) := by
  funext i
  obtain ⟨n, k, rfl⟩ : ∃ (n : Fin 100000) (k : Fin 128), i = ix2 n k := ⟨i 0, i 1, eq_ix2 i⟩
  rw [z_entry, ofAt_apply]

/-! ## Region 3 and the two results -/

theorem w7_keep_arg4 : W7 m ρ c (Proc.devRef .tc main_arg4) = W6 m ρ c (Proc.devRef .tc main_arg4) := by
  show StableHlo.after hostOps2 (W6 m ρ c) (Proc.devRef .tc main_arg4) = W6 m ρ c (Proc.devRef .tc main_arg4)
  simp only [hostOps2]
  read_line

theorem w7_keep_arg5 : W7 m ρ c (Proc.devRef .tc main_arg5) = W6 m ρ c (Proc.devRef .tc main_arg5) := by
  show StableHlo.after hostOps2 (W6 m ρ c) (Proc.devRef .tc main_arg5) = W6 m ρ c (Proc.devRef .tc main_arg5)
  simp only [hostOps2]
  read_line

theorem w7_keep_arg6 : W7 m ρ c (Proc.devRef .tc main_arg6) = W6 m ρ c (Proc.devRef .tc main_arg6) := by
  show StableHlo.after hostOps2 (W6 m ρ c) (Proc.devRef .tc main_arg6) = W6 m ρ c (Proc.devRef .tc main_arg6)
  simp only [hostOps2]
  read_line

theorem w7_keep_arg7 : W7 m ρ c (Proc.devRef .tc main_arg7) = W6 m ρ c (Proc.devRef .tc main_arg7) := by
  show StableHlo.after hostOps2 (W6 m ρ c) (Proc.devRef .tc main_arg7) = W6 m ρ c (Proc.devRef .tc main_arg7)
  simp only [hostOps2]
  read_line

theorem w8_arg4 : W8 m ρ c (Proc.devRef .tc main_arg4) = m ((c : Thread nD τ).loc main_arg4) :=
  (W8_of_ne m ρ c main_arg4 (by decide)).trans ((w7_keep_arg4 m ρ c).trans ((w6_arg4 m ρ c).trans (w3_arg m ρ c main_arg4 (Or.inr (Or.inr (Or.inr (Or.inl rfl)))))))

theorem w8_arg5 : W8 m ρ c (Proc.devRef .tc main_arg5) = m ((c : Thread nD τ).loc main_arg5) :=
  (W8_of_ne m ρ c main_arg5 (by decide)).trans ((w7_keep_arg5 m ρ c).trans ((w6_arg5 m ρ c).trans (w3_arg m ρ c main_arg5 (Or.inr (Or.inr (Or.inr (Or.inr (Or.inl rfl))))))))

theorem w8_arg6 : W8 m ρ c (Proc.devRef .tc main_arg6) = m ((c : Thread nD τ).loc main_arg6) :=
  (W8_of_ne m ρ c main_arg6 (by decide)).trans ((w7_keep_arg6 m ρ c).trans ((w6_arg6 m ρ c).trans (w3_arg m ρ c main_arg6 (Or.inr (Or.inr (Or.inr (Or.inr (Or.inr (Or.inl rfl)))))))))

theorem w8_arg7 : W8 m ρ c (Proc.devRef .tc main_arg7) = m ((c : Thread nD τ).loc main_arg7) :=
  (W8_of_ne m ρ c main_arg7 (by decide)).trans ((w7_keep_arg7 m ρ c).trans ((w6_arg7 m ρ c).trans (w3_arg m ρ c main_arg7 (Or.inr (Or.inr (Or.inr (Or.inr (Or.inr (Or.inr rfl)))))))))

theorem w9_v59 : W9 m ρ c (Proc.devRef .tc main_v59) = gZ m ρ c := by
  show StableHlo.after hostOps3 (W8 m ρ c) (Proc.devRef .tc main_v59) = _
  simp only [hostOps3]
  read_line
  rfl

/-- The two second-layer weight matrices side by side. -/
theorem w9_v60 : (W9 m ρ c (Proc.devRef .tc main_v60) : FVec Ideal S128x128 .f32)
    = Cert.Lib.ConcatPair.pair S128x128 1 S128x64 S128x64 (m ((c : Thread nD τ).loc main_arg4)) (m ((c : Thread nD τ).loc main_arg6))
        concatenates_S128x64_S128x64_S128x128_d1 := by
  show StableHlo.after hostOps3 (W8 m ρ c) (Proc.devRef .tc main_v60) = _
  simp only [hostOps3]
  read_line
  rw [w8_arg4 m ρ c, w8_arg6 m ρ c]

/-- The two second-layer biases joined, as a row. -/
theorem w9_v62 : (W9 m ρ c (Proc.devRef .tc main_v62) : FVec Ideal S1x128 .f32)
    = shapeCast S1x128 (Cert.Lib.ConcatPair.pair S128 0 S64 S64 (m ((c : Thread nD τ).loc main_arg5)) (m ((c : Thread nD τ).loc main_arg7))
        concatenates_S64_S64_S128_d0) shapeCasts_S128_S1x128 := by
  show StableHlo.after hostOps3 (W8 m ρ c) (Proc.devRef .tc main_v62) = _
  simp only [hostOps3]
  read_line
  rw [w8_arg5 m ρ c, w8_arg7 m ρ c]
  rfl

/-- Region 3's result, entry by entry. -/
theorem out_entry (n : Fin 100000) (j : Fin 128) :
    (W10 m ρ c (Proc.devRef .tc main_v63) : FVec Ideal S100000x128 .f32) (ix2 n j)
      = prodAt (gZ m ρ c) (Cert.Lib.ConcatPair.pair S128x128 1 S128x64 S128x64 (m ((c : Thread nD τ).loc main_arg4))
          (m ((c : Thread nD τ).loc main_arg6)) concatenates_S128x64_S128x64_S128x128_d1) n j
        + (Cert.Lib.ConcatPair.pair S128 0 S64 S64 (m ((c : Thread nD τ).loc main_arg5)) (m ((c : Thread nD τ).loc main_arg7))
          concatenates_S64_S64_S128_d0) (ix1 j) := by
  have harr := (W10_arr m ρ c 3).trans (dense3_array (V9 m ρ) c)
  refine (congrFun harr (ix2 n j)).trans ?_
  rw [ofAt_apply]
  show prodAt (W9 m ρ c (Proc.devRef .tc main_v59)) (W9 m ρ c (Proc.devRef .tc main_v60)) n j
      + (W9 m ρ c (Proc.devRef .tc main_v62) : FVec Ideal S1x128 .f32) (ix2 (0 : Fin 1) j) = _
  rw [w9_v59, w9_v60, w9_v62, Cert.KernelIdeal.HostLayout.row_of_vec128]

/-- The first result: a hop of the first layer taken before the dense map with the first second-layer weights. -/
theorem mu_entry (n : Fin 100000) (q : Fin 64) :
    (W11 m ρ c (Proc.devRef .tc main_v64) : FVec Ideal S100000x64 .f32) (ix2 n q)
      = mixThenDenseAt hN (gH1 m ρ c) (wrapCol (gSrc m ρ c)) (col (gDst m ρ c))
          (fun e => gNrm m ρ c (ix2 e (0 : Fin 1))) (fun n => gD2 m ρ c (ix2 n (0 : Fin 1)))
          (m ((c : Thread nD τ).loc main_arg4)) (fun q => m ((c : Thread nD τ).loc main_arg5) (ix1 q)) n q := by
  have hres : (W11 m ρ c (Proc.devRef .tc main_v64) : FVec Ideal S100000x64 .f32)
      = extractStridedSlice S100000x64 ![0, 0] (W10 m ρ c (Proc.devRef .tc main_v63)) slices_S100000x128_S100000x64_0_0 := by
    show StableHlo.after hostOps4 (W10 m ρ c) (Proc.devRef .tc main_v64) = _
    simp only [hostOps4]
    read_line
  rw [hres]
  refine (Cert.KernelIdeal.HostLayout.result_lo _ n q).trans ?_
  rw [out_entry, Cert.KernelIdeal.HostLayout.biases_left]
  unfold mixThenDenseAt prodAt
  refine congrArg₂ (fun a b : EReal => a + b) ?_ rfl
  refine Finset.sum_congr rfl fun k _ => ?_
  rw [Cert.KernelIdeal.HostLayout.weights_left, z_entry, ofAt_apply]

/-- The second result: the same hop before the dense map with the other second-layer weights. -/
theorem logstd_entry (n : Fin 100000) (q : Fin 64) :
    (W11 m ρ c (Proc.devRef .tc main_v65) : FVec Ideal S100000x64 .f32) (ix2 n q)
      = mixThenDenseAt hN (gH1 m ρ c) (wrapCol (gSrc m ρ c)) (col (gDst m ρ c))
          (fun e => gNrm m ρ c (ix2 e (0 : Fin 1))) (fun n => gD2 m ρ c (ix2 n (0 : Fin 1)))
          (m ((c : Thread nD τ).loc main_arg6)) (fun q => m ((c : Thread nD τ).loc main_arg7) (ix1 q)) n q := by
  have hres : (W11 m ρ c (Proc.devRef .tc main_v65) : FVec Ideal S100000x64 .f32)
      = extractStridedSlice S100000x64 ![0, 64] (W10 m ρ c (Proc.devRef .tc main_v63)) slices_S100000x128_S100000x64_0_64 := by
    show StableHlo.after hostOps4 (W10 m ρ c) (Proc.devRef .tc main_v65) = _
    simp only [hostOps4]
    read_line
  rw [hres]
  refine (Cert.KernelIdeal.HostLayout.result_hi _ n q).trans ?_
  rw [out_entry, Cert.KernelIdeal.HostLayout.biases_right]
  unfold mixThenDenseAt prodAt
  refine congrArg₂ (fun a b : EReal => a + b) ?_ rfl
  refine Finset.sum_congr rfl fun k _ => ?_
  rw [Cert.KernelIdeal.HostLayout.weights_right, z_entry, ofAt_apply]

end Cert.KernelIdeal.HostRead

end
-- ==== Proof.LibGather1.lean ====
/-
  Columns, row broadcasts and the rank-1 gather, read at an element.

  (1) A vector [E] laid out as a column [E, 1] reads the vector's element e at (e, 0).
  (2) A vector [N] laid out as a column [N, 1] and then repeated along a second axis of length C
      reads the vector's element n at (n, o), for every o.
  (3) A rank-1 gather — operand [N], one signed position per result element (start indices [E, 1]),
      result [E] — read at e is the operand at the position idx[e, 0], read signed and clamped
      into [0, N - 1].
  All sizes and the index width are arbitrary.
-/
import Idealize.ShloMosaic.PureOps.Ideal
import Idealize.ShloMosaic.Lib.ValueIdx
import Idealize.ShloMosaic.Lib.Pipeline.Value

noncomputable section

open Idealize.ShloMosaic Idealize.ShloMosaic.ValueIdx

namespace Cert.Aggregate

section Broadcasts
variable {α : Type}

/-- A vector as a column: element (e, 0) of the column is element e of the vector. -/
theorem bcast_col_apply {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) :=
  broadcastInDim_apply (s := ⟨1, ![E]⟩) (t := ⟨2, ![E, 1]⟩) ![0] h v (ix2 e (0 : Fin 1)) (ix1 e) (fun b => by
    obtain rfl : b = 0 := Subsingleton.elim _ _
    show e.val = if E = 1 then 0 else e.val
    have := e.isLt
    split_ifs with h1
    · omega
    · rfl)

/-- A column repeated along a second axis: element (n, o) of the result is element (n, 0) of the
    column. -/
theorem bcast_rows_apply {N C : Nat} (h : (⟨2, ![N, 1]⟩ : Shape).BroadcastsInDim ⟨2, ![N, C]⟩ ![0, 1])
    (v : (⟨2, ![N, 1]⟩ : Shape).Idx → α) (n : Fin N) (o : Fin C) :
    broadcastInDim ⟨2, ![N, C]⟩ ![0, 1] h v (ix2 n o) = v (ix2 n (0 : Fin 1)) :=
  broadcastInDim_apply (s := ⟨2, ![N, 1]⟩) (t := ⟨2, ![N, C]⟩) ![0, 1] h v (ix2 n o) (ix2 n (0 : Fin 1)) (fun b => by
    match b with
    | ⟨0, _⟩ =>
      show n.val = if N = 1 then 0 else n.val
      have := n.isLt
      split_ifs with h1
      · omega
      · rfl
    | ⟨1, _⟩ =>
      show (0 : Nat) = if (1 : Nat) = 1 then 0 else o.val
      rw [if_pos rfl])

/-- A vector repeated along a second axis through a column: element (n, o) is element n. -/
theorem bcast_vec_rows_apply {N C : Nat} (h1 : (⟨1, ![N]⟩ : Shape).BroadcastsInDim ⟨2, ![N, 1]⟩ ![0])
    (h2 : (⟨2, ![N, 1]⟩ : Shape).BroadcastsInDim ⟨2, ![N, C]⟩ ![0, 1])
    (v : (⟨1, ![N]⟩ : Shape).Idx → α) (n : Fin N) (o : Fin C) :
    broadcastInDim ⟨2, ![N, C]⟩ ![0, 1] h2 (broadcastInDim ⟨2, ![N, 1]⟩ ![0] h1 v) (ix2 n o) = v (ix1 n) := by
  rw [bcast_rows_apply, bcast_col_apply]

end Broadcasts

/-! ## Rank-1 gather: operand [N], positions [E, 1], result [E] -/

section Gather1
variable {α : Type}

/-- The dimension numbers of a gather of scalars from a rank-1 operand: the result has no offset
    axis; the operand's axis 0 is collapsed (slice size 1) and is the one the position addresses;
    the position is the length-1 vector on the start indices' axis 1. -/
abbrev gather1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE RANK-1 GATHER READ AT e: the operand at the position idx[e, 0], read signed and clamped
    into [0, N - 1]. -/
theorem gather1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gather1Dims N E wf) x idx (ix1 e) =
      x (ix1 (⟨min (idx (ix2 e (0 : Fin 1))).toInt.toNat (N - 1), by omega⟩ : Fin N)) := by
  unfold Host.gather
  congr 1
  funext a
  obtain rfl : a = 0 := Subsingleton.elim _ _
  refine Fin.ext ?_
  -- the one operand axis: the clamped position; no batching coordinate; collapsed, so no offset
  show (gather1Dims N E wf).start (ix1 e) idx 0 + (gather1Dims N E wf).batchCoord (ix1 e) 0 +
    (gather1Dims N E wf).offCoord (ix1 e) 0 = min (idx (ix2 e (0 : Fin 1))).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather1Dims N E wf).startIndexMap from List.mem_singleton.mpr rfl)]
  have hsi : (gather1Dims N E wf).siIdx (ix1 e) ⟨List.idxOf (0 : Fin 1) (gather1Dims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The same reading for ANY record of dimension numbers whose seven fields are those of a rank-1
    gather of scalars (each hypothesis is closed by reflexivity on a record written out field by
    field). -/
theorem gather1_apply_of_dims {N E w : Nat} (hN : 0 < N)
    (D : GatherDims ⟨1, ![N]⟩ ⟨2, ![E, 1]⟩ ⟨1, ![E]⟩)
    (h1 : D.offsetDims = []) (h2 : D.collapsedSliceDims = [0]) (h3 : D.operandBatchingDims = [])
    (h4 : D.startIndicesBatchingDims = []) (h5 : D.startIndexMap = [0]) (h6 : D.indexVectorDim = 1)
    (h7 : D.sliceSizes = ![1])
    (x : (⟨1, ![N]⟩ : Shape).Idx → α) (idx : IVec ⟨2, ![E, 1]⟩ w) (e : Fin E) :
    Host.gather D x idx (ix1 e) =
      x (ix1 (⟨min (idx (ix2 e (0 : Fin 1))).toInt.toNat (N - 1), by omega⟩ : Fin N)) := by
  obtain ⟨od, cd, ob, sb, sm, iv, ss, wf'⟩ := D
  simp only at h1 h2 h3 h4 h5 h6 h7
  subst h1 h2 h3 h4 h5 h6 h7
  exact gather1_apply hN wf' x idx e

end Gather1

end Cert.Aggregate

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«159517_j46093589021377_2_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.RefRead.lean ====
/-
  The reference's three graph convolutions, read entry by entry.

  Each convolution of the reference is: a dense map Y = H·W; the rows of Y that the edges read, each
  scaled by its edge weight, added (from an all-zero array) into the rows the destination words name;
  plus Y's own row n times the self-loop weight of node n; plus the bias row. The first convolution is
  followed by the positive part (the maximum against zero).

  This module shows that entry (n, k) of each of the three results is the specification's
  closed form: `layer1At` for the hidden layer h, and `denseThenConvAt` (hop AFTER the dense map) of h
  for the two heads. The edge words, edge weights and self-loop weights stay the reference's own
  intermediate arrays (they are functions of the edge list alone); only the arithmetic on the feature
  matrices is read here.

  Steps, all over arbitrary sizes first:
    * `scatter_gather_entry`: gather rows, scale by a column of weights, scatter-add from zero = `aggAt`;
    * `bias_rows_apply`: a vector laid out as a row and repeated along the first axis reads its element k at (n, k);
    * `hop_entry`: the whole hop with bias = `convAt`;
    * `dense_eq`: the host's plain matrix product is `ofAt (prodAt · ·)`;
  then the three instances at the reference's records.
-/
import proofs.«159517_j46093589021377_2_alg».proof.Proof.RefReadGen
import proofs.«159517_j46093589021377_2_alg».proof.Proof.Spec
import proofs.«159517_j46093589021377_2_alg».proof.Proof.LibSegments
import proofs.«159517_j46093589021377_2_alg».proof.Proof.LibScatterRows
import proofs.«159517_j46093589021377_2_alg».proof.Proof.LibGather1
import proofs.«159517_j46093589021377_2_alg».proof.Proof.LibDotColsHost

noncomputable section

open scoped BigOperators
open Idealize.ShloMosaic Idealize.ShloMosaic.ValueIdx Cert.Gcn

namespace Cert.ReferenceIdeal.RefRead

/-- The in-edges' weighted sum as the program computes it: gather the rows the edges read, scale row e
    by the edge weight w e (laid out as a column and repeated along the row), and scatter-add the
    scaled rows from an all-zero array into the rows the destination words name. At entry (n, k) this is
    the specification's `aggAt`. Sizes and the index width are arbitrary; the two records of
    dimension numbers are any that spell a row gather and a row scatter. -/
theorem scatter_gather_entry {N E C : ℕ} (hN : 0 < N)
    (DG : GatherDims ⟨2, ![N, C]⟩ ⟨2, ![E, 1]⟩ ⟨2, ![E, C]⟩)
    (g1 : DG.offsetDims = [1]) (g2 : DG.collapsedSliceDims = [0]) (g3 : DG.operandBatchingDims = [])
    (g4 : DG.startIndicesBatchingDims = []) (g5 : DG.startIndexMap = [0]) (g6 : DG.indexVectorDim = 1)
    (g7 : DG.sliceSizes = ![1, C])
    (DS : ScatterDims ⟨2, ![N, C]⟩ ⟨2, ![E, 1]⟩ ⟨2, ![E, C]⟩)
    (s1 : DS.updateWindowDims = [1]) (s2 : DS.insertedWindowDims = [0]) (s3 : DS.scatterDimsToOperandDims = [0])
    (s4 : DS.indexVectorDim = 1)
    (hb1 : (⟨1, ![E]⟩ : Shape).BroadcastsInDim ⟨2, ![E, 1]⟩ ![0])
    (hb2 : (⟨2, ![E, 1]⟩ : Shape).BroadcastsInDim ⟨2, ![E, C]⟩ ![0, 1])
    (Z : Mat N C) (hZ : ∀ i, Z i = 0)
    (H : Mat N C) (srcw dstc : Words E) (w : (⟨1, ![E]⟩ : Shape).Idx → EReal) (n : Fin N) (k : Fin C) :
    Host.scatterAdd (F := Ideal) (φ := .f32) DS Z dstc
        (mulf (F := Ideal) (φ := .f32) (Host.gather DG H srcw)
          (broadcastInDim ⟨2, ![E, C]⟩ ![0, 1] hb2 (broadcastInDim ⟨2, ![E, 1]⟩ ![0] hb1 w)))
        (ix2 n k)
      = aggAt hN H srcw dstc (fun e => w (ix1 e)) n k := by
  rw [ScatterRows.scatterAdd_rows2_apply_of_dims DS s1 s2 s3 s4, hZ]
  unfold aggAt
  congr 1
  refine Finset.sum_congr rfl fun e _ => ?_
  by_cases h : (dstc (ix2 e (0 : Fin 1))).toInt = (n.val : ℤ)
  · rw [if_pos h, if_pos h]
    show Host.gather DG H srcw (ix2 e k) *
      broadcastInDim ⟨2, ![E, C]⟩ ![0, 1] hb2 (broadcastInDim ⟨2, ![E, 1]⟩ ![0] hb1 w) (ix2 e k) = _
    rw [Segments.gather_rows_apply_of_dims hN DG g1 g2 g3 g4 g5 g6 g7, Cert.Aggregate.bcast_vec_rows_apply]
    rfl
  · rw [if_neg h, if_neg h]

/-- A vector laid out as a row [1, C] and then repeated along a first axis of length N reads the
    vector's element k at (n, k), for every n. -/
theorem bias_rows_apply {α : Type} {N C : ℕ}
    (h1 : (⟨1, ![C]⟩ : Shape).BroadcastsInDim ⟨2, ![1, C]⟩ ![1])
    (h2 : (⟨2, ![1, C]⟩ : Shape).BroadcastsInDim ⟨2, ![N, C]⟩ ![0, 1])
    (v : (⟨1, ![C]⟩ : Shape).Idx → α) (n : Fin N) (k : Fin C) :
    broadcastInDim ⟨2, ![N, C]⟩ ![0, 1] h2 (broadcastInDim ⟨2, ![1, C]⟩ ![1] h1 v) (ix2 n k) = v (ix1 k) := by
  rw [broadcastInDim_apply (s := ⟨2, ![1, C]⟩) (t := ⟨2, ![N, C]⟩) ![0, 1] h2 _ (ix2 n k) (ix2 (0 : Fin 1) k) (fun b => by
      match b with
      | ⟨0, _⟩ =>
        show (0 : ℕ) = if (1 : ℕ) = 1 then 0 else n.val
        rw [if_pos rfl]
      | ⟨1, _⟩ =>
        show k.val = if C = 1 then 0 else k.val
        have := k.isLt
        split_ifs with hC
        · omega
        · rfl),
    broadcastInDim_apply (s := ⟨1, ![C]⟩) (t := ⟨2, ![1, C]⟩) ![1] h1 v (ix2 (0 : Fin 1) k) (ix1 k) (fun b => by
      obtain rfl : b = 0 := Subsingleton.elim _ _
      show k.val = if C = 1 then 0 else k.val
      have := k.isLt
      split_ifs with hC
      · omega
      · rfl)]

/-- ONE HOP WITH BIAS, as the program computes it, at entry (n, k): the in-edges' weighted sum
    (gather, scale, scatter-add from zero), plus the node's own row times its self-loop weight d n
    (a vector laid out as a column and repeated along the row), plus the bias (a vector laid out as a
    row and repeated along the first axis), is the specification's `convAt`. -/
theorem hop_entry {N E C : ℕ} (hN : 0 < N)
    (DG : GatherDims ⟨2, ![N, C]⟩ ⟨2, ![E, 1]⟩ ⟨2, ![E, C]⟩)
    (g1 : DG.offsetDims = [1]) (g2 : DG.collapsedSliceDims = [0]) (g3 : DG.operandBatchingDims = [])
    (g4 : DG.startIndicesBatchingDims = []) (g5 : DG.startIndexMap = [0]) (g6 : DG.indexVectorDim = 1)
    (g7 : DG.sliceSizes = ![1, C])
    (DS : ScatterDims ⟨2, ![N, C]⟩ ⟨2, ![E, 1]⟩ ⟨2, ![E, C]⟩)
    (s1 : DS.updateWindowDims = [1]) (s2 : DS.insertedWindowDims = [0]) (s3 : DS.scatterDimsToOperandDims = [0])
    (s4 : DS.indexVectorDim = 1)
    (hb1 : (⟨1, ![E]⟩ : Shape).BroadcastsInDim ⟨2, ![E, 1]⟩ ![0])
    (hb2 : (⟨2, ![E, 1]⟩ : Shape).BroadcastsInDim ⟨2, ![E, C]⟩ ![0, 1])
    (hc1 : (⟨1, ![N]⟩ : Shape).BroadcastsInDim ⟨2, ![N, 1]⟩ ![0])
    (hc2 : (⟨2, ![N, 1]⟩ : Shape).BroadcastsInDim ⟨2, ![N, C]⟩ ![0, 1])
    (hr1 : (⟨1, ![C]⟩ : Shape).BroadcastsInDim ⟨2, ![1, C]⟩ ![1])
    (hr2 : (⟨2, ![1, C]⟩ : Shape).BroadcastsInDim ⟨2, ![N, C]⟩ ![0, 1])
    (Z : Mat N C) (hZ : ∀ i, Z i = 0)
    (H : Mat N C) (srcw dstc : Words E) (w : (⟨1, ![E]⟩ : Shape).Idx → EReal)
    (d : (⟨1, ![N]⟩ : Shape).Idx → EReal) (b : (⟨1, ![C]⟩ : Shape).Idx → EReal) (n : Fin N) (k : Fin C) :
    addf (F := Ideal) (φ := .f32)
        (addf (F := Ideal) (φ := .f32)
          (Host.scatterAdd (F := Ideal) (φ := .f32) DS Z dstc
            (mulf (F := Ideal) (φ := .f32) (Host.gather DG H srcw)
              (broadcastInDim ⟨2, ![E, C]⟩ ![0, 1] hb2 (broadcastInDim ⟨2, ![E, 1]⟩ ![0] hb1 w))))
          (mulf (F := Ideal) (φ := .f32) H
            (broadcastInDim ⟨2, ![N, C]⟩ ![0, 1] hc2 (broadcastInDim ⟨2, ![N, 1]⟩ ![0] hc1 d))))
        (broadcastInDim ⟨2, ![N, C]⟩ ![0, 1] hr2 (broadcastInDim ⟨2, ![1, C]⟩ ![1] hr1 b))
        (ix2 n k)
      = convAt hN H srcw dstc (fun e => w (ix1 e)) (fun n => d (ix1 n)) (fun k => b (ix1 k)) n k := by
  unfold convAt mixAt
  refine congrArg₂ (· + ·) (congrArg₂ (· + ·) ?_ (congrArg₂ (· * ·) rfl ?_)) ?_
  · exact scatter_gather_entry hN DG g1 g2 g3 g4 g5 g6 g7 DS s1 s2 s3 s4 hb1 hb2 Z hZ H srcw dstc w n k
  · exact Cert.Aggregate.bcast_vec_rows_apply hc1 hc2 d n k
  · exact bias_rows_apply hr1 hr2 b n k

/-- The host's plain matrix product, as an array, is the array of the entries `prodAt`. -/
theorem dense_eq {M K Q : ℕ} (D : DotDims ⟨2, ![M, K]⟩ ⟨2, ![K, Q]⟩ ⟨2, ![M, Q]⟩) (hD : D = DotDims.plain M K Q)
    (x : Mat M K) (y : Mat K Q) :
    Host.dotGeneral (F := Ideal) (φ₁ := .f32) (φ₂ := .f32) D none x y = ofAt (prodAt x y) := by
  funext i
  obtain ⟨p, q, rfl⟩ : ∃ (p : Fin M) (q : Fin Q), i = ix2 p q := ⟨i 0, i 1, eq_ix2 i⟩
  rw [ofAt_apply]
  exact Cert.Lib.DotColsHost.dotGeneral_cols_apply D hD none .single x y p q

open Cert.ReferenceIdeal Cert.ReferenceIdeal.Gen Cert.ReferenceIdeal.ReadP

/-! ## The all-zero arrays the sums start from, and the zero of the positive part -/

theorem zeros_layer1 (i : S100000x128.Idx) : val_main_v40 (F := Ideal) i = 0 := by
  rw [val_main_v40_apply, val_main_cst_9_apply]
  exact Ideal.ofBits_zero_f32

theorem zeros_mu (i : S100000x64.Idx) : val_main_v88 (F := Ideal) i = 0 := by
  rw [val_main_v88_apply, val_main_cst_21_apply]
  exact Ideal.ofBits_zero_f32

theorem zeros_logstd (i : S100000x64.Idx) : val_main_v135 (F := Ideal) i = 0 := by
  rw [val_main_v135_apply, val_main_cst_33_apply]
  exact Ideal.ofBits_zero_f32

theorem relu_zero (i : S100000x128.Idx) : val_main_call1_v0 (F := Ideal) i = 0 := by
  rw [val_main_call1_v0_apply, val_main_call1_cst_apply]
  exact Ideal.ofBits_zero_f32

/-! ## The hidden layer -/

/-- The first dense map X·W1, as an array of its entries. -/
theorem dense_layer1 (X : (⟨S100000x128, .f32⟩ : BufTy).Contents (Elt Ideal)) (W1 : (⟨S128x128, .f32⟩ : BufTy).Contents (Elt Ideal)) :
    val_main_v4 (F := Ideal) X W1 = ofAt (prodAt X W1) := by
  unfold val_main_v4
  exact dense_eq _ rfl _ _

/-- THE HIDDEN LAYER AT (n, k): the positive part of one hop with bias of X·W1, with the edge words,
    edge weights and self-loop weights the reference computes from the edge list. -/
theorem h1_entry (X : (⟨S100000x128, .f32⟩ : BufTy).Contents (Elt Ideal)) (EI : (⟨S2x1600000, .i32⟩ : BufTy).Contents (Elt Ideal)) (W1 : (⟨S128x128, .f32⟩ : BufTy).Contents (Elt Ideal)) (B1 : (⟨S128, .f32⟩ : BufTy).Contents (Elt Ideal))
    (n : Fin 100000) (k : Fin 128) (hN : (0 : ℕ) < 100000 := by decide) :
    val_main_v51 (F := Ideal) X EI W1 B1 (ix2 n k) =
      layer1At hN X W1 (val_main_v35 (F := Ideal) EI) (val_main_v41 (F := Ideal) EI)
        (fun e => val_main_v29 (F := Ideal) EI (ix1 e)) (fun n => val_main_v43 (F := Ideal) EI (ix1 n))
        (fun k => B1 (ix1 k)) n k := by
  have hc : val_main_v50 (F := Ideal) X EI W1 B1 (ix2 n k) =
      convAt hN (val_main_v4 (F := Ideal) X W1) (val_main_v35 (F := Ideal) EI) (val_main_v41 (F := Ideal) EI)
        (fun e => val_main_v29 (F := Ideal) EI (ix1 e)) (fun n => val_main_v43 (F := Ideal) EI (ix1 n))
        (fun k => B1 (ix1 k)) n k := by
    unfold val_main_v50 val_main_v47 val_main_v42 val_main_v39 val_main_v38 val_main_v37 val_main_v36 val_main_v46 val_main_v45 val_main_v44 val_main_v49 val_main_v48
    exact hop_entry (N := 100000) (E := 1600000) (C := 128) hN
      gather_S100000x128_S1600000x1_S1600000x128_1_0_n_n_0_1_1128 rfl rfl rfl rfl rfl rfl rfl
      scatter_S100000x128_S1600000x1_S1600000x128_1_0_0_1 rfl rfl rfl rfl
      _ _ _ _ _ _ _ zeros_layer1 _ _ _ _ _ _ n k
  rw [val_main_v51_apply, relu_zero, hc, dense_layer1]
  rfl

/-! ## The two heads: a hop with bias taken after a dense map of the hidden layer -/

/-- The first head's dense map h·W, as an array of its entries. -/
theorem dense_mu (X : (⟨S100000x128, .f32⟩ : BufTy).Contents (Elt Ideal)) (EI : (⟨S2x1600000, .i32⟩ : BufTy).Contents (Elt Ideal)) (W1 : (⟨S128x128, .f32⟩ : BufTy).Contents (Elt Ideal)) (B1 : (⟨S128, .f32⟩ : BufTy).Contents (Elt Ideal))
    (Wm : (⟨S128x64, .f32⟩ : BufTy).Contents (Elt Ideal)) :
    val_main_v52 (F := Ideal) X EI W1 B1 Wm = ofAt (prodAt (val_main_v51 (F := Ideal) X EI W1 B1) Wm) := by
  unfold val_main_v52
  exact dense_eq _ rfl _ _

/-- THE FIRST HEAD AT (n, q): one hop with bias of h·W, h the hidden layer. -/
theorem mu_entry (X : (⟨S100000x128, .f32⟩ : BufTy).Contents (Elt Ideal)) (EI : (⟨S2x1600000, .i32⟩ : BufTy).Contents (Elt Ideal)) (W1 : (⟨S128x128, .f32⟩ : BufTy).Contents (Elt Ideal)) (B1 : (⟨S128, .f32⟩ : BufTy).Contents (Elt Ideal))
    (Wm : (⟨S128x64, .f32⟩ : BufTy).Contents (Elt Ideal)) (Bm : (⟨S64, .f32⟩ : BufTy).Contents (Elt Ideal)) (n : Fin 100000) (q : Fin 64) (hN : (0 : ℕ) < 100000 := by decide) :
    val_main_v98 (F := Ideal) X EI W1 B1 Wm Bm (ix2 n q) =
      denseThenConvAt hN (val_main_v51 (F := Ideal) X EI W1 B1)
        (val_main_v83 (F := Ideal) EI) (val_main_v89 (F := Ideal) EI)
        (fun e => val_main_v77 (F := Ideal) EI (ix1 e)) (fun n => val_main_v91 (F := Ideal) EI (ix1 n))
        Wm (fun q => Bm (ix1 q)) n q := by
  unfold denseThenConvAt
  rw [← dense_mu X EI W1 B1 Wm]
  unfold val_main_v98 val_main_v95 val_main_v90 val_main_v87 val_main_v86 val_main_v85 val_main_v84 val_main_v94 val_main_v93 val_main_v92 val_main_v97 val_main_v96
  exact hop_entry (N := 100000) (E := 1600000) (C := 64) hN
    gather_S100000x64_S1600000x1_S1600000x64_1_0_n_n_0_1_164 rfl rfl rfl rfl rfl rfl rfl
    scatter_S100000x64_S1600000x1_S1600000x64_1_0_0_1 rfl rfl rfl rfl
    _ _ _ _ _ _ _ zeros_mu _ _ _ _ _ _ n q

/-- The second head's dense map h·W, as an array of its entries. -/
theorem dense_logstd (X : (⟨S100000x128, .f32⟩ : BufTy).Contents (Elt Ideal)) (EI : (⟨S2x1600000, .i32⟩ : BufTy).Contents (Elt Ideal)) (W1 : (⟨S128x128, .f32⟩ : BufTy).Contents (Elt Ideal)) (B1 : (⟨S128, .f32⟩ : BufTy).Contents (Elt Ideal))
    (Wl : (⟨S128x64, .f32⟩ : BufTy).Contents (Elt Ideal)) :
    val_main_v99 (F := Ideal) X EI W1 B1 Wl = ofAt (prodAt (val_main_v51 (F := Ideal) X EI W1 B1) Wl) := by
  unfold val_main_v99
  exact dense_eq _ rfl _ _

/-- THE SECOND HEAD AT (n, q): the same with its own weights, bias and recomputed edge data. -/
theorem logstd_entry (X : (⟨S100000x128, .f32⟩ : BufTy).Contents (Elt Ideal)) (EI : (⟨S2x1600000, .i32⟩ : BufTy).Contents (Elt Ideal)) (W1 : (⟨S128x128, .f32⟩ : BufTy).Contents (Elt Ideal)) (B1 : (⟨S128, .f32⟩ : BufTy).Contents (Elt Ideal))
    (Wl : (⟨S128x64, .f32⟩ : BufTy).Contents (Elt Ideal)) (Bl : (⟨S64, .f32⟩ : BufTy).Contents (Elt Ideal)) (n : Fin 100000) (q : Fin 64) (hN : (0 : ℕ) < 100000 := by decide) :
    val_main_v145 (F := Ideal) X EI W1 B1 Wl Bl (ix2 n q) =
      denseThenConvAt hN (val_main_v51 (F := Ideal) X EI W1 B1)
        (val_main_v130 (F := Ideal) EI) (val_main_v136 (F := Ideal) EI)
        (fun e => val_main_v124 (F := Ideal) EI (ix1 e)) (fun n => val_main_v138 (F := Ideal) EI (ix1 n))
        Wl (fun q => Bl (ix1 q)) n q := by
  unfold denseThenConvAt
  rw [← dense_logstd X EI W1 B1 Wl]
  unfold val_main_v145 val_main_v142 val_main_v137 val_main_v134 val_main_v133 val_main_v132 val_main_v131 val_main_v141 val_main_v140 val_main_v139 val_main_v144 val_main_v143
  exact hop_entry (N := 100000) (E := 1600000) (C := 64) hN
    gather_S100000x64_S1600000x1_S1600000x64_1_0_n_n_0_1_164 rfl rfl rfl rfl rfl rfl rfl
    scatter_S100000x64_S1600000x1_S1600000x64_1_0_0_1 rfl rfl rfl rfl
    _ _ _ _ _ _ _ zeros_logstd _ _ _ _ _ _ n q

end Cert.ReferenceIdeal.RefRead

end
-- ==== Proof.GraphBridge.lean ====
/-
  The graph data of the kernel program and of the reference are the same functions of the edge list.

  Both programs start from the same [2, 1600000] array of 32-bit words (row 0 the source words, row 1 the destination words) and
  apply the same operations to it: the two rows as vectors; the in-degree of every node, plus one, by a scatter-add of ones; its
  inverse square root where positive; the edge weight as the product of the inverse square roots at the two (wrapped) end words;
  the self-loop weight as the square of the inverse square root. The kernel program computes them once, before its first grid
  region, and keeps the edge weights and self-loop weights as one-column matrices; the reference recomputes them for each of its
  three hops. Here each of the kernel program's graph data, read back from its buffer to a term over the edge list, is identified
  with the reference's first computation of it, and the reference's later recomputations with its first.
-/
import proofs.«159517_j46093589021377_2_alg».proof.Proof.KernelGraph
import proofs.«159517_j46093589021377_2_alg».proof.Proof.LibReadLine
import proofs.«159517_j46093589021377_2_alg».proof.Proof.LibSlots
import proofs.«159517_j46093589021377_2_alg».proof.Proof.RefReadGen

set_option maxRecDepth 16384

noncomputable section

namespace Cert.GraphBridge

open Idealize.ShloMosaic Idealize.ShloMosaic.TcCoe Idealize.SL.Sem Idealize.ShloMosaic.StableHlo Idealize.ShloMosaic.ValueIdx
open Cert.KernelIdeal Cert.KernelIdeal.Gen
open Cert.KernelIdeal.HostRead Cert.ReferenceIdeal.ReadP
open Cert.Lib.ReadLine

variable (m : (ℓ : Loc nD τ sig) → Buf (Elt Ideal) ℓ) (ρ : Dev nD → PrngReg) (c : Dev nD)

/-! ## A value carried to the buffer of the outlined selection and back is unchanged -/

theorem toBuf_dinv (h1 h2 h3) (v : (⟨S100000, .f32⟩ : BufTy).Contents (Elt Ideal)) :
    (TRef.of (sig := sig) (T := ⟨S100000, .f32⟩) main_v13 h1 h2 h3).toBuf v = v := cast_eq _ v
theorem ofBuf_positive (h1 h2 h3) (v : (⟨S100000, .i1⟩ : BufTy).Contents (Elt Ideal)) :
    (TRef.of (sig := sig) (T := ⟨S100000, .i1⟩) main_v11 h1 h2 h3).ofBuf v = v := cast_eq _ v
theorem ofBuf_rsqrt (h1 h2 h3) (v : (⟨S100000, .f32⟩ : BufTy).Contents (Elt Ideal)) :
    (TRef.of (sig := sig) (T := ⟨S100000, .f32⟩) main_v12 h1 h2 h3).ofBuf v = v := cast_eq _ v
theorem ofBuf_zero (h1 h2 h3) (v : (⟨S_, .f32⟩ : BufTy).Contents (Elt Ideal)) :
    (TRef.of (sig := sig) (T := ⟨S_, .f32⟩) main_cst_3 h1 h2 h3).ofBuf v = v := cast_eq _ v

/-! ## The kernel program's graph data as terms over the edge list -/

/-- The source words are row 0 of the edge list. -/
theorem gSrc_eq : gSrc m ρ c = val_main_v1 (F := Ideal) (m ((c : Thread nD τ).loc main_arg1)) := by
  unfold gSrc
  show StableHlo.after hostOps0_2 (StableHlo.after hostOps0_1 (StableHlo.after hostOps0 (W0 m ρ c))) (Proc.devRef .tc main_v1) = _
  simp only [hostOps0_2, hostOps0_1, hostOps0]
  read_line
  rfl

/-- The destination words are row 1 of the edge list. -/
theorem gDst_eq : gDst m ρ c = val_main_v3 (F := Ideal) (m ((c : Thread nD τ).loc main_arg1)) := by
  unfold gDst
  show StableHlo.after hostOps0_2 (StableHlo.after hostOps0_1 (StableHlo.after hostOps0 (W0 m ρ c))) (Proc.devRef .tc main_v3) = _
  simp only [hostOps0_2, hostOps0_1, hostOps0]
  read_line
  rfl

/-- The self-loop weights are the reference's, as a column. -/
theorem gD2_eq : gD2 m ρ c = shapeCast S100000x1 (val_main_v43 (F := Ideal) (m ((c : Thread nD τ).loc main_arg1))) shapeCasts_S100000_S100000x1 := by
  unfold gD2
  show StableHlo.after hostOps0_2 (StableHlo.after hostOps0_1 (StableHlo.after hostOps0 (W0 m ρ c))) (Proc.devRef .tc main_v31) = _
  simp only [hostOps0_2, hostOps0_1, hostOps0]
  read_line
  simp only [toBuf_dinv, ofBuf_positive, ofBuf_rsqrt, ofBuf_zero]
  rfl

/-- The edge weights are the reference's, as a column. -/
theorem gNrm_eq : gNrm m ρ c = shapeCast S1600000x1 (val_main_v29 (F := Ideal) (m ((c : Thread nD τ).loc main_arg1))) shapeCasts_S1600000_S1600000x1 := by
  unfold gNrm
  show StableHlo.after hostOps0_2 (StableHlo.after hostOps0_1 (StableHlo.after hostOps0 (W0 m ρ c))) (Proc.devRef .tc main_v29) = _
  simp only [hostOps0_2, hostOps0_1, hostOps0]
  read_line
  simp only [toBuf_dinv, ofBuf_positive, ofBuf_rsqrt, ofBuf_zero]
  rfl

/-! ## The four identifications -/

/-- The wrapped source words, as a column, are the reference's row numbers of its first row gather. -/
theorem src_col : wrapCol (gSrc m ρ c) = val_main_v35 (F := Ideal) (m ((c : Thread nD τ).loc main_arg1)) := by
  rw [gSrc_eq]
  rfl

/-- The destination words, as a column, are the reference's row numbers of its first row scatter. -/
theorem dst_col : col (gDst m ρ c) = val_main_v41 (F := Ideal) (m ((c : Thread nD τ).loc main_arg1)) := by
  rw [gDst_eq]
  rfl

/-- The weight of edge e. -/
theorem nrm_entry (e : Fin 1600000) :
    gNrm m ρ c (ix2 e (0 : Fin 1)) = val_main_v29 (F := Ideal) (m ((c : Thread nD τ).loc main_arg1)) (ix1 e) := by
  rw [gNrm_eq]
  exact Cert.Lib.Slots.slots2_apply (n := 1600000) (m := 1) (E := 1600000) _ _ e (0 : Fin 1) e (by show e.val = 1 * e.val + 0; omega)

/-- The self-loop weight of node n. -/
theorem d2_entry (n : Fin 100000) :
    gD2 m ρ c (ix2 n (0 : Fin 1)) = val_main_v43 (F := Ideal) (m ((c : Thread nD τ).loc main_arg1)) (ix1 n) := by
  rw [gD2_eq]
  exact Cert.Lib.Slots.slots2_apply (n := 100000) (m := 1) (E := 100000) _ _ n (0 : Fin 1) n (by show n.val = 1 * n.val + 0; omega)

/-! ## Inside the reference: each hop recomputes the same graph data -/

theorem ref_v83 (x1 : (⟨Cert.ReferenceIdeal.S2x1600000, .i32⟩ : BufTy).Contents (Elt Ideal)) : val_main_v83 (F := Ideal) x1 = val_main_v35 (F := Ideal) x1 := rfl
theorem ref_v130 (x1 : (⟨Cert.ReferenceIdeal.S2x1600000, .i32⟩ : BufTy).Contents (Elt Ideal)) : val_main_v130 (F := Ideal) x1 = val_main_v35 (F := Ideal) x1 := rfl
theorem ref_v89 (x1 : (⟨Cert.ReferenceIdeal.S2x1600000, .i32⟩ : BufTy).Contents (Elt Ideal)) : val_main_v89 (F := Ideal) x1 = val_main_v41 (F := Ideal) x1 := rfl
theorem ref_v136 (x1 : (⟨Cert.ReferenceIdeal.S2x1600000, .i32⟩ : BufTy).Contents (Elt Ideal)) : val_main_v136 (F := Ideal) x1 = val_main_v41 (F := Ideal) x1 := rfl
theorem ref_v77 (x1 : (⟨Cert.ReferenceIdeal.S2x1600000, .i32⟩ : BufTy).Contents (Elt Ideal)) : val_main_v77 (F := Ideal) x1 = val_main_v29 (F := Ideal) x1 := rfl
theorem ref_v124 (x1 : (⟨Cert.ReferenceIdeal.S2x1600000, .i32⟩ : BufTy).Contents (Elt Ideal)) : val_main_v124 (F := Ideal) x1 = val_main_v29 (F := Ideal) x1 := rfl
theorem ref_v91 (x1 : (⟨Cert.ReferenceIdeal.S2x1600000, .i32⟩ : BufTy).Contents (Elt Ideal)) : val_main_v91 (F := Ideal) x1 = val_main_v43 (F := Ideal) x1 := rfl
theorem ref_v138 (x1 : (⟨Cert.ReferenceIdeal.S2x1600000, .i32⟩ : BufTy).Contents (Elt Ideal)) : val_main_v138 (F := Ideal) x1 = val_main_v43 (F := Ideal) x1 := rfl

end Cert.GraphBridge

end
-- ==== Proof.GraphReal.lean ====
/-
  The weights of the graph are real numbers.

  From the edge list the reference computes, for each node n, the degree
    deg n = (0 + Σ_e [dst e = n] 1) + 1,
  a count of ones plus one, hence a real number that is at least one; the node weight dinv n is
  chosen, by a one-bit word (the outcome of comparing deg n with zero), between 1/√(deg n) and 0:
  both are reals, so the choice is a real whatever the bit; the edge weight
    nrm e = dinv (row of e's source word) · dinv (row of e's destination word),
  a product of two node weights read at rows chosen by the edge; and the self-loop weight
    d2 n = dinv n · dinv n.
  Each of dinv, nrm and d2 is therefore a real number at every index.
-/
import proofs.«159517_j46093589021377_2_alg».proof.Proof.RefReadGen
import proofs.«159517_j46093589021377_2_alg».proof.Proof.Spec
import proofs.«159517_j46093589021377_2_alg».proof.Proof.Linear
import proofs.«159517_j46093589021377_2_alg».proof.Proof.LibSegments
import proofs.«159517_j46093589021377_2_alg».proof.Proof.LibGather1

noncomputable section

open scoped BigOperators
open Idealize.ShloMosaic Idealize.ShloMosaic.ValueIdx
open Cert.ReferenceIdeal Cert.ReferenceIdeal.Gen Cert.ReferenceIdeal.ReadP Cert.Gcn

namespace Cert.ReferenceIdeal.GraphReal

/-- The bit pattern 0x3F800000 of a 32-bit float denotes the number one. -/
theorem ofBits_one_f32 : Ideal.ofBits .f32 0x3F800000#32 = 1 := by
  simp [Ideal.ofBits, Ideal.ieee, -EReal.coe_mul]; norm_num

/-- The count of the edges into node n, started from zero, is a nonnegative real. -/
theorem count_in_real (EI : (⟨S2x1600000, .i32⟩ : BufTy).Contents (Elt Ideal)) (n : Fin 100000) :
    ∃ r : ℝ, 0 ≤ r ∧ val_main_v8 (F := Ideal) EI (ix1 n) = (r : EReal) := by
  have h6 : val_main_v6 (F := Ideal) (ix1 n) = 0 :=
    (val_main_v6_apply (F := Ideal) (ix1 n)).trans Ideal.ofBits_zero_f32
  have h5 : ∀ e : Fin 1600000, val_main_v5 (F := Ideal) (ix1 e) = 1 := fun e =>
    (val_main_v5_apply (F := Ideal) (ix1 e)).trans ofBits_one_f32
  have hs : val_main_v8 (F := Ideal) EI (ix1 n)
      = 0 + ∑ e : Fin 1600000,
          if (val_main_v7 (F := Ideal) EI (ix2 e (0 : Fin 1))).toInt = (n.val : ℤ) then (1 : EReal) else 0 := by
    unfold val_main_v8
    refine (Segments.scatterAdd_rows1_apply_of_dims scatter_S100000_S1600000x1_S1600000_n_0_0_1
      rfl rfl rfl rfl _ _ _ n).trans ?_
    rw [h6]
    exact congrArg _ (Finset.sum_congr rfl fun e _ => by rw [h5 e])
  rw [hs]
  exact count_real _

/-- The node weight is a real number. -/
theorem dinv_real (EI : (⟨S2x1600000, .i32⟩ : BufTy).Contents (Elt Ideal)) (n : Fin 100000) :
    ∃ r : ℝ, val_main_v14 (F := Ideal) EI (ix1 n) = (r : EReal) := by
  rw [val_main_v14_apply]
  unfold Scalar.select
  refine real_ite ?_ ?_
  · obtain ⟨r, hr, h8⟩ := count_in_real EI n
    have h9 : val_main_v9 (F := Ideal) (ix1 n) = 1 :=
      (val_main_v9_apply (F := Ideal) (ix1 n)).trans ofBits_one_f32
    have h13 : val_main_v13 (F := Ideal) EI (ix1 n) = Ideal.rsqrt (((r : ℝ) : EReal) + 1) := by
      rw [val_main_v13_apply, Ideal.hostUnary_rsqrt_def, val_main_v10_apply, Ideal.addf_def, h8, h9]
    rw [h13]
    exact rsqrt_succ_real r hr
  · exact ⟨0, ((val_main_call0_v1_apply (F := Ideal) (ix1 n)).trans Ideal.ofBits_zero_f32).trans EReal.coe_zero.symm⟩

/-- The edge weight is a real number. -/
theorem norm_real (EI : (⟨S2x1600000, .i32⟩ : BufTy).Contents (Elt Ideal)) (e : Fin 1600000) :
    ∃ r : ℝ, val_main_v29 (F := Ideal) EI (ix1 e) = (r : EReal) := by
  rw [val_main_v29_apply, Ideal.mulf_def]
  refine real_mul ?_ ?_
  · unfold val_main_v21
    rw [Cert.Aggregate.gather1_apply_of_dims (by omega) gather_S100000_S1600000x1_S1600000_n_0_n_n_0_1_1
      rfl rfl rfl rfl rfl rfl rfl]
    exact dinv_real EI _
  · unfold val_main_v28
    rw [Cert.Aggregate.gather1_apply_of_dims (by omega) gather_S100000_S1600000x1_S1600000_n_0_n_n_0_1_1
      rfl rfl rfl rfl rfl rfl rfl]
    exact dinv_real EI _

/-- The self-loop weight is a real number. -/
theorem d2_real (EI : (⟨S2x1600000, .i32⟩ : BufTy).Contents (Elt Ideal)) (n : Fin 100000) :
    ∃ r : ℝ, val_main_v43 (F := Ideal) EI (ix1 n) = (r : EReal) := by
  rw [val_main_v43_apply, Ideal.mulf_def]
  exact real_mul (dinv_real EI n) (dinv_real EI n)

end Cert.ReferenceIdeal.GraphReal

end
-- ==== Proof.Assembly.lean ====
/-
  The two programs end with equal results.

  Both compute a two-hop graph convolution with two heads. The first layer is the same formula on
  both sides: a dense map, one hop with bias, the positive part. For each head the kernel takes the
  second hop BEFORE the head's dense map, (hop H)·W + b, and the reference takes it AFTER,
  hop (H·W) + b. The two agree when every number involved is real, because a hop is then linear in
  H: the features and the weights are real by the precondition, the edge and self-loop weights are
  real because they are products of reciprocal square roots of positive counts, and the first layer
  is then real as sums, products and a maximum of reals. The reference recomputes the graph data
  (rows read, rows added to, edge weights, self-loop weights) for each hop; the copies are equal, and
  equal to the kernel's single copy.
-/
import proofs.«159517_j46093589021377_2_alg».proof.Defs
import proofs.«159517_j46093589021377_2_alg».proof.Proof.Gen.KernelIdeal
import proofs.«159517_j46093589021377_2_alg».proof.Proof.Gen.ReferenceIdeal
import proofs.«159517_j46093589021377_2_alg».proof.Proof.Gen.Pre_finite_inputs
import proofs.«159517_j46093589021377_2_alg».proof.Proof.Spec
import proofs.«159517_j46093589021377_2_alg».proof.Proof.Linear
import proofs.«159517_j46093589021377_2_alg».proof.Proof.PreReal
import proofs.«159517_j46093589021377_2_alg».proof.Proof.KernelRun
import proofs.«159517_j46093589021377_2_alg».proof.Proof.KernelGraph
import proofs.«159517_j46093589021377_2_alg».proof.Proof.KernelValue
import proofs.«159517_j46093589021377_2_alg».proof.Proof.RefRun
import proofs.«159517_j46093589021377_2_alg».proof.Proof.RefReadGen
import proofs.«159517_j46093589021377_2_alg».proof.Proof.RefRead
import proofs.«159517_j46093589021377_2_alg».proof.Proof.GraphBridge
import proofs.«159517_j46093589021377_2_alg».proof.Proof.GraphReal

set_option maxRecDepth 16384

noncomputable section

open Idealize.ShloMosaic Idealize.ShloMosaic.ValueIdx

namespace Cert.Gcn

variable {N E K C Q : ℕ}

/-- THE CORE: with one first layer H (given twice, as the array each side holds), one graph (given
    three times: the first side's copy, the other side's copy for the first layer and its copy for the
    second hop) and real data, the hop before the dense map is the hop after it. -/
theorem hop_swap (hN : 0 < N) (X : Mat N K) (W1 : Mat K C) (b1 : Fin C → EReal)
    (src dst : Words E) (nrm : Fin E → EReal) (d2 : Fin N → EReal)
    (src1 dst1 : Words E) (nrm1 : Fin E → EReal) (d21 : Fin N → EReal)
    (src2 dst2 : Words E) (nrm2 : Fin E → EReal) (d22 : Fin N → EReal)
    (hs1 : src = src1) (hd1 : dst = dst1) (hn1 : ∀ e, nrm e = nrm1 e) (h21 : ∀ n, d2 n = d21 n)
    (hs2 : src2 = src1) (hd2 : dst2 = dst1) (hn2 : ∀ e, nrm2 e = nrm1 e) (h22 : ∀ n, d22 n = d21 n)
    (Hk Hr : Mat N C)
    (hk : ∀ n k, Hk (ix2 n k) = layer1At hN X W1 src dst nrm d2 b1 n k)
    (hr : ∀ n k, Hr (ix2 n k) = layer1At hN X W1 src1 dst1 nrm1 d21 b1 n k)
    (hX : RealMat X) (hW1 : RealMat W1) (hb1 : RealFn b1) (hnr : RealFn nrm1) (hdr : RealFn d21)
    (W : Mat C Q) (b : Fin Q → EReal) (hW : RealMat W) (n : Fin N) (q : Fin Q) :
    mixThenDenseAt hN Hk src dst nrm d2 W b n q = denseThenConvAt hN Hr src2 dst2 nrm2 d22 W b n q := by
  obtain rfl : nrm = nrm1 := funext hn1
  obtain rfl : d2 = d21 := funext h21
  obtain rfl : nrm2 = nrm := funext hn2
  obtain rfl : d22 = d2 := funext h22
  subst hs1 hd1 hs2 hd2
  have hHk : RealMat Hk := fun p k => by
    rw [hk p k]; exact layer1At_real hN X W1 src2 dst2 nrm2 d22 b1 hX hW1 hnr hdr hb1 p k
  have hE : Hr = Hk := funext fun i => by
    obtain ⟨p, k, rfl⟩ : ∃ (p : Fin N) (k : Fin C), i = ix2 p k := ⟨i 0, i 1, eq_ix2 i⟩
    exact (hr p k).trans (hk p k).symm
  rw [hE]
  exact mixThenDense_eq_denseThenConv hN Hk src2 dst2 nrm2 d22 W b hHk hnr hdr hW n q

end Cert.Gcn

namespace Cert.Proof.Assembly

open Idealize.ShloMosaic Idealize.ShloMosaic.TcCoe Idealize.SL.Sem Idealize.ShloMosaic.ValueIdx
open Cert.Gcn Cert.KernelIdeal Cert.KernelIdeal.Gen Cert.KernelIdeal.HostRead Cert.ReferenceIdeal.ReadP

/-- There is at least one node. -/
theorem rows_pos : (0 : ℕ) < 100000 := by norm_num

section PerDevice

variable (m : (ℓ : Loc nD τ sig) → Buf (Elt Ideal) ℓ) (ρ : Dev nD → PrngReg) (c : Dev nD)

/-- One head, entry by entry: the reference's hop-after-dense of the launch arrays is the kernel's
    dense-after-hop, given the head's two entry formulas (W, b the head's weights and bias; src2, dst2,
    nrm2, d22 the reference's graph data for this hop). -/
theorem head_entry
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1)
    (W : Mat 128 64) (b : Fin 64 → EReal) (hW : RealMat W)
    (src2 dst2 : Words 1600000) (nrm2 : Fin 1600000 → EReal) (d22 : Fin 100000 → EReal)
    (hs2 : src2 = val_main_v35 (F := Ideal) (m ((c.tc : Thread nD τ).loc main_arg1))) (hd2 : dst2 = val_main_v41 (F := Ideal) (m ((c.tc : Thread nD τ).loc main_arg1)))
    (hn2 : ∀ e, nrm2 e = val_main_v29 (F := Ideal) (m ((c.tc : Thread nD τ).loc main_arg1)) (ix1 e))
    (h22 : ∀ n, d22 n = val_main_v43 (F := Ideal) (m ((c.tc : Thread nD τ).loc main_arg1)) (ix1 n))
    (n : Fin 100000) (q : Fin 64) :
    denseThenConvAt rows_pos (val_main_v51 (F := Ideal) (m ((c.tc : Thread nD τ).loc main_arg0)) (m ((c.tc : Thread nD τ).loc main_arg1)) (m ((c.tc : Thread nD τ).loc main_arg2)) (m ((c.tc : Thread nD τ).loc main_arg3))) src2 dst2 nrm2 d22 W b n q
      = mixThenDenseAt rows_pos (gH1 m ρ c) (wrapCol (gSrc m ρ c)) (col (gDst m ρ c))
          (fun e => gNrm m ρ c (ix2 e (0 : Fin 1))) (fun n => gD2 m ρ c (ix2 n (0 : Fin 1))) W b n q := by
  obtain ⟨r0, r2, r3, -⟩ := Cert.PreReal.real_of_pre _ _ _ _ _ _ _ _ hpre
  exact Eq.symm (hop_swap rows_pos (m ((c.tc : Thread nD τ).loc main_arg0)) (m ((c.tc : Thread nD τ).loc main_arg2)) (fun k => (m ((c.tc : Thread nD τ).loc main_arg3)) (ix1 k))
    (wrapCol (gSrc m ρ c)) (col (gDst m ρ c)) (fun e => gNrm m ρ c (ix2 e (0 : Fin 1))) (fun n => gD2 m ρ c (ix2 n (0 : Fin 1)))
    (val_main_v35 (F := Ideal) (m ((c.tc : Thread nD τ).loc main_arg1))) (val_main_v41 (F := Ideal) (m ((c.tc : Thread nD τ).loc main_arg1)))
    (fun e => val_main_v29 (F := Ideal) (m ((c.tc : Thread nD τ).loc main_arg1)) (ix1 e)) (fun n => val_main_v43 (F := Ideal) (m ((c.tc : Thread nD τ).loc main_arg1)) (ix1 n))
    src2 dst2 nrm2 d22
    (Cert.GraphBridge.src_col m ρ c) (Cert.GraphBridge.dst_col m ρ c) (Cert.GraphBridge.nrm_entry m ρ c) (Cert.GraphBridge.d2_entry m ρ c)
    hs2 hd2 hn2 h22
    (gH1 m ρ c) (val_main_v51 (F := Ideal) (m ((c.tc : Thread nD τ).loc main_arg0)) (m ((c.tc : Thread nD τ).loc main_arg1)) (m ((c.tc : Thread nD τ).loc main_arg2)) (m ((c.tc : Thread nD τ).loc main_arg3)))
    (Cert.KernelIdeal.HostRead.h1_entry m ρ c) (fun n k => Cert.ReferenceIdeal.RefRead.h1_entry _ _ _ _ n k rows_pos)
    r0 r2 r3 (Cert.ReferenceIdeal.GraphReal.norm_real _) (Cert.ReferenceIdeal.GraphReal.d2_real _)
    W b hW n q)

/-- The first head: the reference's result array, of the kernel's launch arrays, is the kernel's. -/
theorem mu_eq
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1) :
    val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = W11 m ρ c (Proc.devRef .tc main_v64) := by
  have hW : RealMat (m ((c.tc : Thread nD τ).loc main_arg4)) := (Cert.PreReal.real_of_pre _ _ _ _ _ _ _ _ hpre).2.2.2.1
  funext i
  obtain ⟨n, q, rfl⟩ : ∃ (n : Fin 100000) (q : Fin 64), i = ix2 n q := ⟨i 0, i 1, eq_ix2 i⟩
  refine (Cert.ReferenceIdeal.RefRead.mu_entry _ _ _ _ _ _ n q rows_pos).trans ?_
  refine Eq.trans ?_ (Cert.KernelIdeal.HostRead.mu_entry m ρ c n q).symm
  exact head_entry m ρ c hpre _ _ hW _ _ _ _ (Cert.GraphBridge.ref_v83 _) (Cert.GraphBridge.ref_v89 _)
    (fun e => congrFun (Cert.GraphBridge.ref_v77 _) (ix1 e)) (fun n => congrFun (Cert.GraphBridge.ref_v91 _) (ix1 n)) n q

/-- The second head, likewise. -/
theorem logstd_eq
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1) :
    val_main_v145 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) = W11 m ρ c (Proc.devRef .tc main_v65) := by
  have hW : RealMat (m ((c.tc : Thread nD τ).loc main_arg6)) := (Cert.PreReal.real_of_pre _ _ _ _ _ _ _ _ hpre).2.2.2.2.2.1
  funext i
  obtain ⟨n, q, rfl⟩ : ∃ (n : Fin 100000) (q : Fin 64), i = ix2 n q := ⟨i 0, i 1, eq_ix2 i⟩
  refine (Cert.ReferenceIdeal.RefRead.logstd_entry _ _ _ _ _ _ n q rows_pos).trans ?_
  refine Eq.trans ?_ (Cert.KernelIdeal.HostRead.logstd_entry m ρ c n q).symm
  exact head_entry m ρ c hpre _ _ hW _ _ _ _ (Cert.GraphBridge.ref_v130 _) (Cert.GraphBridge.ref_v136 _)
    (fun e => congrFun (Cert.GraphBridge.ref_v124 _) (ix1 e)) (fun n => congrFun (Cert.GraphBridge.ref_v138 _) (ix1 n)) n q

end PerDevice

/-- From launch memories that agree on the arguments and satisfy the precondition, both programs run and
    end with equal results, the arguments unchanged. -/
theorem algebraic : Cert.algebraic_KernelIdeal_ReferenceIdeal := by
  intro m ρ m' ρ' hpre hagree
  refine ⟨fun c => W11 m ρ c (Proc.devRef .tc main_v64), fun c => W11 m ρ c (Proc.devRef .tc main_v65),
    Cert.KernelIdeal.Results.run_results (F := Ideal) m ρ, ?_⟩
  refine (θ_run Cert.ReferenceIdeal.defs _ _).mono
    (fun _ h c => ⟨(h c).1.trans ?_, (h c).2.1.trans ?_, (h c).2.2⟩)
    (Cert.ReferenceIdeal.ValueP.run (F := Ideal) m' ρ')
  · rw [Cert.ReferenceIdeal.ReadP.val_main_v98_eq, (hagree c).1, (hagree c).2.1, (hagree c).2.2.1, (hagree c).2.2.2.1,
      (hagree c).2.2.2.2.1, (hagree c).2.2.2.2.2.1]
    exact mu_eq m ρ c (hpre c)
  · rw [Cert.ReferenceIdeal.ReadP.val_main_v145_eq, (hagree c).1, (hagree c).2.1, (hagree c).2.2.1, (hagree c).2.2.2.1,
      (hagree c).2.2.2.2.2.2.1, (hagree c).2.2.2.2.2.2.2]
    exact logstd_eq m ρ c (hpre c)

end Cert.Proof.Assembly

end
-- ==== Proof.lean ====
/-
  The certificate's five claims for the two-layer graph-convolution encoder.

  The kernel program computes the first layer as relu(hop(X·W1) + b1) — the dense product, the edge-weighted
  in-edge sums, the self-loop term and the bias in one arrangement on both sides — and then takes ONE 128-wide hop
  of the first layer and applies the two second-layer weight matrices, joined side by side, after it:
  (hop H1)·[Wμ Wσ] + [bμ bσ], whose column halves are the two results. The reference takes a 64-wide hop of
  H1·Wμ and of H1·Wσ separately: hop(H1·W) + b. A hop — the in-edges' weighted sum plus the node's own row times
  its self-loop weight — is linear in its operand when every number involved is real, so the two orders agree;
  on the extended reals this needs the precondition: the node features, the weights and the biases are real,
  hence so is the first layer; and the edge and self-loop weights are real because a node's degree is a count
  plus one, at least one, and its inverse square root a real number.

  The three frame claims: the two kernel programs' by their generated frame modules; the reference's is its run
  read back with the results dropped. The idealization rewrote nothing, so the preservation claim is trivial.
-/
import proofs.«159517_j46093589021377_2_alg».proof.Defs
import proofs.«159517_j46093589021377_2_alg».proof.Proof.Gen.Kernel
import proofs.«159517_j46093589021377_2_alg».proof.Proof.Gen.Kernel.Skeleton
import proofs.«159517_j46093589021377_2_alg».proof.Proof.Gen.Kernel.Launch
import proofs.«159517_j46093589021377_2_alg».proof.Proof.Gen.Kernel.Points
import proofs.«159517_j46093589021377_2_alg».proof.Proof.Gen.Kernel.Frame
import proofs.«159517_j46093589021377_2_alg».proof.Proof.Gen.KernelIdeal
import proofs.«159517_j46093589021377_2_alg».proof.Proof.Gen.KernelIdeal.Skeleton
import proofs.«159517_j46093589021377_2_alg».proof.Proof.Gen.KernelIdeal.Launch
import proofs.«159517_j46093589021377_2_alg».proof.Proof.Gen.KernelIdeal.Points
import proofs.«159517_j46093589021377_2_alg».proof.Proof.Gen.KernelIdeal.Frame
import proofs.«159517_j46093589021377_2_alg».proof.Proof.Gen.ReferenceIdeal
import proofs.«159517_j46093589021377_2_alg».proof.Proof.Gen.Pre_finite_inputs
import proofs.«159517_j46093589021377_2_alg».proof.Proof.RefRun
import proofs.«159517_j46093589021377_2_alg».proof.Proof.Assembly
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run names its two results and keeps the arguments; the frame claim keeps only the arguments. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, Cert.Proof.Assembly.algebraic⟩

end Cert.Proof

end
